-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x600000 : Shape := ⟨2, ![2, 600000]⟩
abbrev S128x3 : Shape := ⟨2, ![128, 3]⟩
abbrev S128 : Shape := ⟨1, ![128]⟩
abbrev S128x128 : Shape := ⟨2, ![128, 128]⟩
abbrev S256x128 : Shape := ⟨2, ![256, 128]⟩
abbrev S256 : Shape := ⟨1, ![256]⟩
abbrev S8x256 : Shape := ⟨2, ![8, 256]⟩
abbrev S8 : Shape := ⟨1, ![8]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S128x3 : S_.BroadcastsInDim S128x3 (![] : Fin 0 → Fin S128x3.rank)
  reducesTo_S128x3_S_d0_1 : S128x3.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S8x256 : S_.BroadcastsInDim S8x256 (![] : Fin 0 → Fin S8x256.rank)
  reducesTo_S8x256_S_d0_1 : S8x256.ReducesTo [0, 1] S_
  bcast_S_S8 : S_.BroadcastsInDim S8 (![] : Fin 0 → Fin S8.rank)
  reducesTo_S8_S_d0 : S8.ReducesTo [0] S_

variable [Facts]

def fn_part3 {F : FTy → Type} [FloatOps F] (main_v48 : IVec S_ 1) (main_v49 : FVec F S8 .f32) (main_v50 : FVec F S8 .f32) : IVec S_ 1 :=
  let main_v51 : IVec S8 1 := cmpf .olt main_v49 main_v50
  let main_c_19 : IVec S_ 1 := constantI S_ 1 1#1
  let main_v52 : IVec S_ 1 := (fun x v => Host.reduce IntOp.andi x v reducesTo_S8_S_d0 h_S_) main_v51 main_c_19
  let main_v53 : IVec S_ 1 := andi main_v48 main_v52
  main_v53

def fn_part2 {F : FTy → Type} [FloatOps F] (main_arg8 : FVec F S256x128 .f32) (main_arg9 : FVec F S256 .f32) (main_arg10 : FVec F S8x256 .f32) (main_arg11 : FVec F S8 .f32) (main_v33 : IVec S_ 1) : IVec S_ 1 :=
  let main_v34 : FVec F S256x128 .f32 := Host.absf main_arg8
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S8x256 .f32 := Host.absf main_arg10
  let main_cst_16 : FVec F S_ .f32 := constant S_ .f32 0x7F800000#32
  let main_v45 : FVec F S8x256 .f32 := broadcastInDim S8x256 ![] bcast_S_S8x256 main_cst_16
  let main_v46 : IVec S8x256 1 := cmpf .olt main_v44 main_v45
  let main_c_17 : IVec S_ 1 := constantI S_ 1 1#1
  let main_v47 : IVec S_ 1 := (fun x v => Host.reduce IntOp.andi x v reducesTo_S8x256_S_d0_1 h_S_) main_v46 main_c_17
  let main_v48 : IVec S_ 1 := andi main_v43 main_v47
  let main_v49 : FVec F S8 .f32 := Host.absf main_arg11
  let main_cst_18 : FVec F S_ .f32 := constant S_ .f32 0x7F800000#32
  let main_v50 : FVec F S8 .f32 := broadcastInDim S8 ![] bcast_S_S8 main_cst_18
  fn_part3 (F := F) main_v48 main_v49 main_v50

def fn_part1 {F : FTy → Type} [FloatOps F] (main_arg5 : FVec F S128x128 .f32) (main_arg6 : FVec F S128 .f32) (main_arg7 : FVec F S128x128 .f32) (main_arg8 : FVec F S256x128 .f32) (main_arg9 : FVec F S256 .f32) (main_arg10 : FVec F S8x256 .f32) (main_arg11 : FVec F S8 .f32) (main_v13 : IVec S_ 1) (main_v16 : IVec S128x3 1) : IVec S_ 1 :=
  let main_c_5 : IVec S_ 1 := constantI S_ 1 1#1
  let main_v17 : IVec S_ 1 := (fun x v => Host.reduce IntOp.andi x v reducesTo_S128x3_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x3 .f32) (main_arg1 : IVec S2x600000 32) (main_arg2 : FVec F S128x3 .f32) (main_arg3 : FVec F S128 .f32) (main_arg4 : FVec F S128x3 .f32) (main_arg5 : FVec F S128x128 .f32) (main_arg6 : FVec F S128 .f32) (main_arg7 : FVec F S128x128 .f32) (main_arg8 : FVec F S256x128 .f32) (main_arg9 : FVec F S256 .f32) (main_arg10 : FVec F S8x256 .f32) (main_arg11 : FVec F S8 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S128x3 .f32 := Host.absf main_arg2
  let main_cst_0 : FVec F S_ .f32 := constant S_ .f32 0x7F800000#32
  let main_v5 : FVec F S128x3 .f32 := broadcastInDim S128x3 ![] bcast_S_S128x3 main_cst_0
  let main_v6 : IVec S128x3 1 := cmpf .olt main_v4 main_v5
  let main_c_1 : IVec S_ 1 := constantI S_ 1 1#1
  let main_v7 : IVec S_ 1 := (fun x v => Host.reduce IntOp.andi x v reducesTo_S128x3_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x3 .f32 := Host.absf main_arg4
  let main_cst_4 : FVec F S_ .f32 := constant S_ .f32 0x7F800000#32
  let main_v15 : FVec F S128x3 .f32 := broadcastInDim S128x3 ![] bcast_S_S128x3 main_cst_4
  let main_v16 : IVec S128x3 1 := cmpf .olt main_v14 main_v15
  fn_part1 (F := F) main_arg5 main_arg6 main_arg7 main_arg8 main_arg9 main_arg10 main_arg11 main_v13 main_v16
-- ==== Kernel.lean ====
abbrev S100000x3 : Shape := ⟨2, ![100000, 3]⟩
abbrev S2x600000 : Shape := ⟨2, ![2, 600000]⟩
abbrev S128x3 : Shape := ⟨2, ![128, 3]⟩
abbrev S128 : Shape := ⟨1, ![128]⟩
abbrev S128x128 : Shape := ⟨2, ![128, 128]⟩
abbrev S256x128 : Shape := ⟨2, ![256, 128]⟩
abbrev S256 : Shape := ⟨1, ![256]⟩
abbrev S8x256 : Shape := ⟨2, ![8, 256]⟩
abbrev S8 : Shape := ⟨1, ![8]⟩
abbrev S2x2 : Shape := ⟨2, ![2, 2]⟩
abbrev S1x600000 : Shape := ⟨2, ![1, 600000]⟩
abbrev S600000 : Shape := ⟨1, ![600000]⟩
abbrev S100000x2 : Shape := ⟨2, ![100000, 2]⟩
abbrev S100000x1 : Shape := ⟨2, ![100000, 1]⟩
abbrev S_ : Shape := ⟨0, ![]⟩
abbrev S2 : Shape := ⟨1, ![2]⟩
abbrev S1 : Shape := ⟨1, ![1]⟩
abbrev S1x2 : Shape := ⟨2, ![1, 2]⟩
abbrev S1x1 : Shape := ⟨2, ![1, 1]⟩
abbrev S600000x1 : Shape := ⟨2, ![600000, 1]⟩
abbrev S600000x3 : Shape := ⟨2, ![600000, 3]⟩
abbrev S100000 : Shape := ⟨1, ![100000]⟩
abbrev S100000x128 : Shape := ⟨2, ![100000, 128]⟩
abbrev S2000x3 : Shape := ⟨2, ![2000, 3]⟩
abbrev S2000x128 : Shape := ⟨2, ![2000, 128]⟩
abbrev S3x128 : Shape := ⟨2, ![3, 128]⟩
abbrev S1x128 : Shape := ⟨2, ![1, 128]⟩
abbrev S600000x128 : Shape := ⟨2, ![600000, 128]⟩
abbrev S100000x8 : Shape := ⟨2, ![100000, 8]⟩
abbrev S2000x8 : Shape := ⟨2, ![2000, 8]⟩
abbrev S128x256 : Shape := ⟨2, ![128, 256]⟩
abbrev S2000x256 : Shape := ⟨2, ![2000, 256]⟩
abbrev S1x256 : Shape := ⟨2, ![1, 256]⟩
abbrev S256x8 : Shape := ⟨2, ![256, 8]⟩
abbrev S1x8 : Shape := ⟨2, ![1, 8]⟩
abbrev S2000 : Shape := ⟨1, ![2000]⟩
abbrev S2000x1 : Shape := ⟨2, ![2000, 1]⟩

abbrev nBuf : Space → Nat
  | .hbm => 112
  | .vmem => 22
  | .smem => 0
  | _ => 0

abbrev bufTy : (tb : Table) → Fin (tcTables nBuf tb) → BufTy
  | .hbm, ⟨0, _⟩ => ⟨S100000x3, .f32⟩
  | .hbm, ⟨1, _⟩ => ⟨S2x600000, .i32⟩
  | .hbm, ⟨2, _⟩ => ⟨S128x3, .f32⟩
  | .hbm, ⟨3, _⟩ => ⟨S128, .f32⟩
  | .hbm, ⟨4, _⟩ => ⟨S128x3, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S256x128, .f32⟩
  | .hbm, ⟨9, _⟩ => ⟨S256, .f32⟩
  | .hbm, ⟨10, _⟩ => ⟨S8x256, .f32⟩
  | .hbm, ⟨11, _⟩ => ⟨S8, .f32⟩
  | .hbm, ⟨12, _⟩ => ⟨S2x2, .f32⟩
  | .hbm, ⟨13, _⟩ => ⟨S2x2, .f32⟩
  | .hbm, ⟨14, _⟩ => ⟨S1x600000, .i32⟩
  | .hbm, ⟨15, _⟩ => ⟨S600000, .i32⟩
  | .hbm, ⟨16, _⟩ => ⟨S1x600000, .i32⟩
  | .hbm, ⟨17, _⟩ => ⟨S600000, .i32⟩
  | .hbm, ⟨18, _⟩ => ⟨S100000x2, .f32⟩
  | .hbm, ⟨19, _⟩ => ⟨S100000x1, .f32⟩
  | .hbm, ⟨20, _⟩ => ⟨S_, .f32⟩
  | .hbm, ⟨21, _⟩ => ⟨S2, .f32⟩
  | .hbm, ⟨22, _⟩ => ⟨S_, .f32⟩
  | .hbm, ⟨23, _⟩ => ⟨S2, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S2x2, .f32⟩
  | .hbm, ⟨29, _⟩ => ⟨S2x2, .f32⟩
  | .hbm, ⟨30, _⟩ => ⟨S2x2, .f32⟩
  | .hbm, ⟨31, _⟩ => ⟨S2x2, .f32⟩
  | .hbm, ⟨32, _⟩ => ⟨S2x2, .f32⟩
  | .hbm, ⟨33, _⟩ => ⟨S2x2, .f32⟩
  | .hbm, ⟨34, _⟩ => ⟨S100000x2, .f32⟩
  | .hbm, ⟨35, _⟩ => ⟨S1, .f32⟩
  | .hbm, ⟨36, _⟩ => ⟨S_, .f32⟩
  | .hbm, ⟨37, _⟩ => ⟨S1, .f32⟩
  | .hbm, ⟨38, _⟩ => ⟨S_, .f32⟩
  | .hbm, ⟨39, _⟩ => ⟨S_, .f32⟩
  | .hbm, ⟨40, _⟩ => ⟨S1, .f32⟩
  | .hbm, ⟨41, _⟩ => ⟨S_, .f32⟩
  | .hbm, ⟨42, _⟩ => ⟨S1, .f32⟩
  | .hbm, ⟨43, _⟩ => ⟨S_, .f32⟩
  | .hbm, ⟨44, _⟩ => ⟨S_, .f32⟩
  | .hbm, ⟨45, _⟩ => ⟨S_, .i1⟩
  | .hbm, ⟨46, _⟩ => ⟨S100000x2, .f32⟩
  | .hbm, ⟨47, _⟩ => ⟨S_, .f32⟩
  | .hbm, ⟨48, _⟩ => ⟨S2, .f32⟩
  | .hbm, ⟨49, _⟩ => ⟨S_, .f32⟩
  | .hbm, ⟨50, _⟩ => ⟨S2, .f32⟩
  | .hbm, ⟨51, _⟩ => ⟨S2, .f32⟩
  | .hbm, ⟨52, _⟩ => ⟨S1x2, .f32⟩
  | .hbm, ⟨53, _⟩ => ⟨S100000x2, .f32⟩
  | .hbm, ⟨54, _⟩ => ⟨S100000x2, .f32⟩
  | .hbm, ⟨55, _⟩ => ⟨S_, .f32⟩
  | .hbm, ⟨56, _⟩ => ⟨S2, .f32⟩
  | .hbm, ⟨57, _⟩ => ⟨S1x2, .f32⟩
  | .hbm, ⟨58, _⟩ => ⟨S100000x2, .f32⟩
  | .hbm, ⟨59, _⟩ => ⟨S100000x2, .f32⟩
  | .hbm, ⟨60, _⟩ => ⟨S_, .f32⟩
  | .hbm, ⟨61, _⟩ => ⟨S1, .f32⟩
  | .hbm, ⟨62, _⟩ => ⟨S1x1, .f32⟩
  | .hbm, ⟨63, _⟩ => ⟨S100000x1, .f32⟩
  | .hbm, ⟨64, _⟩ => ⟨S100000x1, .f32⟩
  | .hbm, ⟨65, _⟩ => ⟨S100000x3, .f32⟩
  | .hbm, ⟨66, _⟩ => ⟨S_, .i32⟩
  | .hbm, ⟨67, _⟩ => ⟨S600000, .i32⟩
  | .hbm, ⟨68, _⟩ => ⟨S600000, .i1⟩
  | .hbm, ⟨69, _⟩ => ⟨S_, .i32⟩
  | .hbm, ⟨70, _⟩ => ⟨S600000, .i32⟩
  | .hbm, ⟨71, _⟩ => ⟨S600000, .i32⟩
  | .hbm, ⟨72, _⟩ => ⟨S600000, .i32⟩
  | .hbm, ⟨73, _⟩ => ⟨S600000x1, .i32⟩
  | .hbm, ⟨74, _⟩ => ⟨S600000x3, .f32⟩
  | .hbm, ⟨75, _⟩ => ⟨S_, .f32⟩
  | .hbm, ⟨76, _⟩ => ⟨S100000x3, .f32⟩
  | .hbm, ⟨77, _⟩ => ⟨S600000x1, .i32⟩
  | .hbm, ⟨78, _⟩ => ⟨S100000x3, .f32⟩
  | .hbm, ⟨79, _⟩ => ⟨S_, .f32⟩
  | .hbm, ⟨80, _⟩ => ⟨S600000, .f32⟩
  | .hbm, ⟨81, _⟩ => ⟨S_, .f32⟩
  | .hbm, ⟨82, _⟩ => ⟨S100000, .f32⟩
  | .hbm, ⟨83, _⟩ => ⟨S600000x1, .i32⟩
  | .hbm, ⟨84, _⟩ => ⟨S100000, .f32⟩
  | .hbm, ⟨85, _⟩ => ⟨S_, .f32⟩
  | .hbm, ⟨86, _⟩ => ⟨S100000, .f32⟩
  | .hbm, ⟨87, _⟩ => ⟨S100000, .f32⟩
  | .hbm, ⟨88, _⟩ => ⟨S_, .f32⟩
  | .hbm, ⟨89, _⟩ => ⟨S100000, .f32⟩
  | .hbm, ⟨90, _⟩ => ⟨S100000, .f32⟩
  | .hbm, ⟨91, _⟩ => ⟨S100000x1, .f32⟩
  | .hbm, ⟨92, _⟩ => ⟨S100000x3, .f32⟩
  | .hbm, ⟨93, _⟩ => ⟨S100000x3, .f32⟩
  | .hbm, ⟨94, _⟩ => ⟨S100000x128, .f32⟩
  | .hbm, ⟨95, _⟩ => ⟨S_, .i32⟩
  | .hbm, ⟨96, _⟩ => ⟨S600000, .i32⟩
  | .hbm, ⟨97, _⟩ => ⟨S600000, .i1⟩
  | .hbm, ⟨98, _⟩ => ⟨S_, .i32⟩
  | .hbm, ⟨99, _⟩ => ⟨S600000, .i32⟩
  | .hbm, ⟨100, _⟩ => ⟨S600000, .i32⟩
  | .hbm, ⟨101, _⟩ => ⟨S600000, .i32⟩
  | .hbm, ⟨102, _⟩ => ⟨S600000x1, .i32⟩
  | .hbm, ⟨103, _⟩ => ⟨S600000x128, .f32⟩
  | .hbm, ⟨104, _⟩ => ⟨S_, .f32⟩
  | .hbm, ⟨105, _⟩ => ⟨S100000x128, .f32⟩
  | .hbm, ⟨106, _⟩ => ⟨S600000x1, .i32⟩
  | .hbm, ⟨107, _⟩ => ⟨S100000x128, .f32⟩
  | .hbm, ⟨108, _⟩ => ⟨S100000x1, .f32⟩
  | .hbm, ⟨109, _⟩ => ⟨S100000x128, .f32⟩
  | .hbm, ⟨110, _⟩ => ⟨S100000x128, .f32⟩
  | .hbm, ⟨111, _⟩ => ⟨S100000x8, .f32⟩
  | .local _ .vmem, ⟨0, _⟩ => ⟨S2000x3, .f32⟩
  | .local _ .vmem, ⟨1, _⟩ => ⟨S2000x3, .f32⟩
  | .local _ .vmem, ⟨2, _⟩ => ⟨S2000x3, .f32⟩
  | .local _ .vmem, ⟨3, _⟩ => ⟨S2000x3, .f32⟩
  | .local _ .vmem, ⟨4, _⟩ => ⟨S128x3, .f32⟩
  | .local _ .vmem, ⟨5, _⟩ => ⟨S128, .f32⟩
  | .local _ .vmem, ⟨6, _⟩ => ⟨S128x3, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128, .f32⟩
  | .local _ .vmem, ⟨15, _⟩ => ⟨S128x128, .f32⟩
  | .local _ .vmem, ⟨16, _⟩ => ⟨S256x128, .f32⟩
  | .local _ .vmem, ⟨17, _⟩ => ⟨S256, .f32⟩
  | .local _ .vmem, ⟨18, _⟩ => ⟨S8x256, .f32⟩
  | .local _ .vmem, ⟨19, _⟩ => ⟨S8, .f32⟩
  | .local _ .vmem, ⟨20, _⟩ => ⟨S2000x8, .f32⟩
  | .local _ .vmem, ⟨21, _⟩ => ⟨S2000x8, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_cst_0 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_cst_2 : Ref sig .tc := ⟨.hbm, 22, rfl⟩
abbrev main_v7 : Ref sig .tc := ⟨.hbm, 23, rfl⟩
abbrev main_cst_3 : Ref sig .tc := ⟨.hbm, 24, rfl⟩
abbrev main_v8 : Ref sig .tc := ⟨.hbm, 25, rfl⟩
abbrev main_cst_4 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_cst_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_8 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c : Ref sig .tc := ⟨.hbm, 66, rfl⟩
abbrev main_v44 : Ref sig .tc := ⟨.hbm, 67, rfl⟩
abbrev main_v45 : Ref sig .tc := ⟨.hbm, 68, rfl⟩
abbrev main_c_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_11 : Ref sig .tc := ⟨.hbm, 79, rfl⟩
abbrev main_v54 : Ref sig .tc := ⟨.hbm, 80, rfl⟩
abbrev main_cst_12 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_13 : Ref sig .tc := ⟨.hbm, 85, rfl⟩
abbrev main_v58 : Ref sig .tc := ⟨.hbm, 86, rfl⟩
abbrev main_v59 : Ref sig .tc := ⟨.hbm, 87, rfl⟩
abbrev main_cst_14 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_15 : Ref sig .tc := ⟨.hbm, 95, rfl⟩
abbrev main_v66 : Ref sig .tc := ⟨.hbm, 96, rfl⟩
abbrev main_v67 : Ref sig .tc := ⟨.hbm, 97, rfl⟩
abbrev main_c_16 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_17 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg9_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem9_1 : DmaSem sig := 21

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S8x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S8 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x8 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  slices_S100000x3_S100000x2_0_0 : S100000x3.Slices ![0, 0] S100000x2
  slices_S100000x3_S100000x1_0_2 : S100000x3.Slices ![0, 2] S100000x1
  reducesTo_S100000x2_S2_d0 : S100000x2.ReducesTo [0] S2
  h_S_ : 0 < S_.numel
  bcast_S_S2x2 : S_.BroadcastsInDim S2x2 (![] : Fin 0 → Fin S2x2.rank)
  transposes_S2x2_S2x2_1_0 : S2x2.Transposes [1, 0] S2x2
  slices_S2_S1_1 : S2.Slices ![1] S1
  shapeCasts_S1_S_ : S1.ShapeCasts S_
  slices_S2_S1_0 : S2.Slices ![0] S1
  bcast_S_S100000x2 : S_.BroadcastsInDim S100000x2 (![] : Fin 0 → Fin S100000x2.rank)
  bcast_S_S2 : S_.BroadcastsInDim S2 (![] : Fin 0 → Fin S2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x1_S1_d0 : S100000x1.ReducesTo [0] S1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  concatenates_S100000x2_S100000x1_S100000x3_d1 : Shape.Concatenates [S100000x2, S100000x1] S100000x3 1
  bcast_S_S600000 : S_.BroadcastsInDim S600000 (![] : Fin 0 → Fin S600000.rank)
  bcast_S600000_S600000x1_0 : S600000.BroadcastsInDim S600000x1 (![0] : Fin 1 → Fin S600000x1.rank)
  bcast_S_S100000x3 : S_.BroadcastsInDim S100000x3 (![] : Fin 0 → Fin S100000x3.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x3_0_1 : S100000x1.BroadcastsInDim S100000x3 (![0, 1] : Fin 2 → Fin S100000x3.rank)
  inb_S2000x3_S2000x3_0_0 : ∀ a, (![0, 0] : Fin 2 → Nat) a + S2000x3.size a ≤ S2000x3.size a
  h_S2000x3 : 0 < S2000x3.numel
  shapeCasts_S2000x3_S2000x3 : S2000x3.ShapeCasts S2000x3
  bitsLt_bf16_f32 : FTy.bits .bf16 < FTy.bits .f32
  inb_S128x3_S128x3_0_0 : ∀ a, (![0, 0] : Fin 2 → Nat) a + S128x3.size a ≤ S128x3.size a
  h_S128x3 : 0 < S128x3.numel
  inb_S128_S128_0 : ∀ a, (![0] : Fin 1 → Nat) a + S128.size a ≤ S128.size a
  h_S128 : 0 < S128.numel
  transposes_S128x3_p1_0_S3x128 : S128x3.Transposes [1, 0] S3x128
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S256x128_S256x128_0_0 : ∀ a, (![0, 0] : Fin 2 → Nat) a + S256x128.size a ≤ S256x128.size a
  h_S256x128 : 0 < S256x128.numel
  inb_S256_S256_0 : ∀ a, (![0] : Fin 1 → Nat) a + S256.size a ≤ S256.size a
  h_S256 : 0 < S256.numel
  transposes_S256x128_p1_0_S128x256 : S256x128.Transposes [1, 0] S128x256
  shapeCasts_S256_S1x256 : S256.ShapeCasts S1x256
  broadcasts_S1x256_S2000x256 : S1x256.Broadcasts S2000x256
  inb_S8x256_S8x256_0_0 : ∀ a, (![0, 0] : Fin 2 → Nat) a + S8x256.size a ≤ S8x256.size a
  h_S8x256 : 0 < S8x256.numel
  inb_S8_S8_0 : ∀ a, (![0] : Fin 1 → Nat) a + S8.size a ≤ S8.size a
  h_S8 : 0 < S8.numel
  transposes_S8x256_p1_0_S256x8 : S8x256.Transposes [1, 0] S256x8
  shapeCasts_S8_S1x8 : S8.ShapeCasts S1x8
  broadcasts_S1x8_S2000x8 : S1x8.Broadcasts S2000x8
  reduces_S2000x8_S2000 : S2000x8.Reduces [1] S2000
  shapeCasts_S2000_S2000x1 : S2000.ShapeCasts S2000x1
  broadcasts_S2000x1_S2000x8 : S2000x1.Broadcasts S2000x8
  inb_S2000x8_S2000x8_0_0 : ∀ a, (![0, 0] : Fin 2 → Nat) a + S2000x8.size a ≤ S2000x8.size a
  h_S2000x8 : 0 < S2000x8.numel
  dot_S100000x2_S2x2_S100000x2_1_0_0_1_n_n_wf : DotDims.WF S100000x2 S2x2 S100000x2 [1] [0] [0] [1] [] []
  gather_S100000x3_S600000x1_S600000x3_1_0_n_n_0_1_13_wf : GatherDims.WF S100000x3 S600000x1 S600000x3 [1] [0] [] [0] [] 1 ![1, 3]
  scatter_S100000x3_S600000x1_S600000x3_1_0_0_1_wf : ScatterDims.WF S100000x3 S600000x1 S600000x3 [1] [0] [0] 1
  scatter_S100000_S600000x1_S600000_n_0_0_1_wf : ScatterDims.WF S100000 S600000x1 S600000 [] [0] [0] 1
  dot_S2000x3_S3x128_S2000x128_1_0_0_1_n_n_wf : DotDims.WF S2000x3 S3x128 S2000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S2000x128_S128x128_S2000x128_1_0_0_1_n_n_wf : DotDims.WF S2000x128 S128x128 S2000x128 [1] [0] [0] [1] [] []
  dot_S2000x128_S128x256_S2000x256_1_0_0_1_n_n_wf : DotDims.WF S2000x128 S128x256 S2000x256 [1] [0] [0] [1] [] []
  dot_S2000x256_S256x8_S2000x8_1_0_0_1_n_n_wf : DotDims.WF S2000x256 S256x8 S2000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x3.size a ≤ S100000x3.size a
  hwx0_0 : ∀ i : grid0.Coords, EltTy.bits .f32 = 32 ∨ (Rect.block (s := S100000x3) S2000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x3.size a ≤ S100000x3.size a
  hwx0_1 : ∀ i : grid0.Coords, EltTy.bits .f32 = 32 ∨ (Rect.block (s := S100000x3) S2000x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x3.size a ≤ S128x3.size a
  hwx0_2 : ∀ i : grid0.Coords, EltTy.bits .f32 = 32 ∨ (Rect.block (s := S128x3) S128x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x3.size a ≤ S128x3.size a
  hwx0_4 : ∀ i : grid0.Coords, EltTy.bits .f32 = 32 ∨ (Rect.block (s := S128x3) S128x3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S256x128.size a
  hwx1_5 : ∀ i : grid1.Coords, EltTy.bits .f32 = 32 ∨ (Rect.block (s := S256x128) S256x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256.size a ≤ S256.size a
  hwx1_6 : ∀ i : grid1.Coords, EltTy.bits .f32 = 32 ∨ (Rect.block (s := S256) S256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S8x256.size a ≤ S8x256.size a
  hwx1_7 : ∀ i : grid1.Coords, EltTy.bits .f32 = 32 ∨ (Rect.block (s := S8x256) S8x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S8.size a ≤ S8.size a
  hwx1_8 : ∀ i : grid1.Coords, EltTy.bits .f32 = 32 ∨ (Rect.block (s := S8) S8.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x8.size a ≤ S100000x8.size a
  hwx1_9 : ∀ i : grid1.Coords, EltTy.bits .f32 = 32 ∨ (Rect.block (s := S100000x8) S2000x8.size (cc1_transform_9 i) (hinb1_9 i)).WholeWords (EltTy.packing .f32)

variable [Facts₀]

def dot_S100000x2_S2x2_S100000x2_1_0_0_1_n_n : DotDims S100000x2 S2x2 S100000x2 where
  lhsContracting := [1]
  rhsContracting := [0]
  lhsNonContracting := [0]
  rhsNonContracting := [1]
  lhsBatch := []
  rhsBatch := []
  wf := dot_S100000x2_S2x2_S100000x2_1_0_0_1_n_n_wf
def gather_S100000x3_S600000x1_S600000x3_1_0_n_n_0_1_13 : GatherDims S100000x3 S600000x1 S600000x3 where
  offsetDims := [1]
  collapsedSliceDims := [0]
  operandBatchingDims := []
  startIndicesBatchingDims := []
  startIndexMap := [0]
  indexVectorDim := 1
  sliceSizes := ![1, 3]
  wf := gather_S100000x3_S600000x1_S600000x3_1_0_n_n_0_1_13_wf
def scatter_S100000x3_S600000x1_S600000x3_1_0_0_1 : ScatterDims S100000x3 S600000x1 S600000x3 where
  updateWindowDims := [1]
  insertedWindowDims := [0]
  scatterDimsToOperandDims := [0]
  indexVectorDim := 1
  wf := scatter_S100000x3_S600000x1_S600000x3_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S2000x3_S3x128_S2000x128_1_0_0_1_n_n : DotDims S2000x3 S3x128 S2000x128 where
  lhsContracting := [1]
  rhsContracting := [0]
  lhsNonContracting := [0]
  rhsNonContracting := [1]
  lhsBatch := []
  rhsBatch := []
  wf := dot_S2000x3_S3x128_S2000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x8_S2000x8_1_0_0_1_n_n : DotDims S2000x256 S256x8 S2000x8 where
  lhsContracting := [1]
  rhsContracting := [0]
  lhsNonContracting := [0]
  rhsNonContracting := [1]
  lhsBatch := []
  rhsBatch := []
  wf := dot_S2000x256_S256x8_S2000x8_1_0_0_1_n_n_wf

abbrev win0_0 : Pipeline.Window sig grid0 :=
  Pipeline.Window.ofSpec (Memref.whole main_v64) S2000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v43) S2000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x3.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x3.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v65) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v78) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v65) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S256x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S8x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg11) S8.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v79) S2000x8.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x3 : Shape := ⟨2, ![100000, 3]⟩
abbrev S2x600000 : Shape := ⟨2, ![2, 600000]⟩
abbrev S128x3 : Shape := ⟨2, ![128, 3]⟩
abbrev S128 : Shape := ⟨1, ![128]⟩
abbrev S128x128 : Shape := ⟨2, ![128, 128]⟩
abbrev S256x128 : Shape := ⟨2, ![256, 128]⟩
abbrev S256 : Shape := ⟨1, ![256]⟩
abbrev S8x256 : Shape := ⟨2, ![8, 256]⟩
abbrev S8 : Shape := ⟨1, ![8]⟩
abbrev S2x2 : Shape := ⟨2, ![2, 2]⟩
abbrev S1x600000 : Shape := ⟨2, ![1, 600000]⟩
abbrev S600000 : Shape := ⟨1, ![600000]⟩
abbrev S100000x2 : Shape := ⟨2, ![100000, 2]⟩
abbrev S100000x1 : Shape := ⟨2, ![100000, 1]⟩
abbrev S_ : Shape := ⟨0, ![]⟩
abbrev S2 : Shape := ⟨1, ![2]⟩
abbrev S1 : Shape := ⟨1, ![1]⟩
abbrev S1x2 : Shape := ⟨2, ![1, 2]⟩
abbrev S1x1 : Shape := ⟨2, ![1, 1]⟩
abbrev S600000x1 : Shape := ⟨2, ![600000, 1]⟩
abbrev S600000x3 : Shape := ⟨2, ![600000, 3]⟩
abbrev S100000 : Shape := ⟨1, ![100000]⟩
abbrev S3x128 : Shape := ⟨2, ![3, 128]⟩
abbrev S100000x128 : Shape := ⟨2, ![100000, 128]⟩
abbrev S1x128 : Shape := ⟨2, ![1, 128]⟩
abbrev S600000x128 : Shape := ⟨2, ![600000, 128]⟩
abbrev S128x256 : Shape := ⟨2, ![128, 256]⟩
abbrev S100000x256 : Shape := ⟨2, ![100000, 256]⟩
abbrev S1x256 : Shape := ⟨2, ![1, 256]⟩
abbrev S256x8 : Shape := ⟨2, ![256, 8]⟩
abbrev S100000x8 : Shape := ⟨2, ![100000, 8]⟩
abbrev S1x8 : Shape := ⟨2, ![1, 8]⟩

abbrev nBuf : Space → Nat
  | .hbm => 159
  | .vmem => 0
  | .smem => 0
  | _ => 0

abbrev hbmTy0_0 (i : Nat) : BufTy := match i % 128 with
  | 0 => ⟨S100000x3, .f32⟩
  | 1 => ⟨S2x600000, .i32⟩
  | 2 => ⟨S128x3, .f32⟩
  | 3 => ⟨S128, .f32⟩
  | 4 => ⟨S128x3, .f32⟩
  | 5 => ⟨S128x128, .f32⟩
  | 6 => ⟨S128, .f32⟩
  | 7 => ⟨S128x128, .f32⟩
  | 8 => ⟨S256x128, .f32⟩
  | 9 => ⟨S256, .f32⟩
  | 10 => ⟨S8x256, .f32⟩
  | 11 => ⟨S8, .f32⟩
  | 12 => ⟨S2x2, .f32⟩
  | 13 => ⟨S2x2, .f32⟩
  | 14 => ⟨S1x600000, .i32⟩
  | 15 => ⟨S600000, .i32⟩
  | 16 => ⟨S1x600000, .i32⟩
  | 17 => ⟨S600000, .i32⟩
  | 18 => ⟨S100000x2, .f32⟩
  | 19 => ⟨S100000x1, .f32⟩
  | 20 => ⟨S_, .f32⟩
  | 21 => ⟨S2, .f32⟩
  | 22 => ⟨S_, .f32⟩
  | 23 => ⟨S2, .f32⟩
  | 24 => ⟨S_, .f32⟩
  | 25 => ⟨S_, .f32⟩
  | 26 => ⟨S_, .f32⟩
  | 27 => ⟨S_, .f32⟩
  | 28 => ⟨S2x2, .f32⟩
  | 29 => ⟨S2x2, .f32⟩
  | 30 => ⟨S2x2, .f32⟩
  | 31 => ⟨S2x2, .f32⟩
  | 32 => ⟨S2x2, .f32⟩
  | 33 => ⟨S2x2, .f32⟩
  | 34 => ⟨S100000x2, .f32⟩
  | 35 => ⟨S1, .f32⟩
  | 36 => ⟨S_, .f32⟩
  | 37 => ⟨S1, .f32⟩
  | 38 => ⟨S_, .f32⟩
  | 39 => ⟨S_, .f32⟩
  | 40 => ⟨S1, .f32⟩
  | 41 => ⟨S_, .f32⟩
  | 42 => ⟨S1, .f32⟩
  | 43 => ⟨S_, .f32⟩
  | 44 => ⟨S_, .f32⟩
  | 45 => ⟨S_, .i1⟩
  | 46 => ⟨S100000x2, .f32⟩
  | 47 => ⟨S_, .f32⟩
  | 48 => ⟨S2, .f32⟩
  | 49 => ⟨S_, .f32⟩
  | 50 => ⟨S2, .f32⟩
  | 51 => ⟨S2, .f32⟩
  | 52 => ⟨S1x2, .f32⟩
  | 53 => ⟨S100000x2, .f32⟩
  | 54 => ⟨S100000x2, .f32⟩
  | 55 => ⟨S_, .f32⟩
  | 56 => ⟨S2, .f32⟩
  | 57 => ⟨S1x2, .f32⟩
  | 58 => ⟨S100000x2, .f32⟩
  | 59 => ⟨S100000x2, .f32⟩
  | 60 => ⟨S_, .f32⟩
  | 61 => ⟨S1, .f32⟩
  | 62 => ⟨S1x1, .f32⟩
  | 63 => ⟨S100000x1, .f32⟩
  | 64 => ⟨S100000x1, .f32⟩
  | 65 => ⟨S100000x3, .f32⟩
  | 66 => ⟨S_, .i32⟩
  | 67 => ⟨S600000, .i32⟩
  | 68 => ⟨S600000, .i1⟩
  | 69 => ⟨S_, .i32⟩
  | 70 => ⟨S600000, .i32⟩
  | 71 => ⟨S600000, .i32⟩
  | 72 => ⟨S600000, .i32⟩
  | 73 => ⟨S600000x1, .i32⟩
  | 74 => ⟨S600000x3, .f32⟩
  | 75 => ⟨S_, .f32⟩
  | 76 => ⟨S100000x3, .f32⟩
  | 77 => ⟨S600000x1, .i32⟩
  | 78 => ⟨S100000x3, .f32⟩
  | 79 => ⟨S_, .f32⟩
  | 80 => ⟨S600000, .f32⟩
  | 81 => ⟨S_, .f32⟩
  | 82 => ⟨S100000, .f32⟩
  | 83 => ⟨S600000x1, .i32⟩
  | 84 => ⟨S100000, .f32⟩
  | 85 => ⟨S_, .f32⟩
  | 86 => ⟨S100000, .f32⟩
  | 87 => ⟨S100000, .f32⟩
  | 88 => ⟨S100000x1, .f32⟩
  | 89 => ⟨S100000x3, .f32⟩
  | 90 => ⟨S100000x3, .f32⟩
  | 91 => ⟨S3x128, .f32⟩
  | 92 => ⟨S100000x128, .f32⟩
  | 93 => ⟨S1x128, .f32⟩
  | 94 => ⟨S100000x128, .f32⟩
  | 95 => ⟨S100000x128, .f32⟩
  | 96 => ⟨S3x128, .f32⟩
  | 97 => ⟨S100000x128, .f32⟩
  | 98 => ⟨S100000x128, .f32⟩
  | 99 => ⟨S100000x128, .f32⟩
  | 100 => ⟨S_, .i32⟩
  | 101 => ⟨S600000, .i32⟩
  | 102 => ⟨S600000, .i1⟩
  | 103 => ⟨S_, .i32⟩
  | 104 => ⟨S600000, .i32⟩
  | 105 => ⟨S600000, .i32⟩
  | 106 => ⟨S600000, .i32⟩
  | 107 => ⟨S600000x1, .i32⟩
  | 108 => ⟨S600000x128, .f32⟩
  | 109 => ⟨S_, .f32⟩
  | 110 => ⟨S100000x128, .f32⟩
  | 111 => ⟨S600000x1, .i32⟩
  | 112 => ⟨S100000x128, .f32⟩
  | 113 => ⟨S_, .f32⟩
  | 114 => ⟨S600000, .f32⟩
  | 115 => ⟨S_, .f32⟩
  | 116 => ⟨S100000, .f32⟩
  | 117 => ⟨S600000x1, .i32⟩
  | 118 => ⟨S100000, .f32⟩
  | 119 => ⟨S_, .f32⟩
  | 120 => ⟨S100000, .f32⟩
  | 121 => ⟨S100000, .f32⟩
  | 122 => ⟨S100000x1, .f32⟩
  | 123 => ⟨S100000x128, .f32⟩
  | 124 => ⟨S100000x128, .f32⟩
  | 125 => ⟨S128x128, .f32⟩
  | 126 => ⟨S100000x128, .f32⟩
  | 127 => ⟨S1x128, .f32⟩
  | _ => ⟨S100000x3, .f32⟩

abbrev hbmTy0_1 (i : Nat) : BufTy := match i % 128 with
  | 0 => ⟨S100000x128, .f32⟩
  | 1 => ⟨S100000x128, .f32⟩
  | 2 => ⟨S128x128, .f32⟩
  | 3 => ⟨S100000x128, .f32⟩
  | 4 => ⟨S100000x128, .f32⟩
  | 5 => ⟨S100000x128, .f32⟩
  | 6 => ⟨S128x256, .f32⟩
  | 7 => ⟨S100000x256, .f32⟩
  | 8 => ⟨S1x256, .f32⟩
  | 9 => ⟨S100000x256, .f32⟩
  | 10 => ⟨S100000x256, .f32⟩
  | 11 => ⟨S100000x256, .f32⟩
  | 12 => ⟨S256x8, .f32⟩
  | 13 => ⟨S100000x8, .f32⟩
  | 14 => ⟨S1x8, .f32⟩
  | 15 => ⟨S100000x8, .f32⟩
  | 16 => ⟨S100000x8, .f32⟩
  | 17 => ⟨S_, .f32⟩
  | 18 => ⟨S100000, .f32⟩
  | 19 => ⟨S_, .f32⟩
  | 20 => ⟨S100000, .f32⟩
  | 21 => ⟨S100000, .f32⟩
  | 22 => ⟨S100000x1, .f32⟩
  | 23 => ⟨S100000x8, .f32⟩
  | 24 => ⟨S100000x8, .f32⟩
  | 25 => ⟨S100000x8, .f32⟩
  | 26 => ⟨S_, .f32⟩
  | 27 => ⟨S100000, .f32⟩
  | 28 => ⟨S100000x1, .f32⟩
  | 29 => ⟨S100000x8, .f32⟩
  | 30 => ⟨S100000x8, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_cst_0 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_cst_2 : Ref sig .tc := ⟨.hbm, 22, rfl⟩
abbrev main_v7 : Ref sig .tc := ⟨.hbm, 23, rfl⟩
abbrev main_cst_3 : Ref sig .tc := ⟨.hbm, 24, rfl⟩
abbrev main_v8 : Ref sig .tc := ⟨.hbm, 25, rfl⟩
abbrev main_cst_4 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_cst_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_8 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c : Ref sig .tc := ⟨.hbm, 66, rfl⟩
abbrev main_v44 : Ref sig .tc := ⟨.hbm, 67, rfl⟩
abbrev main_v45 : Ref sig .tc := ⟨.hbm, 68, rfl⟩
abbrev main_c_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_11 : Ref sig .tc := ⟨.hbm, 79, rfl⟩
abbrev main_v54 : Ref sig .tc := ⟨.hbm, 80, rfl⟩
abbrev main_cst_12 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_13 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c_14 : Ref sig .tc := ⟨.hbm, 100, rfl⟩
abbrev main_v72 : Ref sig .tc := ⟨.hbm, 101, rfl⟩
abbrev main_v73 : Ref sig .tc := ⟨.hbm, 102, rfl⟩
abbrev main_c_15 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_16 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_17 : Ref sig .tc := ⟨.hbm, 113, rfl⟩
abbrev main_v82 : Ref sig .tc := ⟨.hbm, 114, rfl⟩
abbrev main_cst_18 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_19 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_cst_20 : Ref sig .tc := ⟨.hbm, 145, rfl⟩
abbrev main_v111 : Ref sig .tc := ⟨.hbm, 146, rfl⟩
abbrev main_cst_21 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_cst_22 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  slices_S100000x3_S100000x2_0_0 : S100000x3.Slices ![0, 0] S100000x2
  slices_S100000x3_S100000x1_0_2 : S100000x3.Slices ![0, 2] S100000x1
  reducesTo_S100000x2_S2_d0 : S100000x2.ReducesTo [0] S2
  h_S_ : 0 < S_.numel
  bcast_S_S2x2 : S_.BroadcastsInDim S2x2 (![] : Fin 0 → Fin S2x2.rank)
  transposes_S2x2_S2x2_1_0 : S2x2.Transposes [1, 0] S2x2
  slices_S2_S1_1 : S2.Slices ![1] S1
  shapeCasts_S1_S_ : S1.ShapeCasts S_
  slices_S2_S1_0 : S2.Slices ![0] S1
  bcast_S_S100000x2 : S_.BroadcastsInDim S100000x2 (![] : Fin 0 → Fin S100000x2.rank)
  bcast_S_S2 : S_.BroadcastsInDim S2 (![] : Fin 0 → Fin S2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x1_S1_d0 : S100000x1.ReducesTo [0] S1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  concatenates_S100000x2_S100000x1_S100000x3_d1 : Shape.Concatenates [S100000x2, S100000x1] S100000x3 1
  bcast_S_S600000 : S_.BroadcastsInDim S600000 (![] : Fin 0 → Fin S600000.rank)
  bcast_S600000_S600000x1_0 : S600000.BroadcastsInDim S600000x1 (![0] : Fin 1 → Fin S600000x1.rank)
  bcast_S_S100000x3 : S_.BroadcastsInDim S100000x3 (![] : Fin 0 → Fin S100000x3.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x3_0_1 : S100000x1.BroadcastsInDim S100000x3 (![0, 1] : Fin 2 → Fin S100000x3.rank)
  transposes_S128x3_S3x128_1_0 : S128x3.Transposes [1, 0] S3x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  transposes_S256x128_S128x256_1_0 : S256x128.Transposes [1, 0] S128x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  transposes_S8x256_S256x8_1_0 : S8x256.Transposes [1, 0] S256x8
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  reducesTo_S100000x8_S100000_d1 : S100000x8.ReducesTo [1] S100000
  bcast_S100000x1_S100000x8_0_1 : S100000x1.BroadcastsInDim S100000x8 (![0, 1] : Fin 2 → Fin S100000x8.rank)
  dot_S100000x2_S2x2_S100000x2_1_0_0_1_n_n_wf : DotDims.WF S100000x2 S2x2 S100000x2 [1] [0] [0] [1] [] []
  gather_S100000x3_S600000x1_S600000x3_1_0_n_n_0_1_13_wf : GatherDims.WF S100000x3 S600000x1 S600000x3 [1] [0] [] [0] [] 1 ![1, 3]
  scatter_S100000x3_S600000x1_S600000x3_1_0_0_1_wf : ScatterDims.WF S100000x3 S600000x1 S600000x3 [1] [0] [0] 1
  scatter_S100000_S600000x1_S600000_n_0_0_1_wf : ScatterDims.WF S100000 S600000x1 S600000 [] [0] [0] 1
  dot_S100000x3_S3x128_S100000x128_1_0_0_1_n_n_wf : DotDims.WF S100000x3 S3x128 S100000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []
  dot_S100000x128_S128x256_S100000x256_1_0_0_1_n_n_wf : DotDims.WF S100000x128 S128x256 S100000x256 [1] [0] [0] [1] [] []
  dot_S100000x256_S256x8_S100000x8_1_0_0_1_n_n_wf : DotDims.WF S100000x256 S256x8 S100000x8 [1] [0] [0] [1] [] []

variable [Facts₀]

def dot_S100000x2_S2x2_S100000x2_1_0_0_1_n_n : DotDims S100000x2 S2x2 S100000x2 where
  lhsContracting := [1]
  rhsContracting := [0]
  lhsNonContracting := [0]
  rhsNonContracting := [1]
  lhsBatch := []
  rhsBatch := []
  wf := dot_S100000x2_S2x2_S100000x2_1_0_0_1_n_n_wf
def gather_S100000x3_S600000x1_S600000x3_1_0_n_n_0_1_13 : GatherDims S100000x3 S600000x1 S600000x3 where
  offsetDims := [1]
  collapsedSliceDims := [0]
  operandBatchingDims := []
  startIndicesBatchingDims := []
  startIndexMap := [0]
  indexVectorDim := 1
  sliceSizes := ![1, 3]
  wf := gather_S100000x3_S600000x1_S600000x3_1_0_n_n_0_1_13_wf
def scatter_S100000x3_S600000x1_S600000x3_1_0_0_1 : ScatterDims S100000x3 S600000x1 S600000x3 where
  updateWindowDims := [1]
  insertedWindowDims := [0]
  scatterDimsToOperandDims := [0]
  indexVectorDim := 1
  wf := scatter_S100000x3_S600000x1_S600000x3_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x3_S3x128_S100000x128_1_0_0_1_n_n : DotDims S100000x3 S3x128 S100000x128 where
  lhsContracting := [1]
  rhsContracting := [0]
  lhsNonContracting := [0]
  rhsNonContracting := [1]
  lhsBatch := []
  rhsBatch := []
  wf := dot_S100000x3_S3x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x8_S100000x8_1_0_0_1_n_n : DotDims S100000x256 S256x8 S100000x8 where
  lhsContracting := [1]
  rhsContracting := [0]
  lhsNonContracting := [0]
  rhsNonContracting := [1]
  lhsBatch := []
  rhsBatch := []
  wf := dot_S100000x256_S256x8_S100000x8_1_0_0_1_n_n_wf

class Facts : Prop extends Facts₀ where

variable [Facts]
-- ==== Proof.Stages.lean ====
/-
  The host side of both programs as whole-array functions of the argument arrays.

  A node's features are first normalised (hNorm).  Each of the two graph layers then averages, at every node, the
  features of the source nodes of the edges ending there: the sum over those edges (aggSum3, aggSum128) divided by the
  number of such edges, counted as 1 for a node no edge ends at (degM).  One program divides the sum by that count
  (meanR3, meanR128); the other multiplies it by the count's reciprocal (invDeg, meanK3, meanK128).  A layer is
  tanh (A Wl^T + bl + H Wr^T) on whole arrays (convR3, convR128), and the head is tanh of an affine map, a second affine
  map and a row-wise softmax (headR).  refOut and kerOut compose them.

  hNorm, e0, e1, aggSum3, aggSum128, degM, convR3, convR128 and headR list the host operations in their order in the
  program, one let per operation, each result named after the value it is.
-/
import proofs.«147892_j13202729468516_1_alg».proof.ReferenceIdeal

noncomputable section

namespace Cert.Stages

open Idealize.ShloMosaic Cert.ReferenceIdeal Cert.ReferenceIdeal.Facts₀ Cert.ReferenceIdeal.Facts

variable {F : FTy → Type} [FloatOps F] [Cert.ReferenceIdeal.Facts]

/-- Row 0 of the edge table: the source node of each edge. -/
def e0 (e : (⟨S2x600000, .i32⟩ : BufTy).Contents (Elt F)) : (⟨S600000, .i32⟩ : BufTy).Contents (Elt F) :=
  let v0 : (⟨S1x600000, .i32⟩ : BufTy).Contents (Elt F) := ((extractStridedSlice S1x600000 ![0, 0] · slices_S2x600000_S1x600000_0_0) : (⟨S2x600000, .i32⟩ : BufTy).Contents (Elt F) → (⟨S1x600000, .i32⟩ : BufTy).Contents (Elt F)) e
  let v1 : (⟨S600000, .i32⟩ : BufTy).Contents (Elt F) := shapeCast S600000 v0 shapeCasts_S1x600000_S600000
  v1

/-- Row 1 of the edge table: the target node of each edge. -/
def e1 (e : (⟨S2x600000, .i32⟩ : BufTy).Contents (Elt F)) : (⟨S600000, .i32⟩ : BufTy).Contents (Elt F) :=
  let v2 : (⟨S1x600000, .i32⟩ : BufTy).Contents (Elt F) := ((extractStridedSlice S1x600000 ![1, 0] · slices_S2x600000_S1x600000_1_0) : (⟨S2x600000, .i32⟩ : BufTy).Contents (Elt F) → (⟨S1x600000, .i32⟩ : BufTy).Contents (Elt F)) e
  let v3 : (⟨S600000, .i32⟩ : BufTy).Contents (Elt F) := shapeCast S600000 v2 shapeCasts_S1x600000_S600000
  v3

/-- The normalised node features: the two coordinates, rotated by a quarter turn when the bounding box is taller than wide, centred on their column means and divided by their column maxima, beside the area divided by its maximum. -/
def hNorm (x : (⟨S100000x3, .f32⟩ : BufTy).Contents (Elt F)) : (⟨S100000x3, .f32⟩ : BufTy).Contents (Elt F) :=
  let cst : (⟨S2x2, .f32⟩ : BufTy).Contents (Elt F) := (fun i => FloatOps.ofBits .f32 (lit0 (S2x2.rowMajor i)))
  let cst_0 : (⟨S2x2, .f32⟩ : BufTy).Contents (Elt F) := (fun i => FloatOps.ofBits .f32 (lit1 (S2x2.rowMajor i)))
  let v4 : (⟨S100000x2, .f32⟩ : BufTy).Contents (Elt F) := ((extractStridedSlice S100000x2 ![0, 0] · slices_S100000x3_S100000x2_0_0) : (⟨S100000x3, .f32⟩ : BufTy).Contents (Elt F) → (⟨S100000x2, .f32⟩ : BufTy).Contents (Elt F)) x
  let v5 : (⟨S100000x1, .f32⟩ : BufTy).Contents (Elt F) := ((extractStridedSlice S100000x1 ![0, 2] · slices_S100000x3_S100000x1_0_2) : (⟨S100000x3, .f32⟩ : BufTy).Contents (Elt F) → (⟨S100000x1, .f32⟩ : BufTy).Contents (Elt F)) x
  let cst_1 : (⟨S_, .f32⟩ : BufTy).Contents (Elt F) := (constant S_ .f32 0xFF800000#32)
  let v6 : (⟨S2, .f32⟩ : BufTy).Contents (Elt F) := ((fun x v => Host.reduce FloatOps.maximumf x v reducesTo_S100000x2_S2_d0 h_S_) : (⟨S100000x2, .f32⟩ : BufTy).Contents (Elt F) → (⟨S_, .f32⟩ : BufTy).Contents (Elt F) → (⟨S2, .f32⟩ : BufTy).Contents (Elt F)) v4 cst_1
  let cst_2 : (⟨S_, .f32⟩ : BufTy).Contents (Elt F) := (constant S_ .f32 0x7F800000#32)
  let v7 : (⟨S2, .f32⟩ : BufTy).Contents (Elt F) := ((fun x v => Host.reduce FloatOps.minimumf x v reducesTo_S100000x2_S2_d0 h_S_) : (⟨S100000x2, .f32⟩ : BufTy).Contents (Elt F) → (⟨S_, .f32⟩ : BufTy).Contents (Elt F) → (⟨S2, .f32⟩ : BufTy).Contents (Elt F)) v4 cst_2
  let cst_3 : (⟨S_, .f32⟩ : BufTy).Contents (Elt F) := (constant S_ .f32 0x3FC90FDB#32)
  let v8 : (⟨S_, .f32⟩ : BufTy).Contents (Elt F) := (Host.cos : (⟨S_, .f32⟩ : BufTy).Contents (Elt F) → (⟨S_, .f32⟩ : BufTy).Contents (Elt F)) cst_3
  let cst_4 : (⟨S_, .f32⟩ : BufTy).Contents (Elt F) := (constant S_ .f32 0x3FC90FDB#32)
  let v9 : (⟨S_, .f32⟩ : BufTy).Contents (Elt F) := (Host.sin : (⟨S_, .f32⟩ : BufTy).Contents (Elt F) → (⟨S_, .f32⟩ : BufTy).Contents (Elt F)) cst_4
  let v10 : (⟨S2x2, .f32⟩ : BufTy).Contents (Elt F) := (broadcastInDim S2x2 ![] bcast_S_S2x2 : (⟨S_, .f32⟩ : BufTy).Contents (Elt F) → (⟨S2x2, .f32⟩ : BufTy).Contents (Elt F)) v8
  let v11 : (⟨S2x2, .f32⟩ : BufTy).Contents (Elt F) := (mulf : (⟨S2x2, .f32⟩ : BufTy).Contents (Elt F) → (⟨S2x2, .f32⟩ : BufTy).Contents (Elt F) → (⟨S2x2, .f32⟩ : BufTy).Contents (Elt F)) cst v10
  let v12 : (⟨S2x2, .f32⟩ : BufTy).Contents (Elt F) := (broadcastInDim S2x2 ![] bcast_S_S2x2 : (⟨S_, .f32⟩ : BufTy).Contents (Elt F) → (⟨S2x2, .f32⟩ : BufTy).Contents (Elt F)) v9
  let v13 : (⟨S2x2, .f32⟩ : BufTy).Contents (Elt F) := (mulf : (⟨S2x2, .f32⟩ : BufTy).Contents (Elt F) → (⟨S2x2, .f32⟩ : BufTy).Contents (Elt F) → (⟨S2x2, .f32⟩ : BufTy).Contents (Elt F)) cst_0 v12
  let v14 : (⟨S2x2, .f32⟩ : BufTy).Contents (Elt F) := (addf : (⟨S2x2, .f32⟩ : BufTy).Contents (Elt F) → (⟨S2x2, .f32⟩ : BufTy).Contents (Elt F) → (⟨S2x2, .f32⟩ : BufTy).Contents (Elt F)) v11 v13
  let v15 : (⟨S2x2, .f32⟩ : BufTy).Contents (Elt F) := ((transpose S2x2 [1, 0] · transposes_S2x2_S2x2_1_0) : (⟨S2x2, .f32⟩ : BufTy).Contents (Elt F) → (⟨S2x2, .f32⟩ : BufTy).Contents (Elt F)) v14
  let v16 : (⟨S100000x2, .f32⟩ : BufTy).Contents (Elt F) := ((fun l r => Host.dotGeneral dot_S100000x2_S2x2_S100000x2_1_0_0_1_n_n none l r) : (⟨S100000x2, .f32⟩ : BufTy).Contents (Elt F) → (⟨S2x2, .f32⟩ : BufTy).Contents (Elt F) → (⟨S100000x2, .f32⟩ : BufTy).Contents (Elt F)) v4 v15
  let v17 : (⟨S1, .f32⟩ : BufTy).Contents (Elt F) := ((extractStridedSlice S1 ![1] · slices_S2_S1_1) : (⟨S2, .f32⟩ : BufTy).Contents (Elt F) → (⟨S1, .f32⟩ : BufTy).Contents (Elt F)) v6
  let v18 : (⟨S_, .f32⟩ : BufTy).Contents (Elt F) := shapeCast S_ v17 shapeCasts_S1_S_
  let v19 : (⟨S1, .f32⟩ : BufTy).Contents (Elt F) := ((extractStridedSlice S1 ![1] · slices_S2_S1_1) : (⟨S2, .f32⟩ : BufTy).Contents (Elt F) → (⟨S1, .f32⟩ : BufTy).Contents (Elt F)) v7
  let v20 : (⟨S_, .f32⟩ : BufTy).Contents (Elt F) := shapeCast S_ v19 shapeCasts_S1_S_
  let v21 : (⟨S_, .f32⟩ : BufTy).Contents (Elt F) := (subf : (⟨S_, .f32⟩ : BufTy).Contents (Elt F) → (⟨S_, .f32⟩ : BufTy).Contents (Elt F) → (⟨S_, .f32⟩ : BufTy).Contents (Elt F)) v18 v20
  let v22 : (⟨S1, .f32⟩ : BufTy).Contents (Elt F) := ((extractStridedSlice S1 ![0] · slices_S2_S1_0) : (⟨S2, .f32⟩ : BufTy).Contents (Elt F) → (⟨S1, .f32⟩ : BufTy).Contents (Elt F)) v6
  let v23 : (⟨S_, .f32⟩ : BufTy).Contents (Elt F) := shapeCast S_ v22 shapeCasts_S1_S_
  let v24 : (⟨S1, .f32⟩ : BufTy).Contents (Elt F) := ((extractStridedSlice S1 ![0] · slices_S2_S1_0) : (⟨S2, .f32⟩ : BufTy).Contents (Elt F) → (⟨S1, .f32⟩ : BufTy).Contents (Elt F)) v7
  let v25 : (⟨S_, .f32⟩ : BufTy).Contents (Elt F) := shapeCast S_ v24 shapeCasts_S1_S_
  let v26 : (⟨S_, .f32⟩ : BufTy).Contents (Elt F) := (subf : (⟨S_, .f32⟩ : BufTy).Contents (Elt F) → (⟨S_, .f32⟩ : BufTy).Contents (Elt F) → (⟨S_, .f32⟩ : BufTy).Contents (Elt F)) v23 v25
  let v27 : (⟨S_, .i1⟩ : BufTy).Contents (Elt F) := (cmpf .ogt : (⟨S_, .f32⟩ : BufTy).Contents (Elt F) → (⟨S_, .f32⟩ : BufTy).Contents (Elt F) → (⟨S_, .i1⟩ : BufTy).Contents (Elt F)) v21 v26
  let v28 : (⟨S100000x2, .f32⟩ : BufTy).Contents (Elt F) := (fun p a b => select (broadcastInDim S100000x2 ![] bcast_S_S100000x2 p) a b) v27 v16 v4
  let cst_5 : (⟨S_, .f32⟩ : BufTy).Contents (Elt F) := (constant S_ .f32 0x00000000#32)
  let v29 : (⟨S2, .f32⟩ : BufTy).Contents (Elt F) := ((fun x v => Host.reduceAdd x v reducesTo_S100000x2_S2_d0 h_S_) : (⟨S100000x2, .f32⟩ : BufTy).Contents (Elt F) → (⟨S_, .f32⟩ : BufTy).Contents (Elt F) → (⟨S2, .f32⟩ : BufTy).Contents (Elt F)) v28 cst_5
  let cst_6 : (⟨S_, .f32⟩ : BufTy).Contents (Elt F) := (constant S_ .f32 0x47C35000#32)
  let v30 : (⟨S2, .f32⟩ : BufTy).Contents (Elt F) := (broadcastInDim S2 ![] bcast_S_S2 : (⟨S_, .f32⟩ : BufTy).Contents (Elt F) → (⟨S2, .f32⟩ : BufTy).Contents (Elt F)) cst_6
  let v31 : (⟨S2, .f32⟩ : BufTy).Contents (Elt F) := (Host.divf : (⟨S2, .f32⟩ : BufTy).Contents (Elt F) → (⟨S2, .f32⟩ : BufTy).Contents (Elt F) → (⟨S2, .f32⟩ : BufTy).Contents (Elt F)) v29 v30
  let v32 : (⟨S1x2, .f32⟩ : BufTy).Contents (Elt F) := (broadcastInDim S1x2 ![1] bcast_S2_S1x2_1 : (⟨S2, .f32⟩ : BufTy).Contents (Elt F) → (⟨S1x2, .f32⟩ : BufTy).Contents (Elt F)) v31
  let v33 : (⟨S100000x2, .f32⟩ : BufTy).Contents (Elt F) := (broadcastInDim S100000x2 ![0, 1] bcast_S1x2_S100000x2_0_1 : (⟨S1x2, .f32⟩ : BufTy).Contents (Elt F) → (⟨S100000x2, .f32⟩ : BufTy).Contents (Elt F)) v32
  let v34 : (⟨S100000x2, .f32⟩ : BufTy).Contents (Elt F) := (subf : (⟨S100000x2, .f32⟩ : BufTy).Contents (Elt F) → (⟨S100000x2, .f32⟩ : BufTy).Contents (Elt F) → (⟨S100000x2, .f32⟩ : BufTy).Contents (Elt F)) v28 v33
  let cst_7 : (⟨S_, .f32⟩ : BufTy).Contents (Elt F) := (constant S_ .f32 0xFF800000#32)
  let v35 : (⟨S2, .f32⟩ : BufTy).Contents (Elt F) := ((fun x v => Host.reduce FloatOps.maximumf x v reducesTo_S100000x2_S2_d0 h_S_) : (⟨S100000x2, .f32⟩ : BufTy).Contents (Elt F) → (⟨S_, .f32⟩ : BufTy).Contents (Elt F) → (⟨S2, .f32⟩ : BufTy).Contents (Elt F)) v28 cst_7
  let v36 : (⟨S1x2, .f32⟩ : BufTy).Contents (Elt F) := (broadcastInDim S1x2 ![1] bcast_S2_S1x2_1 : (⟨S2, .f32⟩ : BufTy).Contents (Elt F) → (⟨S1x2, .f32⟩ : BufTy).Contents (Elt F)) v35
  let v37 : (⟨S100000x2, .f32⟩ : BufTy).Contents (Elt F) := (broadcastInDim S100000x2 ![0, 1] bcast_S1x2_S100000x2_0_1 : (⟨S1x2, .f32⟩ : BufTy).Contents (Elt F) → (⟨S100000x2, .f32⟩ : BufTy).Contents (Elt F)) v36
  let v38 : (⟨S100000x2, .f32⟩ : BufTy).Contents (Elt F) := (Host.divf : (⟨S100000x2, .f32⟩ : BufTy).Contents (Elt F) → (⟨S100000x2, .f32⟩ : BufTy).Contents (Elt F) → (⟨S100000x2, .f32⟩ : BufTy).Contents (Elt F)) v34 v37
  let cst_8 : (⟨S_, .f32⟩ : BufTy).Contents (Elt F) := (constant S_ .f32 0xFF800000#32)
  let v39 : (⟨S1, .f32⟩ : BufTy).Contents (Elt F) := ((fun x v => Host.reduce FloatOps.maximumf x v reducesTo_S100000x1_S1_d0 h_S_) : (⟨S100000x1, .f32⟩ : BufTy).Contents (Elt F) → (⟨S_, .f32⟩ : BufTy).Contents (Elt F) → (⟨S1, .f32⟩ : BufTy).Contents (Elt F)) v5 cst_8
  let v40 : (⟨S1x1, .f32⟩ : BufTy).Contents (Elt F) := (broadcastInDim S1x1 ![1] bcast_S1_S1x1_1 : (⟨S1, .f32⟩ : BufTy).Contents (Elt F) → (⟨S1x1, .f32⟩ : BufTy).Contents (Elt F)) v39
  let v41 : (⟨S100000x1, .f32⟩ : BufTy).Contents (Elt F) := (broadcastInDim S100000x1 ![0, 1] bcast_S1x1_S100000x1_0_1 : (⟨S1x1, .f32⟩ : BufTy).Contents (Elt F) → (⟨S100000x1, .f32⟩ : BufTy).Contents (Elt F)) v40
  let v42 : (⟨S100000x1, .f32⟩ : BufTy).Contents (Elt F) := (Host.divf : (⟨S100000x1, .f32⟩ : BufTy).Contents (Elt F) → (⟨S100000x1, .f32⟩ : BufTy).Contents (Elt F) → (⟨S100000x1, .f32⟩ : BufTy).Contents (Elt F)) v5 v41
  let v43 : (⟨S100000x3, .f32⟩ : BufTy).Contents (Elt F) := ((fun a b => concatenate S100000x3 1 [⟨S100000x2, a⟩, ⟨S100000x1, b⟩] concatenates_S100000x2_S100000x1_S100000x3_d1) : (⟨S100000x2, .f32⟩ : BufTy).Contents (Elt F) → (⟨S100000x1, .f32⟩ : BufTy).Contents (Elt F) → (⟨S100000x3, .f32⟩ : BufTy).Contents (Elt F)) v38 v42
  v43

/-- For each node the sum, over the edges that end at it, of the 3 features of the edge's source node. -/
def aggSum3 (H : (⟨S100000x3, .f32⟩ : BufTy).Contents (Elt F)) (r1 : (⟨S600000, .i32⟩ : BufTy).Contents (Elt F)) (r3 : (⟨S600000, .i32⟩ : BufTy).Contents (Elt F)) : (⟨S100000x3, .f32⟩ : BufTy).Contents (Elt F) :=
  let c : (⟨S_, .i32⟩ : BufTy).Contents (Elt F) := (constantI S_ 32 0#32)
  let v44 : (⟨S600000, .i32⟩ : BufTy).Contents (Elt F) := (broadcastInDim S600000 ![] bcast_S_S600000 : (⟨S_, .i32⟩ : BufTy).Contents (Elt F) → (⟨S600000, .i32⟩ : BufTy).Contents (Elt F)) c
  let v45 : (⟨S600000, .i1⟩ : BufTy).Contents (Elt F) := (cmpi .slt : (⟨S600000, .i32⟩ : BufTy).Contents (Elt F) → (⟨S600000, .i32⟩ : BufTy).Contents (Elt F) → (⟨S600000, .i1⟩ : BufTy).Contents (Elt F)) r1 v44
  let c_9 : (⟨S_, .i32⟩ : BufTy).Contents (Elt F) := (constantI S_ 32 100000#32)
  let v46 : (⟨S600000, .i32⟩ : BufTy).Contents (Elt F) := (broadcastInDim S600000 ![] bcast_S_S600000 : (⟨S_, .i32⟩ : BufTy).Contents (Elt F) → (⟨S600000, .i32⟩ : BufTy).Contents (Elt F)) c_9
  let v47 : (⟨S600000, .i32⟩ : BufTy).Contents (Elt F) := (addi : (⟨S600000, .i32⟩ : BufTy).Contents (Elt F) → (⟨S600000, .i32⟩ : BufTy).Contents (Elt F) → (⟨S600000, .i32⟩ : BufTy).Contents (Elt F)) r1 v46
  let v48 : (⟨S600000, .i32⟩ : BufTy).Contents (Elt F) := (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) v45 v47 r1
  let v49 : (⟨S600000x1, .i32⟩ : BufTy).Contents (Elt F) := (broadcastInDim S600000x1 ![0] bcast_S600000_S600000x1_0 : (⟨S600000, .i32⟩ : BufTy).Contents (Elt F) → (⟨S600000x1, .i32⟩ : BufTy).Contents (Elt F)) v48
  let v50 : (⟨S600000x3, .f32⟩ : BufTy).Contents (Elt F) := ((fun x i => Host.gather gather_S100000x3_S600000x1_S600000x3_1_0_n_n_0_1_13 x i) : (⟨S100000x3, .f32⟩ : BufTy).Contents (Elt F) → (⟨S600000x1, .i32⟩ : BufTy).Contents (Elt F) → (⟨S600000x3, .f32⟩ : BufTy).Contents (Elt F)) H v49
  let cst_10 : (⟨S_, .f32⟩ : BufTy).Contents (Elt F) := (constant S_ .f32 0x00000000#32)
  let v51 : (⟨S100000x3, .f32⟩ : BufTy).Contents (Elt F) := (broadcastInDim S100000x3 ![] bcast_S_S100000x3 : (⟨S_, .f32⟩ : BufTy).Contents (Elt F) → (⟨S100000x3, .f32⟩ : BufTy).Contents (Elt F)) cst_10
  let v52 : (⟨S600000x1, .i32⟩ : BufTy).Contents (Elt F) := (broadcastInDim S600000x1 ![0] bcast_S600000_S600000x1_0 : (⟨S600000, .i32⟩ : BufTy).Contents (Elt F) → (⟨S600000x1, .i32⟩ : BufTy).Contents (Elt F)) r3
  let v53 : (⟨S100000x3, .f32⟩ : BufTy).Contents (Elt F) := ((fun x i u => Host.scatterAdd scatter_S100000x3_S600000x1_S600000x3_1_0_0_1 x i u) : (⟨S100000x3, .f32⟩ : BufTy).Contents (Elt F) → (⟨S600000x1, .i32⟩ : BufTy).Contents (Elt F) → (⟨S600000x3, .f32⟩ : BufTy).Contents (Elt F) → (⟨S100000x3, .f32⟩ : BufTy).Contents (Elt F)) v51 v52 v50
  v53

/-- For each node the sum, over the edges that end at it, of the 128 features of the edge's source node. -/
def aggSum128 (C : (⟨S100000x128, .f32⟩ : BufTy).Contents (Elt F)) (r1 : (⟨S600000, .i32⟩ : BufTy).Contents (Elt F)) (r3 : (⟨S600000, .i32⟩ : BufTy).Contents (Elt F)) : (⟨S100000x128, .f32⟩ : BufTy).Contents (Elt F) :=
  let c_14 : (⟨S_, .i32⟩ : BufTy).Contents (Elt F) := (constantI S_ 32 0#32)
  let v72 : (⟨S600000, .i32⟩ : BufTy).Contents (Elt F) := (broadcastInDim S600000 ![] bcast_S_S600000 : (⟨S_, .i32⟩ : BufTy).Contents (Elt F) → (⟨S600000, .i32⟩ : BufTy).Contents (Elt F)) c_14
  let v73 : (⟨S600000, .i1⟩ : BufTy).Contents (Elt F) := (cmpi .slt : (⟨S600000, .i32⟩ : BufTy).Contents (Elt F) → (⟨S600000, .i32⟩ : BufTy).Contents (Elt F) → (⟨S600000, .i1⟩ : BufTy).Contents (Elt F)) r1 v72
  let c_15 : (⟨S_, .i32⟩ : BufTy).Contents (Elt F) := (constantI S_ 32 100000#32)
  let v74 : (⟨S600000, .i32⟩ : BufTy).Contents (Elt F) := (broadcastInDim S600000 ![] bcast_S_S600000 : (⟨S_, .i32⟩ : BufTy).Contents (Elt F) → (⟨S600000, .i32⟩ : BufTy).Contents (Elt F)) c_15
  let v75 : (⟨S600000, .i32⟩ : BufTy).Contents (Elt F) := (addi : (⟨S600000, .i32⟩ : BufTy).Contents (Elt F) → (⟨S600000, .i32⟩ : BufTy).Contents (Elt F) → (⟨S600000, .i32⟩ : BufTy).Contents (Elt F)) r1 v74
  let v76 : (⟨S600000, .i32⟩ : BufTy).Contents (Elt F) := (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) v73 v75 r1
  let v77 : (⟨S600000x1, .i32⟩ : BufTy).Contents (Elt F) := (broadcastInDim S600000x1 ![0] bcast_S600000_S600000x1_0 : (⟨S600000, .i32⟩ : BufTy).Contents (Elt F) → (⟨S600000x1, .i32⟩ : BufTy).Contents (Elt F)) v76
  let v78 : (⟨S600000x128, .f32⟩ : BufTy).Contents (Elt F) := ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)) C v77
  let cst_16 : (⟨S_, .f32⟩ : BufTy).Contents (Elt F) := (constant S_ .f32 0x00000000#32)
  let v79 : (⟨S100000x128, .f32⟩ : BufTy).Contents (Elt F) := (broadcastInDim S100000x128 ![] bcast_S_S100000x128 : (⟨S_, .f32⟩ : BufTy).Contents (Elt F) → (⟨S100000x128, .f32⟩ : BufTy).Contents (Elt F)) cst_16
  let v80 : (⟨S600000x1, .i32⟩ : BufTy).Contents (Elt F) := (broadcastInDim S600000x1 ![0] bcast_S600000_S600000x1_0 : (⟨S600000, .i32⟩ : BufTy).Contents (Elt F) → (⟨S600000x1, .i32⟩ : BufTy).Contents (Elt F)) r3
  let v81 : (⟨S100000x128, .f32⟩ : BufTy).Contents (Elt F) := ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)) v79 v80 v78
  v81

/-- For each node the number of edges that end at it, or 1 if there is none. -/
def degM (r3 : (⟨S600000, .i32⟩ : BufTy).Contents (Elt F)) : (⟨S100000, .f32⟩ : BufTy).Contents (Elt F) :=
  let cst_11 : (⟨S_, .f32⟩ : BufTy).Contents (Elt F) := (constant S_ .f32 0x3F800000#32)
  let v54 : (⟨S600000, .f32⟩ : BufTy).Contents (Elt F) := (broadcastInDim S600000 ![] bcast_S_S600000 : (⟨S_, .f32⟩ : BufTy).Contents (Elt F) → (⟨S600000, .f32⟩ : BufTy).Contents (Elt F)) cst_11
  let cst_12 : (⟨S_, .f32⟩ : BufTy).Contents (Elt F) := (constant S_ .f32 0x00000000#32)
  let v55 : (⟨S100000, .f32⟩ : BufTy).Contents (Elt F) := (broadcastInDim S100000 ![] bcast_S_S100000 : (⟨S_, .f32⟩ : BufTy).Contents (Elt F) → (⟨S100000, .f32⟩ : BufTy).Contents (Elt F)) cst_12
  let v56 : (⟨S600000x1, .i32⟩ : BufTy).Contents (Elt F) := (broadcastInDim S600000x1 ![0] bcast_S600000_S600000x1_0 : (⟨S600000, .i32⟩ : BufTy).Contents (Elt F) → (⟨S600000x1, .i32⟩ : BufTy).Contents (Elt F)) r3
  let v57 : (⟨S100000, .f32⟩ : BufTy).Contents (Elt F) := ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)) v55 v56 v54
  let cst_13 : (⟨S_, .f32⟩ : BufTy).Contents (Elt F) := (constant S_ .f32 0x3F800000#32)
  let v58 : (⟨S100000, .f32⟩ : BufTy).Contents (Elt F) := (broadcastInDim S100000 ![] bcast_S_S100000 : (⟨S_, .f32⟩ : BufTy).Contents (Elt F) → (⟨S100000, .f32⟩ : BufTy).Contents (Elt F)) cst_13
  let v59 : (⟨S100000, .f32⟩ : BufTy).Contents (Elt F) := (maximumf : (⟨S100000, .f32⟩ : BufTy).Contents (Elt F) → (⟨S100000, .f32⟩ : BufTy).Contents (Elt F) → (⟨S100000, .f32⟩ : BufTy).Contents (Elt F)) v57 v58
  v59

/-- The first layer on whole arrays: tanh of (A times Wl transposed, plus the bias row, plus H times Wr transposed). -/
def convR3 (A : (⟨S100000x3, .f32⟩ : BufTy).Contents (Elt F)) (H : (⟨S100000x3, .f32⟩ : BufTy).Contents (Elt F)) (a2 : (⟨S128x3, .f32⟩ : BufTy).Contents (Elt F)) (a3 : (⟨S128, .f32⟩ : BufTy).Contents (Elt F)) (a4 : (⟨S128x3, .f32⟩ : BufTy).Contents (Elt F)) : (⟨S100000x128, .f32⟩ : BufTy).Contents (Elt F) :=
  let v63 : (⟨S3x128, .f32⟩ : BufTy).Contents (Elt F) := ((transpose S3x128 [1, 0] · transposes_S128x3_S3x128_1_0) : (⟨S128x3, .f32⟩ : BufTy).Contents (Elt F) → (⟨S3x128, .f32⟩ : BufTy).Contents (Elt F)) a2
  let v64 : (⟨S100000x128, .f32⟩ : BufTy).Contents (Elt F) := ((fun l r => Host.dotGeneral dot_S100000x3_S3x128_S100000x128_1_0_0_1_n_n none l r) : (⟨S100000x3, .f32⟩ : BufTy).Contents (Elt F) → (⟨S3x128, .f32⟩ : BufTy).Contents (Elt F) → (⟨S100000x128, .f32⟩ : BufTy).Contents (Elt F)) A v63
  let v65 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) a3
  let v66 : (⟨S100000x128, .f32⟩ : BufTy).Contents (Elt F) := (broadcastInDim S100000x128 ![0, 1] bcast_S1x128_S100000x128_0_1 : (⟨S1x128, .f32⟩ : BufTy).Contents (Elt F) → (⟨S100000x128, .f32⟩ : BufTy).Contents (Elt F)) v65
  let v67 : (⟨S100000x128, .f32⟩ : BufTy).Contents (Elt F) := (addf : (⟨S100000x128, .f32⟩ : BufTy).Contents (Elt F) → (⟨S100000x128, .f32⟩ : BufTy).Contents (Elt F) → (⟨S100000x128, .f32⟩ : BufTy).Contents (Elt F)) v64 v66
  let v68 : (⟨S3x128, .f32⟩ : BufTy).Contents (Elt F) := ((transpose S3x128 [1, 0] · transposes_S128x3_S3x128_1_0) : (⟨S128x3, .f32⟩ : BufTy).Contents (Elt F) → (⟨S3x128, .f32⟩ : BufTy).Contents (Elt F)) a4
  let v69 : (⟨S100000x128, .f32⟩ : BufTy).Contents (Elt F) := ((fun l r => Host.dotGeneral dot_S100000x3_S3x128_S100000x128_1_0_0_1_n_n none l r) : (⟨S100000x3, .f32⟩ : BufTy).Contents (Elt F) → (⟨S3x128, .f32⟩ : BufTy).Contents (Elt F) → (⟨S100000x128, .f32⟩ : BufTy).Contents (Elt F)) H v68
  let v70 : (⟨S100000x128, .f32⟩ : BufTy).Contents (Elt F) := (addf : (⟨S100000x128, .f32⟩ : BufTy).Contents (Elt F) → (⟨S100000x128, .f32⟩ : BufTy).Contents (Elt F) → (⟨S100000x128, .f32⟩ : BufTy).Contents (Elt F)) v67 v69
  let v71 : (⟨S100000x128, .f32⟩ : BufTy).Contents (Elt F) := (Host.tanh : (⟨S100000x128, .f32⟩ : BufTy).Contents (Elt F) → (⟨S100000x128, .f32⟩ : BufTy).Contents (Elt F)) v70
  v71

/-- The second layer on whole arrays: tanh of (A times Wl transposed, plus the bias row, plus C times Wr transposed). -/
def convR128 (A : (⟨S100000x128, .f32⟩ : BufTy).Contents (Elt F)) (C : (⟨S100000x128, .f32⟩ : BufTy).Contents (Elt F)) (a5 : (⟨S128x128, .f32⟩ : BufTy).Contents (Elt F)) (a6 : (⟨S128, .f32⟩ : BufTy).Contents (Elt F)) (a7 : (⟨S128x128, .f32⟩ : BufTy).Contents (Elt F)) : (⟨S100000x128, .f32⟩ : BufTy).Contents (Elt F) :=
  let v91 : (⟨S128x128, .f32⟩ : BufTy).Contents (Elt F) := ((transpose S128x128 [1, 0] · transposes_S128x128_S128x128_1_0) : (⟨S128x128, .f32⟩ : BufTy).Contents (Elt F) → (⟨S128x128, .f32⟩ : BufTy).Contents (Elt F)) a5
  let v92 : (⟨S100000x128, .f32⟩ : BufTy).Contents (Elt F) := ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) A v91
  let v93 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) a6
  let v94 : (⟨S100000x128, .f32⟩ : BufTy).Contents (Elt F) := (broadcastInDim S100000x128 ![0, 1] bcast_S1x128_S100000x128_0_1 : (⟨S1x128, .f32⟩ : BufTy).Contents (Elt F) → (⟨S100000x128, .f32⟩ : BufTy).Contents (Elt F)) v93
  let v95 : (⟨S100000x128, .f32⟩ : BufTy).Contents (Elt F) := (addf : (⟨S100000x128, .f32⟩ : BufTy).Contents (Elt F) → (⟨S100000x128, .f32⟩ : BufTy).Contents (Elt F) → (⟨S100000x128, .f32⟩ : BufTy).Contents (Elt F)) v92 v94
  let v96 : (⟨S128x128, .f32⟩ : BufTy).Contents (Elt F) := ((transpose S128x128 [1, 0] · transposes_S128x128_S128x128_1_0) : (⟨S128x128, .f32⟩ : BufTy).Contents (Elt F) → (⟨S128x128, .f32⟩ : BufTy).Contents (Elt F)) a7
  let v97 : (⟨S100000x128, .f32⟩ : BufTy).Contents (Elt F) := ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) C v96
  let v98 : (⟨S100000x128, .f32⟩ : BufTy).Contents (Elt F) := (addf : (⟨S100000x128, .f32⟩ : BufTy).Contents (Elt F) → (⟨S100000x128, .f32⟩ : BufTy).Contents (Elt F) → (⟨S100000x128, .f32⟩ : BufTy).Contents (Elt F)) v95 v97
  let v99 : (⟨S100000x128, .f32⟩ : BufTy).Contents (Elt F) := (Host.tanh : (⟨S100000x128, .f32⟩ : BufTy).Contents (Elt F) → (⟨S100000x128, .f32⟩ : BufTy).Contents (Elt F)) v98
  v99

/-- The two-layer head on whole arrays: tanh of an affine map to 256 features, an affine map to 8 logits, and the softmax of each row. -/
def headR (C2 : (⟨S100000x128, .f32⟩ : BufTy).Contents (Elt F)) (a8 : (⟨S256x128, .f32⟩ : BufTy).Contents (Elt F)) (a9 : (⟨S256, .f32⟩ : BufTy).Contents (Elt F)) (a10 : (⟨S8x256, .f32⟩ : BufTy).Contents (Elt F)) (a11 : (⟨S8, .f32⟩ : BufTy).Contents (Elt F)) : (⟨S100000x8, .f32⟩ : BufTy).Contents (Elt F) :=
  let v100 : (⟨S128x256, .f32⟩ : BufTy).Contents (Elt F) := ((transpose S128x256 [1, 0] · transposes_S256x128_S128x256_1_0) : (⟨S256x128, .f32⟩ : BufTy).Contents (Elt F) → (⟨S128x256, .f32⟩ : BufTy).Contents (Elt F)) a8
  let v101 : (⟨S100000x256, .f32⟩ : BufTy).Contents (Elt F) := ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)) C2 v100
  let v102 : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) a9
  let v103 : (⟨S100000x256, .f32⟩ : BufTy).Contents (Elt F) := (broadcastInDim S100000x256 ![0, 1] bcast_S1x256_S100000x256_0_1 : (⟨S1x256, .f32⟩ : BufTy).Contents (Elt F) → (⟨S100000x256, .f32⟩ : BufTy).Contents (Elt F)) v102
  let v104 : (⟨S100000x256, .f32⟩ : BufTy).Contents (Elt F) := (addf : (⟨S100000x256, .f32⟩ : BufTy).Contents (Elt F) → (⟨S100000x256, .f32⟩ : BufTy).Contents (Elt F) → (⟨S100000x256, .f32⟩ : BufTy).Contents (Elt F)) v101 v103
  let v105 : (⟨S100000x256, .f32⟩ : BufTy).Contents (Elt F) := (Host.tanh : (⟨S100000x256, .f32⟩ : BufTy).Contents (Elt F) → (⟨S100000x256, .f32⟩ : BufTy).Contents (Elt F)) v104
  let v106 : (⟨S256x8, .f32⟩ : BufTy).Contents (Elt F) := ((transpose S256x8 [1, 0] · transposes_S8x256_S256x8_1_0) : (⟨S8x256, .f32⟩ : BufTy).Contents (Elt F) → (⟨S256x8, .f32⟩ : BufTy).Contents (Elt F)) a10
  let v107 : (⟨S100000x8, .f32⟩ : BufTy).Contents (Elt F) := ((fun l r => Host.dotGeneral dot_S100000x256_S256x8_S100000x8_1_0_0_1_n_n none l r) : (⟨S100000x256, .f32⟩ : BufTy).Contents (Elt F) → (⟨S256x8, .f32⟩ : BufTy).Contents (Elt F) → (⟨S100000x8, .f32⟩ : BufTy).Contents (Elt F)) v105 v106
  let v108 : (⟨S1x8, .f32⟩ : BufTy).Contents (Elt F) := (broadcastInDim S1x8 ![1] bcast_S8_S1x8_1 : (⟨S8, .f32⟩ : BufTy).Contents (Elt F) → (⟨S1x8, .f32⟩ : BufTy).Contents (Elt F)) a11
  let v109 : (⟨S100000x8, .f32⟩ : BufTy).Contents (Elt F) := (broadcastInDim S100000x8 ![0, 1] bcast_S1x8_S100000x8_0_1 : (⟨S1x8, .f32⟩ : BufTy).Contents (Elt F) → (⟨S100000x8, .f32⟩ : BufTy).Contents (Elt F)) v108
  let v110 : (⟨S100000x8, .f32⟩ : BufTy).Contents (Elt F) := (addf : (⟨S100000x8, .f32⟩ : BufTy).Contents (Elt F) → (⟨S100000x8, .f32⟩ : BufTy).Contents (Elt F) → (⟨S100000x8, .f32⟩ : BufTy).Contents (Elt F)) v107 v109
  let cst_20 : (⟨S_, .f32⟩ : BufTy).Contents (Elt F) := (constant S_ .f32 0xFF800000#32)
  let v111 : (⟨S100000, .f32⟩ : BufTy).Contents (Elt F) := ((fun x v => Host.reduce FloatOps.maximumf x v reducesTo_S100000x8_S100000_d1 h_S_) : (⟨S100000x8, .f32⟩ : BufTy).Contents (Elt F) → (⟨S_, .f32⟩ : BufTy).Contents (Elt F) → (⟨S100000, .f32⟩ : BufTy).Contents (Elt F)) v110 cst_20
  let cst_21 : (⟨S_, .f32⟩ : BufTy).Contents (Elt F) := (constant S_ .f32 0xFF800000#32)
  let v112 : (⟨S100000, .f32⟩ : BufTy).Contents (Elt F) := (broadcastInDim S100000 ![] bcast_S_S100000 : (⟨S_, .f32⟩ : BufTy).Contents (Elt F) → (⟨S100000, .f32⟩ : BufTy).Contents (Elt F)) cst_21
  let v113 : (⟨S100000, .f32⟩ : BufTy).Contents (Elt F) := (maximumf : (⟨S100000, .f32⟩ : BufTy).Contents (Elt F) → (⟨S100000, .f32⟩ : BufTy).Contents (Elt F) → (⟨S100000, .f32⟩ : BufTy).Contents (Elt F)) v112 v111
  let v114 : (⟨S100000x1, .f32⟩ : BufTy).Contents (Elt F) := (broadcastInDim S100000x1 ![0] bcast_S100000_S100000x1_0 : (⟨S100000, .f32⟩ : BufTy).Contents (Elt F) → (⟨S100000x1, .f32⟩ : BufTy).Contents (Elt F)) v113
  let v115 : (⟨S100000x8, .f32⟩ : BufTy).Contents (Elt F) := (broadcastInDim S100000x8 ![0, 1] bcast_S100000x1_S100000x8_0_1 : (⟨S100000x1, .f32⟩ : BufTy).Contents (Elt F) → (⟨S100000x8, .f32⟩ : BufTy).Contents (Elt F)) v114
  let v116 : (⟨S100000x8, .f32⟩ : BufTy).Contents (Elt F) := (subf : (⟨S100000x8, .f32⟩ : BufTy).Contents (Elt F) → (⟨S100000x8, .f32⟩ : BufTy).Contents (Elt F) → (⟨S100000x8, .f32⟩ : BufTy).Contents (Elt F)) v110 v115
  let v117 : (⟨S100000x8, .f32⟩ : BufTy).Contents (Elt F) := (Host.exp : (⟨S100000x8, .f32⟩ : BufTy).Contents (Elt F) → (⟨S100000x8, .f32⟩ : BufTy).Contents (Elt F)) v116
  let cst_22 : (⟨S_, .f32⟩ : BufTy).Contents (Elt F) := (constant S_ .f32 0x00000000#32)
  let v118 : (⟨S100000, .f32⟩ : BufTy).Contents (Elt F) := ((fun x v => Host.reduceAdd x v reducesTo_S100000x8_S100000_d1 h_S_) : (⟨S100000x8, .f32⟩ : BufTy).Contents (Elt F) → (⟨S_, .f32⟩ : BufTy).Contents (Elt F) → (⟨S100000, .f32⟩ : BufTy).Contents (Elt F)) v117 cst_22
  let v119 : (⟨S100000x1, .f32⟩ : BufTy).Contents (Elt F) := (broadcastInDim S100000x1 ![0] bcast_S100000_S100000x1_0 : (⟨S100000, .f32⟩ : BufTy).Contents (Elt F) → (⟨S100000x1, .f32⟩ : BufTy).Contents (Elt F)) v118
  let v120 : (⟨S100000x8, .f32⟩ : BufTy).Contents (Elt F) := (broadcastInDim S100000x8 ![0, 1] bcast_S100000x1_S100000x8_0_1 : (⟨S100000x1, .f32⟩ : BufTy).Contents (Elt F) → (⟨S100000x8, .f32⟩ : BufTy).Contents (Elt F)) v119
  let v121 : (⟨S100000x8, .f32⟩ : BufTy).Contents (Elt F) := (Host.divf : (⟨S100000x8, .f32⟩ : BufTy).Contents (Elt F) → (⟨S100000x8, .f32⟩ : BufTy).Contents (Elt F) → (⟨S100000x8, .f32⟩ : BufTy).Contents (Elt F)) v117 v120
  v121

/-- A value per node repeated along 3 columns. -/
def col3 (v : (⟨S100000, .f32⟩ : BufTy).Contents (Elt F)) : (⟨S100000x3, .f32⟩ : BufTy).Contents (Elt F) :=
  broadcastInDim S100000x3 ![0, 1] bcast_S100000x1_S100000x3_0_1 (broadcastInDim S100000x1 ![0] bcast_S100000_S100000x1_0 v)

/-- A value per node repeated along 128 columns. -/
def col128 (v : (⟨S100000, .f32⟩ : BufTy).Contents (Elt F)) : (⟨S100000x128, .f32⟩ : BufTy).Contents (Elt F) :=
  broadcastInDim S100000x128 ![0, 1] bcast_S100000x1_S100000x128_0_1 (broadcastInDim S100000x1 ![0] bcast_S100000_S100000x1_0 v)

/-- The mean over incoming edges as a quotient: the sum divided by the count. -/
def meanR3 (H : (⟨S100000x3, .f32⟩ : BufTy).Contents (Elt F)) (r1 r3 : (⟨S600000, .i32⟩ : BufTy).Contents (Elt F)) : (⟨S100000x3, .f32⟩ : BufTy).Contents (Elt F) :=
  Host.divf (aggSum3 H r1 r3) (col3 (degM r3))

/-- The same for 128 features. -/
def meanR128 (C : (⟨S100000x128, .f32⟩ : BufTy).Contents (Elt F)) (r1 r3 : (⟨S600000, .i32⟩ : BufTy).Contents (Elt F)) : (⟨S100000x128, .f32⟩ : BufTy).Contents (Elt F) :=
  Host.divf (aggSum128 C r1 r3) (col128 (degM r3))

/-- The reciprocal of the count, 1 / max(count, 1). -/
def invDeg (r3 : (⟨S600000, .i32⟩ : BufTy).Contents (Elt F)) : (⟨S100000, .f32⟩ : BufTy).Contents (Elt F) :=
  Host.divf (broadcastInDim S100000 ![] bcast_S_S100000 (constant S_ .f32 0x3F800000#32)) (degM r3)

/-- The mean over incoming edges as a product: the sum times the reciprocal of the count. -/
def meanK3 (H : (⟨S100000x3, .f32⟩ : BufTy).Contents (Elt F)) (r1 r3 : (⟨S600000, .i32⟩ : BufTy).Contents (Elt F)) : (⟨S100000x3, .f32⟩ : BufTy).Contents (Elt F) :=
  mulf (aggSum3 H r1 r3) (col3 (invDeg r3))

/-- The same for 128 features. -/
def meanK128 (C : (⟨S100000x128, .f32⟩ : BufTy).Contents (Elt F)) (r1 r3 : (⟨S600000, .i32⟩ : BufTy).Contents (Elt F)) : (⟨S100000x128, .f32⟩ : BufTy).Contents (Elt F) :=
  mulf (aggSum128 C r1 r3) (col128 (invDeg r3))

/-- The whole network with the means taken as quotients. -/
def refOut (x : (⟨S100000x3, .f32⟩ : BufTy).Contents (Elt F)) (e : (⟨S2x600000, .i32⟩ : BufTy).Contents (Elt F)) (a2 : (⟨S128x3, .f32⟩ : BufTy).Contents (Elt F)) (a3 : (⟨S128, .f32⟩ : BufTy).Contents (Elt F)) (a4 : (⟨S128x3, .f32⟩ : BufTy).Contents (Elt F))
    (a5 : (⟨S128x128, .f32⟩ : BufTy).Contents (Elt F)) (a6 : (⟨S128, .f32⟩ : BufTy).Contents (Elt F)) (a7 : (⟨S128x128, .f32⟩ : BufTy).Contents (Elt F)) (a8 : (⟨S256x128, .f32⟩ : BufTy).Contents (Elt F)) (a9 : (⟨S256, .f32⟩ : BufTy).Contents (Elt F))
    (a10 : (⟨S8x256, .f32⟩ : BufTy).Contents (Elt F)) (a11 : (⟨S8, .f32⟩ : BufTy).Contents (Elt F)) : (⟨S100000x8, .f32⟩ : BufTy).Contents (Elt F) :=
  headR (convR128 (meanR128 (convR3 (meanR3 (hNorm x) (e0 e) (e1 e)) (hNorm x) a2 a3 a4) (e0 e) (e1 e))
    (convR3 (meanR3 (hNorm x) (e0 e) (e1 e)) (hNorm x) a2 a3 a4) a5 a6 a7) a8 a9 a10 a11

/-- The whole network with the means taken as products with the reciprocal count. -/
def kerOut (x : (⟨S100000x3, .f32⟩ : BufTy).Contents (Elt F)) (e : (⟨S2x600000, .i32⟩ : BufTy).Contents (Elt F)) (a2 : (⟨S128x3, .f32⟩ : BufTy).Contents (Elt F)) (a3 : (⟨S128, .f32⟩ : BufTy).Contents (Elt F)) (a4 : (⟨S128x3, .f32⟩ : BufTy).Contents (Elt F))
    (a5 : (⟨S128x128, .f32⟩ : BufTy).Contents (Elt F)) (a6 : (⟨S128, .f32⟩ : BufTy).Contents (Elt F)) (a7 : (⟨S128x128, .f32⟩ : BufTy).Contents (Elt F)) (a8 : (⟨S256x128, .f32⟩ : BufTy).Contents (Elt F)) (a9 : (⟨S256, .f32⟩ : BufTy).Contents (Elt F))
    (a10 : (⟨S8x256, .f32⟩ : BufTy).Contents (Elt F)) (a11 : (⟨S8, .f32⟩ : BufTy).Contents (Elt F)) : (⟨S100000x8, .f32⟩ : BufTy).Contents (Elt F) :=
  headR (convR128 (meanK128 (convR3 (meanK3 (hNorm x) (e0 e) (e1 e)) (hNorm x) a2 a3 a4) (e0 e) (e1 e))
    (convR3 (meanK3 (hNorm x) (e0 e) (e1 e)) (hNorm x) a2 a3 a4) a5 a6 a7) a8 a9 a10 a11

end Cert.Stages

end
-- ==== Proof.RefRun.lean ====
/-
  The reference program's run, read back as whole-array functions.

  The reference's entry function is a straight line of 147 host operations (the one outlined function it calls is a
  single select, written at its call site).  Run from any memory with zero counters it terminates with every buffer at
  the fold of the operations' results over the launch contents.  The line is cut where a stage of the network ends —
  the normalised features and the two edge rows, the first mean and layer, the second mean and layer, the head — and
  the fold over each piece, from ANY contents, is that stage's whole-array function of the buffers the piece reads;
  buffers a piece does not write pass through it.  Composed, the result buffer holds refOut of the twelve arguments,
  which are themselves unchanged.
-/
import proofs.«147892_j13202729468516_1_alg».proof.Proof.Stages
import proofs.«147892_j13202729468516_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Two blocks of columns side by side: 2 columns and 1 column as 3. -/
def cat21 (a : (⟨S100000x2, .f32⟩ : BufTy).Contents (Elt F)) (b : (⟨S100000x1, .f32⟩ : BufTy).Contents (Elt F)) : (⟨S100000x3, .f32⟩ : BufTy).Contents (Elt F) :=
  concatenate S100000x3 1 [⟨S100000x2, a⟩, ⟨S100000x1, b⟩] concatenates_S100000x2_S100000x1_S100000x3_d1

/-- Statements 1 … 60. -/
abbrev opsW0 : List (HloOp τ sig (Elt F)) :=
  [ StableHlo.nullary main_cst (fun i => FloatOps.ofBits .f32 (lit0 (S2x2.rowMajor i))),
    StableHlo.nullary main_cst_0 (fun i => FloatOps.ofBits .f32 (lit1 (S2x2.rowMajor i))),
    StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000,
    StableHlo.unary main_arg0 main_v4 ((extractStridedSlice S100000x2 ![0, 0] · slices_S100000x3_S100000x2_0_0) : (⟨S100000x3, .f32⟩ : BufTy).Contents (Elt F) → (⟨S100000x2, .f32⟩ : BufTy).Contents (Elt F)),
    StableHlo.unary main_arg0 main_v5 ((extractStridedSlice S100000x1 ![0, 2] · slices_S100000x3_S100000x1_0_2) : (⟨S100000x3, .f32⟩ : BufTy).Contents (Elt F) → (⟨S100000x1, .f32⟩ : BufTy).Contents (Elt F)),
    StableHlo.nullary main_cst_1 (constant S_ .f32 0xFF800000#32),
    StableHlo.binary main_v4 main_cst_1 main_v6 ((fun x v => Host.reduce FloatOps.maximumf x v reducesTo_S100000x2_S2_d0 h_S_) : (⟨S100000x2, .f32⟩ : BufTy).Contents (Elt F) → (⟨S_, .f32⟩ : BufTy).Contents (Elt F) → (⟨S2, .f32⟩ : BufTy).Contents (Elt F)),
    StableHlo.nullary main_cst_2 (constant S_ .f32 0x7F800000#32),
    StableHlo.binary main_v4 main_cst_2 main_v7 ((fun x v => Host.reduce FloatOps.minimumf x v reducesTo_S100000x2_S2_d0 h_S_) : (⟨S100000x2, .f32⟩ : BufTy).Contents (Elt F) → (⟨S_, .f32⟩ : BufTy).Contents (Elt F) → (⟨S2, .f32⟩ : BufTy).Contents (Elt F)),
    StableHlo.nullary main_cst_3 (constant S_ .f32 0x3FC90FDB#32),
    StableHlo.unary main_cst_3 main_v8 (Host.cos : (⟨S_, .f32⟩ : BufTy).Contents (Elt F) → (⟨S_, .f32⟩ : BufTy).Contents (Elt F)),
    StableHlo.nullary main_cst_4 (constant S_ .f32 0x3FC90FDB#32),
    StableHlo.unary main_cst_4 main_v9 (Host.sin : (⟨S_, .f32⟩ : BufTy).Contents (Elt F) → (⟨S_, .f32⟩ : BufTy).Contents (Elt F)),
    StableHlo.unary main_v8 main_v10 (broadcastInDim S2x2 ![] bcast_S_S2x2 : (⟨S_, .f32⟩ : BufTy).Contents (Elt F) → (⟨S2x2, .f32⟩ : BufTy).Contents (Elt F)),
    StableHlo.binary main_cst main_v10 main_v11 (mulf : (⟨S2x2, .f32⟩ : BufTy).Contents (Elt F) → (⟨S2x2, .f32⟩ : BufTy).Contents (Elt F) → (⟨S2x2, .f32⟩ : BufTy).Contents (Elt F)),
    StableHlo.unary main_v9 main_v12 (broadcastInDim S2x2 ![] bcast_S_S2x2 : (⟨S_, .f32⟩ : BufTy).Contents (Elt F) → (⟨S2x2, .f32⟩ : BufTy).Contents (Elt F)),
    StableHlo.binary main_cst_0 main_v12 main_v13 (mulf : (⟨S2x2, .f32⟩ : BufTy).Contents (Elt F) → (⟨S2x2, .f32⟩ : BufTy).Contents (Elt F) → (⟨S2x2, .f32⟩ : BufTy).Contents (Elt F)),
    StableHlo.binary main_v11 main_v13 main_v14 (addf : (⟨S2x2, .f32⟩ : BufTy).Contents (Elt F) → (⟨S2x2, .f32⟩ : BufTy).Contents (Elt F) → (⟨S2x2, .f32⟩ : BufTy).Contents (Elt F)),
    StableHlo.unary main_v14 main_v15 ((transpose S2x2 [1, 0] · transposes_S2x2_S2x2_1_0) : (⟨S2x2, .f32⟩ : BufTy).Contents (Elt F) → (⟨S2x2, .f32⟩ : BufTy).Contents (Elt F)),
    StableHlo.binary main_v4 main_v15 main_v16 ((fun l r => Host.dotGeneral dot_S100000x2_S2x2_S100000x2_1_0_0_1_n_n none l r) : (⟨S100000x2, .f32⟩ : BufTy).Contents (Elt F) → (⟨S2x2, .f32⟩ : BufTy).Contents (Elt F) → (⟨S100000x2, .f32⟩ : BufTy).Contents (Elt F)),
    StableHlo.unary main_v6 main_v17 ((extractStridedSlice S1 ![1] · slices_S2_S1_1) : (⟨S2, .f32⟩ : BufTy).Contents (Elt F) → (⟨S1, .f32⟩ : BufTy).Contents (Elt F)),
    StableHlo.reshape main_v17 main_v18 rfl shapeCasts_S1_S_,
    StableHlo.unary main_v7 main_v19 ((extractStridedSlice S1 ![1] · slices_S2_S1_1) : (⟨S2, .f32⟩ : BufTy).Contents (Elt F) → (⟨S1, .f32⟩ : BufTy).Contents (Elt F)),
    StableHlo.reshape main_v19 main_v20 rfl shapeCasts_S1_S_,
    StableHlo.binary main_v18 main_v20 main_v21 (subf : (⟨S_, .f32⟩ : BufTy).Contents (Elt F) → (⟨S_, .f32⟩ : BufTy).Contents (Elt F) → (⟨S_, .f32⟩ : BufTy).Contents (Elt F)),
    StableHlo.unary main_v6 main_v22 ((extractStridedSlice S1 ![0] · slices_S2_S1_0) : (⟨S2, .f32⟩ : BufTy).Contents (Elt F) → (⟨S1, .f32⟩ : BufTy).Contents (Elt F)),
    StableHlo.reshape main_v22 main_v23 rfl shapeCasts_S1_S_,
    StableHlo.unary main_v7 main_v24 ((extractStridedSlice S1 ![0] · slices_S2_S1_0) : (⟨S2, .f32⟩ : BufTy).Contents (Elt F) → (⟨S1, .f32⟩ : BufTy).Contents (Elt F)),
    StableHlo.reshape main_v24 main_v25 rfl shapeCasts_S1_S_,
    StableHlo.binary main_v23 main_v25 main_v26 (subf : (⟨S_, .f32⟩ : BufTy).Contents (Elt F) → (⟨S_, .f32⟩ : BufTy).Contents (Elt F) → (⟨S_, .f32⟩ : BufTy).Contents (Elt F)),
    StableHlo.binary main_v21 main_v26 main_v27 (cmpf .ogt : (⟨S_, .f32⟩ : BufTy).Contents (Elt F) → (⟨S_, .f32⟩ : BufTy).Contents (Elt F) → (⟨S_, .i1⟩ : BufTy).Contents (Elt F)),
    StableHlo.TRef.ternary (.of main_v27 : StableHlo.TRef sig ⟨S_, .i1⟩) (.of main_v16 : StableHlo.TRef sig ⟨S100000x2, .f32⟩) (.of main_v4 : StableHlo.TRef sig ⟨S100000x2, .f32⟩) (.of main_v28 : StableHlo.TRef sig ⟨S100000x2, .f32⟩) (fun p a b => select (broadcastInDim S100000x2 ![] bcast_S_S100000x2 p) a b),
    StableHlo.nullary main_cst_5 (constant S_ .f32 0x00000000#32),
    StableHlo.binary main_v28 main_cst_5 main_v29 ((fun x v => Host.reduceAdd x v reducesTo_S100000x2_S2_d0 h_S_) : (⟨S100000x2, .f32⟩ : BufTy).Contents (Elt F) → (⟨S_, .f32⟩ : BufTy).Contents (Elt F) → (⟨S2, .f32⟩ : BufTy).Contents (Elt F)),
    StableHlo.nullary main_cst_6 (constant S_ .f32 0x47C35000#32),
    StableHlo.unary main_cst_6 main_v30 (broadcastInDim S2 ![] bcast_S_S2 : (⟨S_, .f32⟩ : BufTy).Contents (Elt F) → (⟨S2, .f32⟩ : BufTy).Contents (Elt F)),
    StableHlo.binary main_v29 main_v30 main_v31 (Host.divf : (⟨S2, .f32⟩ : BufTy).Contents (Elt F) → (⟨S2, .f32⟩ : BufTy).Contents (Elt F) → (⟨S2, .f32⟩ : BufTy).Contents (Elt F)),
    StableHlo.unary main_v31 main_v32 (broadcastInDim S1x2 ![1] bcast_S2_S1x2_1 : (⟨S2, .f32⟩ : BufTy).Contents (Elt F) → (⟨S1x2, .f32⟩ : BufTy).Contents (Elt F)),
    StableHlo.unary main_v32 main_v33 (broadcastInDim S100000x2 ![0, 1] bcast_S1x2_S100000x2_0_1 : (⟨S1x2, .f32⟩ : BufTy).Contents (Elt F) → (⟨S100000x2, .f32⟩ : BufTy).Contents (Elt F)),
    StableHlo.binary main_v28 main_v33 main_v34 (subf : (⟨S100000x2, .f32⟩ : BufTy).Contents (Elt F) → (⟨S100000x2, .f32⟩ : BufTy).Contents (Elt F) → (⟨S100000x2, .f32⟩ : BufTy).Contents (Elt F)),
    StableHlo.nullary main_cst_7 (constant S_ .f32 0xFF800000#32),
    StableHlo.binary main_v28 main_cst_7 main_v35 ((fun x v => Host.reduce FloatOps.maximumf x v reducesTo_S100000x2_S2_d0 h_S_) : (⟨S100000x2, .f32⟩ : BufTy).Contents (Elt F) → (⟨S_, .f32⟩ : BufTy).Contents (Elt F) → (⟨S2, .f32⟩ : BufTy).Contents (Elt F)),
    StableHlo.unary main_v35 main_v36 (broadcastInDim S1x2 ![1] bcast_S2_S1x2_1 : (⟨S2, .f32⟩ : BufTy).Contents (Elt F) → (⟨S1x2, .f32⟩ : BufTy).Contents (Elt F)),
    StableHlo.unary main_v36 main_v37 (broadcastInDim S100000x2 ![0, 1] bcast_S1x2_S100000x2_0_1 : (⟨S1x2, .f32⟩ : BufTy).Contents (Elt F) → (⟨S100000x2, .f32⟩ : BufTy).Contents (Elt F)),
    StableHlo.binary main_v34 main_v37 main_v38 (Host.divf : (⟨S100000x2, .f32⟩ : BufTy).Contents (Elt F) → (⟨S100000x2, .f32⟩ : BufTy).Contents (Elt F) → (⟨S100000x2, .f32⟩ : BufTy).Contents (Elt F)),
    StableHlo.nullary main_cst_8 (constant S_ .f32 0xFF800000#32),
    StableHlo.binary main_v5 main_cst_8 main_v39 ((fun x v => Host.reduce FloatOps.maximumf x v reducesTo_S100000x1_S1_d0 h_S_) : (⟨S100000x1, .f32⟩ : BufTy).Contents (Elt F) → (⟨S_, .f32⟩ : BufTy).Contents (Elt F) → (⟨S1, .f32⟩ : BufTy).Contents (Elt F)),
    StableHlo.unary main_v39 main_v40 (broadcastInDim S1x1 ![1] bcast_S1_S1x1_1 : (⟨S1, .f32⟩ : BufTy).Contents (Elt F) → (⟨S1x1, .f32⟩ : BufTy).Contents (Elt F)),
    StableHlo.unary main_v40 main_v41 (broadcastInDim S100000x1 ![0, 1] bcast_S1x1_S100000x1_0_1 : (⟨S1x1, .f32⟩ : BufTy).Contents (Elt F) → (⟨S100000x1, .f32⟩ : BufTy).Contents (Elt F)),
    StableHlo.binary main_v5 main_v41 main_v42 (Host.divf : (⟨S100000x1, .f32⟩ : BufTy).Contents (Elt F) → (⟨S100000x1, .f32⟩ : BufTy).Contents (Elt F) → (⟨S100000x1, .f32⟩ : BufTy).Contents (Elt F)),
    StableHlo.binary main_v38 main_v42 main_v43 (cat21 : (⟨S100000x2, .f32⟩ : BufTy).Contents (Elt F) → (⟨S100000x1, .f32⟩ : BufTy).Contents (Elt F) → (⟨S100000x3, .f32⟩ : BufTy).Contents (Elt F)),
    StableHlo.nullary main_c (constantI S_ 32 0#32),
    StableHlo.unary main_c main_v44 (broadcastInDim S600000 ![] bcast_S_S600000 : (⟨S_, .i32⟩ : BufTy).Contents (Elt F) → (⟨S600000, .i32⟩ : BufTy).Contents (Elt F)),
    StableHlo.binary main_v1 main_v44 main_v45 (cmpi .slt : (⟨S600000, .i32⟩ : BufTy).Contents (Elt F) → (⟨S600000, .i32⟩ : BufTy).Contents (Elt F) → (⟨S600000, .i1⟩ : BufTy).Contents (Elt F)),
    StableHlo.nullary main_c_9 (constantI S_ 32 100000#32),
    StableHlo.unary main_c_9 main_v46 (broadcastInDim S600000 ![] bcast_S_S600000 : (⟨S_, .i32⟩ : BufTy).Contents (Elt F) → (⟨S600000, .i32⟩ : BufTy).Contents (Elt F)),
    StableHlo.binary main_v1 main_v46 main_v47 (addi : (⟨S600000, .i32⟩ : BufTy).Contents (Elt F) → (⟨S600000, .i32⟩ : BufTy).Contents (Elt F) → (⟨S600000, .i32⟩ : BufTy).Contents (Elt F)) ]
theorem opsW0_sub : (opsW0 : List (HloOp τ sig (Elt F))).Forall fun op => op.bufs ⊆ StableHlo.tcRefs τ sig :=
  ⟨StableHlo.nullary_bufs_sub .., StableHlo.nullary_bufs_sub .., StableHlo.unary_bufs_sub .., StableHlo.reshape_bufs_sub .., StableHlo.unary_bufs_sub .., StableHlo.reshape_bufs_sub .., StableHlo.unary_bufs_sub .., StableHlo.unary_bufs_sub .., StableHlo.nullary_bufs_sub .., StableHlo.binary_bufs_sub .., StableHlo.nullary_bufs_sub .., StableHlo.binary_bufs_sub .., StableHlo.nullary_bufs_sub .., StableHlo.unary_bufs_sub .., StableHlo.nullary_bufs_sub .., StableHlo.unary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.binary_bufs_sub .., StableHlo.ternary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub ..⟩

/-- Statements 61 … 120. -/
abbrev opsW1 : List (HloOp τ sig (Elt F)) :=
  [ StableHlo.ternary main_v45 main_v47 main_v1 main_v48 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v48 main_v49 (broadcastInDim S600000x1 ![0] bcast_S600000_S600000x1_0 : (⟨S600000, .i32⟩ : BufTy).Contents (Elt F) → (⟨S600000x1, .i32⟩ : BufTy).Contents (Elt F)),
    StableHlo.binary main_v43 main_v49 main_v50 ((fun x i => Host.gather gather_S100000x3_S600000x1_S600000x3_1_0_n_n_0_1_13 x i) : (⟨S100000x3, .f32⟩ : BufTy).Contents (Elt F) → (⟨S600000x1, .i32⟩ : BufTy).Contents (Elt F) → (⟨S600000x3, .f32⟩ : BufTy).Contents (Elt F)),
    StableHlo.nullary main_cst_10 (constant S_ .f32 0x00000000#32),
    StableHlo.unary main_cst_10 main_v51 (broadcastInDim S100000x3 ![] bcast_S_S100000x3 : (⟨S_, .f32⟩ : BufTy).Contents (Elt F) → (⟨S100000x3, .f32⟩ : BufTy).Contents (Elt F)),
    StableHlo.unary main_v3 main_v52 (broadcastInDim S600000x1 ![0] bcast_S600000_S600000x1_0 : (⟨S600000, .i32⟩ : BufTy).Contents (Elt F) → (⟨S600000x1, .i32⟩ : BufTy).Contents (Elt F)),
    StableHlo.ternary main_v51 main_v52 main_v50 main_v53 ((fun x i u => Host.scatterAdd scatter_S100000x3_S600000x1_S600000x3_1_0_0_1 x i u) : (⟨S100000x3, .f32⟩ : BufTy).Contents (Elt F) → (⟨S600000x1, .i32⟩ : BufTy).Contents (Elt F) → (⟨S600000x3, .f32⟩ : BufTy).Contents (Elt F) → (⟨S100000x3, .f32⟩ : BufTy).Contents (Elt F)),
    StableHlo.nullary main_cst_11 (constant S_ .f32 0x3F800000#32),
    StableHlo.unary main_cst_11 main_v54 (broadcastInDim S600000 ![] bcast_S_S600000 : (⟨S_, .f32⟩ : BufTy).Contents (Elt F) → (⟨S600000, .f32⟩ : BufTy).Contents (Elt F)),
    StableHlo.nullary main_cst_12 (constant S_ .f32 0x00000000#32),
    StableHlo.unary main_cst_12 main_v55 (broadcastInDim S100000 ![] bcast_S_S100000 : (⟨S_, .f32⟩ : BufTy).Contents (Elt F) → (⟨S100000, .f32⟩ : BufTy).Contents (Elt F)),
    StableHlo.unary main_v3 main_v56 (broadcastInDim S600000x1 ![0] bcast_S600000_S600000x1_0 : (⟨S600000, .i32⟩ : BufTy).Contents (Elt F) → (⟨S600000x1, .i32⟩ : BufTy).Contents (Elt F)),
    StableHlo.ternary main_v55 main_v56 main_v54 main_v57 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    StableHlo.nullary main_cst_13 (constant S_ .f32 0x3F800000#32),
    StableHlo.unary main_cst_13 main_v58 (broadcastInDim S100000 ![] bcast_S_S100000 : (⟨S_, .f32⟩ : BufTy).Contents (Elt F) → (⟨S100000, .f32⟩ : BufTy).Contents (Elt F)),
    StableHlo.binary main_v57 main_v58 main_v59 (maximumf : (⟨S100000, .f32⟩ : BufTy).Contents (Elt F) → (⟨S100000, .f32⟩ : BufTy).Contents (Elt F) → (⟨S100000, .f32⟩ : BufTy).Contents (Elt F)),
    StableHlo.unary main_v59 main_v60 (broadcastInDim S100000x1 ![0] bcast_S100000_S100000x1_0 : (⟨S100000, .f32⟩ : BufTy).Contents (Elt F) → (⟨S100000x1, .f32⟩ : BufTy).Contents (Elt F)),
    StableHlo.unary main_v60 main_v61 (broadcastInDim S100000x3 ![0, 1] bcast_S100000x1_S100000x3_0_1 : (⟨S100000x1, .f32⟩ : BufTy).Contents (Elt F) → (⟨S100000x3, .f32⟩ : BufTy).Contents (Elt F)),
    StableHlo.binary main_v53 main_v61 main_v62 (Host.divf : (⟨S100000x3, .f32⟩ : BufTy).Contents (Elt F) → (⟨S100000x3, .f32⟩ : BufTy).Contents (Elt F) → (⟨S100000x3, .f32⟩ : BufTy).Contents (Elt F)),
    StableHlo.unary main_arg2 main_v63 ((transpose S3x128 [1, 0] · transposes_S128x3_S3x128_1_0) : (⟨S128x3, .f32⟩ : BufTy).Contents (Elt F) → (⟨S3x128, .f32⟩ : BufTy).Contents (Elt F)),
    StableHlo.binary main_v62 main_v63 main_v64 ((fun l r => Host.dotGeneral dot_S100000x3_S3x128_S100000x128_1_0_0_1_n_n none l r) : (⟨S100000x3, .f32⟩ : BufTy).Contents (Elt F) → (⟨S3x128, .f32⟩ : BufTy).Contents (Elt F) → (⟨S100000x128, .f32⟩ : BufTy).Contents (Elt F)),
    StableHlo.unary main_arg3 main_v65 (broadcastInDim S1x128 ![1] bcast_S128_S1x128_1 : (⟨S128, .f32⟩ : BufTy).Contents (Elt F) → (⟨S1x128, .f32⟩ : BufTy).Contents (Elt F)),
    StableHlo.unary main_v65 main_v66 (broadcastInDim S100000x128 ![0, 1] bcast_S1x128_S100000x128_0_1 : (⟨S1x128, .f32⟩ : BufTy).Contents (Elt F) → (⟨S100000x128, .f32⟩ : BufTy).Contents (Elt F)),
    StableHlo.binary main_v64 main_v66 main_v67 (addf : (⟨S100000x128, .f32⟩ : BufTy).Contents (Elt F) → (⟨S100000x128, .f32⟩ : BufTy).Contents (Elt F) → (⟨S100000x128, .f32⟩ : BufTy).Contents (Elt F)),
    StableHlo.unary main_arg4 main_v68 ((transpose S3x128 [1, 0] · transposes_S128x3_S3x128_1_0) : (⟨S128x3, .f32⟩ : BufTy).Contents (Elt F) → (⟨S3x128, .f32⟩ : BufTy).Contents (Elt F)),
    StableHlo.binary main_v43 main_v68 main_v69 ((fun l r => Host.dotGeneral dot_S100000x3_S3x128_S100000x128_1_0_0_1_n_n none l r) : (⟨S100000x3, .f32⟩ : BufTy).Contents (Elt F) → (⟨S3x128, .f32⟩ : BufTy).Contents (Elt F) → (⟨S100000x128, .f32⟩ : BufTy).Contents (Elt F)),
    StableHlo.binary main_v67 main_v69 main_v70 (addf : (⟨S100000x128, .f32⟩ : BufTy).Contents (Elt F) → (⟨S100000x128, .f32⟩ : BufTy).Contents (Elt F) → (⟨S100000x128, .f32⟩ : BufTy).Contents (Elt F)),
    StableHlo.unary main_v70 main_v71 (Host.tanh : (⟨S100000x128, .f32⟩ : BufTy).Contents (Elt F) → (⟨S100000x128, .f32⟩ : BufTy).Contents (Elt F)),
    StableHlo.nullary main_c_14 (constantI S_ 32 0#32),
    StableHlo.unary main_c_14 main_v72 (broadcastInDim S600000 ![] bcast_S_S600000 : (⟨S_, .i32⟩ : BufTy).Contents (Elt F) → (⟨S600000, .i32⟩ : BufTy).Contents (Elt F)),
    StableHlo.binary main_v1 main_v72 main_v73 (cmpi .slt : (⟨S600000, .i32⟩ : BufTy).Contents (Elt F) → (⟨S600000, .i32⟩ : BufTy).Contents (Elt F) → (⟨S600000, .i1⟩ : BufTy).Contents (Elt F)),
    StableHlo.nullary main_c_15 (constantI S_ 32 100000#32),
    StableHlo.unary main_c_15 main_v74 (broadcastInDim S600000 ![] bcast_S_S600000 : (⟨S_, .i32⟩ : BufTy).Contents (Elt F) → (⟨S600000, .i32⟩ : BufTy).Contents (Elt F)),
    StableHlo.binary main_v1 main_v74 main_v75 (addi : (⟨S600000, .i32⟩ : BufTy).Contents (Elt F) → (⟨S600000, .i32⟩ : BufTy).Contents (Elt F) → (⟨S600000, .i32⟩ : BufTy).Contents (Elt F)),
    StableHlo.ternary main_v73 main_v75 main_v1 main_v76 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v76 main_v77 (broadcastInDim S600000x1 ![0] bcast_S600000_S600000x1_0 : (⟨S600000, .i32⟩ : BufTy).Contents (Elt F) → (⟨S600000x1, .i32⟩ : BufTy).Contents (Elt F)),
    StableHlo.binary main_v71 main_v77 main_v78 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.nullary main_cst_16 (constant S_ .f32 0x00000000#32),
    StableHlo.unary main_cst_16 main_v79 (broadcastInDim S100000x128 ![] bcast_S_S100000x128 : (⟨S_, .f32⟩ : BufTy).Contents (Elt F) → (⟨S100000x128, .f32⟩ : BufTy).Contents (Elt F)),
    StableHlo.unary main_v3 main_v80 (broadcastInDim S600000x1 ![0] bcast_S600000_S600000x1_0 : (⟨S600000, .i32⟩ : BufTy).Contents (Elt F) → (⟨S600000x1, .i32⟩ : BufTy).Contents (Elt F)),
    StableHlo.ternary main_v79 main_v80 main_v78 main_v81 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.nullary main_cst_17 (constant S_ .f32 0x3F800000#32),
    StableHlo.unary main_cst_17 main_v82 (broadcastInDim S600000 ![] bcast_S_S600000 : (⟨S_, .f32⟩ : BufTy).Contents (Elt F) → (⟨S600000, .f32⟩ : BufTy).Contents (Elt F)),
    StableHlo.nullary main_cst_18 (constant S_ .f32 0x00000000#32),
    StableHlo.unary main_cst_18 main_v83 (broadcastInDim S100000 ![] bcast_S_S100000 : (⟨S_, .f32⟩ : BufTy).Contents (Elt F) → (⟨S100000, .f32⟩ : BufTy).Contents (Elt F)),
    StableHlo.unary main_v3 main_v84 (broadcastInDim S600000x1 ![0] bcast_S600000_S600000x1_0 : (⟨S600000, .i32⟩ : BufTy).Contents (Elt F) → (⟨S600000x1, .i32⟩ : BufTy).Contents (Elt F)),
    StableHlo.ternary main_v83 main_v84 main_v82 main_v85 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    StableHlo.nullary main_cst_19 (constant S_ .f32 0x3F800000#32),
    StableHlo.unary main_cst_19 main_v86 (broadcastInDim S100000 ![] bcast_S_S100000 : (⟨S_, .f32⟩ : BufTy).Contents (Elt F) → (⟨S100000, .f32⟩ : BufTy).Contents (Elt F)),
    StableHlo.binary main_v85 main_v86 main_v87 (maximumf : (⟨S100000, .f32⟩ : BufTy).Contents (Elt F) → (⟨S100000, .f32⟩ : BufTy).Contents (Elt F) → (⟨S100000, .f32⟩ : BufTy).Contents (Elt F)),
    StableHlo.unary main_v87 main_v88 (broadcastInDim S100000x1 ![0] bcast_S100000_S100000x1_0 : (⟨S100000, .f32⟩ : BufTy).Contents (Elt F) → (⟨S100000x1, .f32⟩ : BufTy).Contents (Elt F)),
    StableHlo.unary main_v88 main_v89 (broadcastInDim S100000x128 ![0, 1] bcast_S100000x1_S100000x128_0_1 : (⟨S100000x1, .f32⟩ : BufTy).Contents (Elt F) → (⟨S100000x128, .f32⟩ : BufTy).Contents (Elt F)),
    StableHlo.binary main_v81 main_v89 main_v90 (Host.divf : (⟨S100000x128, .f32⟩ : BufTy).Contents (Elt F) → (⟨S100000x128, .f32⟩ : BufTy).Contents (Elt F) → (⟨S100000x128, .f32⟩ : BufTy).Contents (Elt F)),
    StableHlo.unary main_arg5 main_v91 ((transpose S128x128 [1, 0] · transposes_S128x128_S128x128_1_0) : (⟨S128x128, .f32⟩ : BufTy).Contents (Elt F) → (⟨S128x128, .f32⟩ : BufTy).Contents (Elt F)),
    StableHlo.binary main_v90 main_v91 main_v92 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg6 main_v93 (broadcastInDim S1x128 ![1] bcast_S128_S1x128_1 : (⟨S128, .f32⟩ : BufTy).Contents (Elt F) → (⟨S1x128, .f32⟩ : BufTy).Contents (Elt F)),
    StableHlo.unary main_v93 main_v94 (broadcastInDim S100000x128 ![0, 1] bcast_S1x128_S100000x128_0_1 : (⟨S1x128, .f32⟩ : BufTy).Contents (Elt F) → (⟨S100000x128, .f32⟩ : BufTy).Contents (Elt F)),
    StableHlo.binary main_v92 main_v94 main_v95 (addf : (⟨S100000x128, .f32⟩ : BufTy).Contents (Elt F) → (⟨S100000x128, .f32⟩ : BufTy).Contents (Elt F) → (⟨S100000x128, .f32⟩ : BufTy).Contents (Elt F)),
    StableHlo.unary main_arg7 main_v96 ((transpose S128x128 [1, 0] · transposes_S128x128_S128x128_1_0) : (⟨S128x128, .f32⟩ : BufTy).Contents (Elt F) → (⟨S128x128, .f32⟩ : BufTy).Contents (Elt F)),
    StableHlo.binary main_v71 main_v96 main_v97 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]
theorem opsW1_sub : (opsW1 : List (HloOp τ sig (Elt F))).Forall fun op => op.bufs ⊆ StableHlo.tcRefs τ sig :=
  ⟨StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub ..⟩

/-- Statements 121 … 147. -/
abbrev opsW2 : List (HloOp τ sig (Elt F)) :=
  [ StableHlo.binary main_v95 main_v97 main_v98 (addf : (⟨S100000x128, .f32⟩ : BufTy).Contents (Elt F) → (⟨S100000x128, .f32⟩ : BufTy).Contents (Elt F) → (⟨S100000x128, .f32⟩ : BufTy).Contents (Elt F)),
    StableHlo.unary main_v98 main_v99 (Host.tanh : (⟨S100000x128, .f32⟩ : BufTy).Contents (Elt F) → (⟨S100000x128, .f32⟩ : BufTy).Contents (Elt F)),
    StableHlo.unary main_arg8 main_v100 ((transpose S128x256 [1, 0] · transposes_S256x128_S128x256_1_0) : (⟨S256x128, .f32⟩ : BufTy).Contents (Elt F) → (⟨S128x256, .f32⟩ : BufTy).Contents (Elt F)),
    StableHlo.binary main_v99 main_v100 main_v101 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    StableHlo.unary main_arg9 main_v102 (broadcastInDim S1x256 ![1] bcast_S256_S1x256_1 : (⟨S256, .f32⟩ : BufTy).Contents (Elt F) → (⟨S1x256, .f32⟩ : BufTy).Contents (Elt F)),
    StableHlo.unary main_v102 main_v103 (broadcastInDim S100000x256 ![0, 1] bcast_S1x256_S100000x256_0_1 : (⟨S1x256, .f32⟩ : BufTy).Contents (Elt F) → (⟨S100000x256, .f32⟩ : BufTy).Contents (Elt F)),
    StableHlo.binary main_v101 main_v103 main_v104 (addf : (⟨S100000x256, .f32⟩ : BufTy).Contents (Elt F) → (⟨S100000x256, .f32⟩ : BufTy).Contents (Elt F) → (⟨S100000x256, .f32⟩ : BufTy).Contents (Elt F)),
    StableHlo.unary main_v104 main_v105 (Host.tanh : (⟨S100000x256, .f32⟩ : BufTy).Contents (Elt F) → (⟨S100000x256, .f32⟩ : BufTy).Contents (Elt F)),
    StableHlo.unary main_arg10 main_v106 ((transpose S256x8 [1, 0] · transposes_S8x256_S256x8_1_0) : (⟨S8x256, .f32⟩ : BufTy).Contents (Elt F) → (⟨S256x8, .f32⟩ : BufTy).Contents (Elt F)),
    StableHlo.binary main_v105 main_v106 main_v107 ((fun l r => Host.dotGeneral dot_S100000x256_S256x8_S100000x8_1_0_0_1_n_n none l r) : (⟨S100000x256, .f32⟩ : BufTy).Contents (Elt F) → (⟨S256x8, .f32⟩ : BufTy).Contents (Elt F) → (⟨S100000x8, .f32⟩ : BufTy).Contents (Elt F)),
    StableHlo.unary main_arg11 main_v108 (broadcastInDim S1x8 ![1] bcast_S8_S1x8_1 : (⟨S8, .f32⟩ : BufTy).Contents (Elt F) → (⟨S1x8, .f32⟩ : BufTy).Contents (Elt F)),
    StableHlo.unary main_v108 main_v109 (broadcastInDim S100000x8 ![0, 1] bcast_S1x8_S100000x8_0_1 : (⟨S1x8, .f32⟩ : BufTy).Contents (Elt F) → (⟨S100000x8, .f32⟩ : BufTy).Contents (Elt F)),
    StableHlo.binary main_v107 main_v109 main_v110 (addf : (⟨S100000x8, .f32⟩ : BufTy).Contents (Elt F) → (⟨S100000x8, .f32⟩ : BufTy).Contents (Elt F) → (⟨S100000x8, .f32⟩ : BufTy).Contents (Elt F)),
    StableHlo.nullary main_cst_20 (constant S_ .f32 0xFF800000#32),
    StableHlo.binary main_v110 main_cst_20 main_v111 ((fun x v => Host.reduce FloatOps.maximumf x v reducesTo_S100000x8_S100000_d1 h_S_) : (⟨S100000x8, .f32⟩ : BufTy).Contents (Elt F) → (⟨S_, .f32⟩ : BufTy).Contents (Elt F) → (⟨S100000, .f32⟩ : BufTy).Contents (Elt F)),
    StableHlo.nullary main_cst_21 (constant S_ .f32 0xFF800000#32),
    StableHlo.unary main_cst_21 main_v112 (broadcastInDim S100000 ![] bcast_S_S100000 : (⟨S_, .f32⟩ : BufTy).Contents (Elt F) → (⟨S100000, .f32⟩ : BufTy).Contents (Elt F)),
    StableHlo.binary main_v112 main_v111 main_v113 (maximumf : (⟨S100000, .f32⟩ : BufTy).Contents (Elt F) → (⟨S100000, .f32⟩ : BufTy).Contents (Elt F) → (⟨S100000, .f32⟩ : BufTy).Contents (Elt F)),
    StableHlo.unary main_v113 main_v114 (broadcastInDim S100000x1 ![0] bcast_S100000_S100000x1_0 : (⟨S100000, .f32⟩ : BufTy).Contents (Elt F) → (⟨S100000x1, .f32⟩ : BufTy).Contents (Elt F)),
    StableHlo.unary main_v114 main_v115 (broadcastInDim S100000x8 ![0, 1] bcast_S100000x1_S100000x8_0_1 : (⟨S100000x1, .f32⟩ : BufTy).Contents (Elt F) → (⟨S100000x8, .f32⟩ : BufTy).Contents (Elt F)),
    StableHlo.binary main_v110 main_v115 main_v116 (subf : (⟨S100000x8, .f32⟩ : BufTy).Contents (Elt F) → (⟨S100000x8, .f32⟩ : BufTy).Contents (Elt F) → (⟨S100000x8, .f32⟩ : BufTy).Contents (Elt F)),
    StableHlo.unary main_v116 main_v117 (Host.exp : (⟨S100000x8, .f32⟩ : BufTy).Contents (Elt F) → (⟨S100000x8, .f32⟩ : BufTy).Contents (Elt F)),
    StableHlo.nullary main_cst_22 (constant S_ .f32 0x00000000#32),
    StableHlo.binary main_v117 main_cst_22 main_v118 ((fun x v => Host.reduceAdd x v reducesTo_S100000x8_S100000_d1 h_S_) : (⟨S100000x8, .f32⟩ : BufTy).Contents (Elt F) → (⟨S_, .f32⟩ : BufTy).Contents (Elt F) → (⟨S100000, .f32⟩ : BufTy).Contents (Elt F)),
    StableHlo.unary main_v118 main_v119 (broadcastInDim S100000x1 ![0] bcast_S100000_S100000x1_0 : (⟨S100000, .f32⟩ : BufTy).Contents (Elt F) → (⟨S100000x1, .f32⟩ : BufTy).Contents (Elt F)),
    StableHlo.unary main_v119 main_v120 (broadcastInDim S100000x8 ![0, 1] bcast_S100000x1_S100000x8_0_1 : (⟨S100000x1, .f32⟩ : BufTy).Contents (Elt F) → (⟨S100000x8, .f32⟩ : BufTy).Contents (Elt F)),
    StableHlo.binary main_v117 main_v120 main_v121 (Host.divf : (⟨S100000x8, .f32⟩ : BufTy).Contents (Elt F) → (⟨S100000x8, .f32⟩ : BufTy).Contents (Elt F) → (⟨S100000x8, .f32⟩ : BufTy).Contents (Elt F)) ]
theorem opsW2_sub : (opsW2 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub ..⟩

/-- Up to the normalised features (%43), the edge rows among them. -/
abbrev opsS1 : List (HloOp τ sig (Elt F)) :=
  [ StableHlo.nullary main_cst (fun i => FloatOps.ofBits .f32 (lit0 (S2x2.rowMajor i))),
    StableHlo.nullary main_cst_0 (fun i => FloatOps.ofBits .f32 (lit1 (S2x2.rowMajor i))),
    StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000,
    StableHlo.unary main_arg0 main_v4 ((extractStridedSlice S100000x2 ![0, 0] · slices_S100000x3_S100000x2_0_0) : (⟨S100000x3, .f32⟩ : BufTy).Contents (Elt F) → (⟨S100000x2, .f32⟩ : BufTy).Contents (Elt F)),
    StableHlo.unary main_arg0 main_v5 ((extractStridedSlice S100000x1 ![0, 2] · slices_S100000x3_S100000x1_0_2) : (⟨S100000x3, .f32⟩ : BufTy).Contents (Elt F) → (⟨S100000x1, .f32⟩ : BufTy).Contents (Elt F)),
    StableHlo.nullary main_cst_1 (constant S_ .f32 0xFF800000#32),
    StableHlo.binary main_v4 main_cst_1 main_v6 ((fun x v => Host.reduce FloatOps.maximumf x v reducesTo_S100000x2_S2_d0 h_S_) : (⟨S100000x2, .f32⟩ : BufTy).Contents (Elt F) → (⟨S_, .f32⟩ : BufTy).Contents (Elt F) → (⟨S2, .f32⟩ : BufTy).Contents (Elt F)),
    StableHlo.nullary main_cst_2 (constant S_ .f32 0x7F800000#32),
    StableHlo.binary main_v4 main_cst_2 main_v7 ((fun x v => Host.reduce FloatOps.minimumf x v reducesTo_S100000x2_S2_d0 h_S_) : (⟨S100000x2, .f32⟩ : BufTy).Contents (Elt F) → (⟨S_, .f32⟩ : BufTy).Contents (Elt F) → (⟨S2, .f32⟩ : BufTy).Contents (Elt F)),
    StableHlo.nullary main_cst_3 (constant S_ .f32 0x3FC90FDB#32),
    StableHlo.unary main_cst_3 main_v8 (Host.cos : (⟨S_, .f32⟩ : BufTy).Contents (Elt F) → (⟨S_, .f32⟩ : BufTy).Contents (Elt F)),
    StableHlo.nullary main_cst_4 (constant S_ .f32 0x3FC90FDB#32),
    StableHlo.unary main_cst_4 main_v9 (Host.sin : (⟨S_, .f32⟩ : BufTy).Contents (Elt F) → (⟨S_, .f32⟩ : BufTy).Contents (Elt F)),
    StableHlo.unary main_v8 main_v10 (broadcastInDim S2x2 ![] bcast_S_S2x2 : (⟨S_, .f32⟩ : BufTy).Contents (Elt F) → (⟨S2x2, .f32⟩ : BufTy).Contents (Elt F)),
    StableHlo.binary main_cst main_v10 main_v11 (mulf : (⟨S2x2, .f32⟩ : BufTy).Contents (Elt F) → (⟨S2x2, .f32⟩ : BufTy).Contents (Elt F) → (⟨S2x2, .f32⟩ : BufTy).Contents (Elt F)),
    StableHlo.unary main_v9 main_v12 (broadcastInDim S2x2 ![] bcast_S_S2x2 : (⟨S_, .f32⟩ : BufTy).Contents (Elt F) → (⟨S2x2, .f32⟩ : BufTy).Contents (Elt F)),
    StableHlo.binary main_cst_0 main_v12 main_v13 (mulf : (⟨S2x2, .f32⟩ : BufTy).Contents (Elt F) → (⟨S2x2, .f32⟩ : BufTy).Contents (Elt F) → (⟨S2x2, .f32⟩ : BufTy).Contents (Elt F)),
    StableHlo.binary main_v11 main_v13 main_v14 (addf : (⟨S2x2, .f32⟩ : BufTy).Contents (Elt F) → (⟨S2x2, .f32⟩ : BufTy).Contents (Elt F) → (⟨S2x2, .f32⟩ : BufTy).Contents (Elt F)),
    StableHlo.unary main_v14 main_v15 ((transpose S2x2 [1, 0] · transposes_S2x2_S2x2_1_0) : (⟨S2x2, .f32⟩ : BufTy).Contents (Elt F) → (⟨S2x2, .f32⟩ : BufTy).Contents (Elt F)),
    StableHlo.binary main_v4 main_v15 main_v16 ((fun l r => Host.dotGeneral dot_S100000x2_S2x2_S100000x2_1_0_0_1_n_n none l r) : (⟨S100000x2, .f32⟩ : BufTy).Contents (Elt F) → (⟨S2x2, .f32⟩ : BufTy).Contents (Elt F) → (⟨S100000x2, .f32⟩ : BufTy).Contents (Elt F)),
    StableHlo.unary main_v6 main_v17 ((extractStridedSlice S1 ![1] · slices_S2_S1_1) : (⟨S2, .f32⟩ : BufTy).Contents (Elt F) → (⟨S1, .f32⟩ : BufTy).Contents (Elt F)),
    StableHlo.reshape main_v17 main_v18 rfl shapeCasts_S1_S_,
    StableHlo.unary main_v7 main_v19 ((extractStridedSlice S1 ![1] · slices_S2_S1_1) : (⟨S2, .f32⟩ : BufTy).Contents (Elt F) → (⟨S1, .f32⟩ : BufTy).Contents (Elt F)),
    StableHlo.reshape main_v19 main_v20 rfl shapeCasts_S1_S_,
    StableHlo.binary main_v18 main_v20 main_v21 (subf : (⟨S_, .f32⟩ : BufTy).Contents (Elt F) → (⟨S_, .f32⟩ : BufTy).Contents (Elt F) → (⟨S_, .f32⟩ : BufTy).Contents (Elt F)),
    StableHlo.unary main_v6 main_v22 ((extractStridedSlice S1 ![0] · slices_S2_S1_0) : (⟨S2, .f32⟩ : BufTy).Contents (Elt F) → (⟨S1, .f32⟩ : BufTy).Contents (Elt F)),
    StableHlo.reshape main_v22 main_v23 rfl shapeCasts_S1_S_,
    StableHlo.unary main_v7 main_v24 ((extractStridedSlice S1 ![0] · slices_S2_S1_0) : (⟨S2, .f32⟩ : BufTy).Contents (Elt F) → (⟨S1, .f32⟩ : BufTy).Contents (Elt F)),
    StableHlo.reshape main_v24 main_v25 rfl shapeCasts_S1_S_,
    StableHlo.binary main_v23 main_v25 main_v26 (subf : (⟨S_, .f32⟩ : BufTy).Contents (Elt F) → (⟨S_, .f32⟩ : BufTy).Contents (Elt F) → (⟨S_, .f32⟩ : BufTy).Contents (Elt F)),
    StableHlo.binary main_v21 main_v26 main_v27 (cmpf .ogt : (⟨S_, .f32⟩ : BufTy).Contents (Elt F) → (⟨S_, .f32⟩ : BufTy).Contents (Elt F) → (⟨S_, .i1⟩ : BufTy).Contents (Elt F)),
    StableHlo.TRef.ternary (.of main_v27 : StableHlo.TRef sig ⟨S_, .i1⟩) (.of main_v16 : StableHlo.TRef sig ⟨S100000x2, .f32⟩) (.of main_v4 : StableHlo.TRef sig ⟨S100000x2, .f32⟩) (.of main_v28 : StableHlo.TRef sig ⟨S100000x2, .f32⟩) (fun p a b => select (broadcastInDim S100000x2 ![] bcast_S_S100000x2 p) a b),
    StableHlo.nullary main_cst_5 (constant S_ .f32 0x00000000#32),
    StableHlo.binary main_v28 main_cst_5 main_v29 ((fun x v => Host.reduceAdd x v reducesTo_S100000x2_S2_d0 h_S_) : (⟨S100000x2, .f32⟩ : BufTy).Contents (Elt F) → (⟨S_, .f32⟩ : BufTy).Contents (Elt F) → (⟨S2, .f32⟩ : BufTy).Contents (Elt F)),
    StableHlo.nullary main_cst_6 (constant S_ .f32 0x47C35000#32),
    StableHlo.unary main_cst_6 main_v30 (broadcastInDim S2 ![] bcast_S_S2 : (⟨S_, .f32⟩ : BufTy).Contents (Elt F) → (⟨S2, .f32⟩ : BufTy).Contents (Elt F)),
    StableHlo.binary main_v29 main_v30 main_v31 (Host.divf : (⟨S2, .f32⟩ : BufTy).Contents (Elt F) → (⟨S2, .f32⟩ : BufTy).Contents (Elt F) → (⟨S2, .f32⟩ : BufTy).Contents (Elt F)),
    StableHlo.unary main_v31 main_v32 (broadcastInDim S1x2 ![1] bcast_S2_S1x2_1 : (⟨S2, .f32⟩ : BufTy).Contents (Elt F) → (⟨S1x2, .f32⟩ : BufTy).Contents (Elt F)),
    StableHlo.unary main_v32 main_v33 (broadcastInDim S100000x2 ![0, 1] bcast_S1x2_S100000x2_0_1 : (⟨S1x2, .f32⟩ : BufTy).Contents (Elt F) → (⟨S100000x2, .f32⟩ : BufTy).Contents (Elt F)),
    StableHlo.binary main_v28 main_v33 main_v34 (subf : (⟨S100000x2, .f32⟩ : BufTy).Contents (Elt F) → (⟨S100000x2, .f32⟩ : BufTy).Contents (Elt F) → (⟨S100000x2, .f32⟩ : BufTy).Contents (Elt F)),
    StableHlo.nullary main_cst_7 (constant S_ .f32 0xFF800000#32),
    StableHlo.binary main_v28 main_cst_7 main_v35 ((fun x v => Host.reduce FloatOps.maximumf x v reducesTo_S100000x2_S2_d0 h_S_) : (⟨S100000x2, .f32⟩ : BufTy).Contents (Elt F) → (⟨S_, .f32⟩ : BufTy).Contents (Elt F) → (⟨S2, .f32⟩ : BufTy).Contents (Elt F)),
    StableHlo.unary main_v35 main_v36 (broadcastInDim S1x2 ![1] bcast_S2_S1x2_1 : (⟨S2, .f32⟩ : BufTy).Contents (Elt F) → (⟨S1x2, .f32⟩ : BufTy).Contents (Elt F)),
    StableHlo.unary main_v36 main_v37 (broadcastInDim S100000x2 ![0, 1] bcast_S1x2_S100000x2_0_1 : (⟨S1x2, .f32⟩ : BufTy).Contents (Elt F) → (⟨S100000x2, .f32⟩ : BufTy).Contents (Elt F)),
    StableHlo.binary main_v34 main_v37 main_v38 (Host.divf : (⟨S100000x2, .f32⟩ : BufTy).Contents (Elt F) → (⟨S100000x2, .f32⟩ : BufTy).Contents (Elt F) → (⟨S100000x2, .f32⟩ : BufTy).Contents (Elt F)),
    StableHlo.nullary main_cst_8 (constant S_ .f32 0xFF800000#32),
    StableHlo.binary main_v5 main_cst_8 main_v39 ((fun x v => Host.reduce FloatOps.maximumf x v reducesTo_S100000x1_S1_d0 h_S_) : (⟨S100000x1, .f32⟩ : BufTy).Contents (Elt F) → (⟨S_, .f32⟩ : BufTy).Contents (Elt F) → (⟨S1, .f32⟩ : BufTy).Contents (Elt F)),
    StableHlo.unary main_v39 main_v40 (broadcastInDim S1x1 ![1] bcast_S1_S1x1_1 : (⟨S1, .f32⟩ : BufTy).Contents (Elt F) → (⟨S1x1, .f32⟩ : BufTy).Contents (Elt F)),
    StableHlo.unary main_v40 main_v41 (broadcastInDim S100000x1 ![0, 1] bcast_S1x1_S100000x1_0_1 : (⟨S1x1, .f32⟩ : BufTy).Contents (Elt F) → (⟨S100000x1, .f32⟩ : BufTy).Contents (Elt F)),
    StableHlo.binary main_v5 main_v41 main_v42 (Host.divf : (⟨S100000x1, .f32⟩ : BufTy).Contents (Elt F) → (⟨S100000x1, .f32⟩ : BufTy).Contents (Elt F) → (⟨S100000x1, .f32⟩ : BufTy).Contents (Elt F)),
    StableHlo.binary main_v38 main_v42 main_v43 (cat21 : (⟨S100000x2, .f32⟩ : BufTy).Contents (Elt F) → (⟨S100000x1, .f32⟩ : BufTy).Contents (Elt F) → (⟨S100000x3, .f32⟩ : BufTy).Contents (Elt F)) ]
theorem opsS1_sub : (opsS1 : List (HloOp τ sig (Elt F))).Forall fun op => op.bufs ⊆ StableHlo.tcRefs τ sig :=
  ⟨StableHlo.nullary_bufs_sub .., StableHlo.nullary_bufs_sub .., StableHlo.unary_bufs_sub .., StableHlo.reshape_bufs_sub .., StableHlo.unary_bufs_sub .., StableHlo.reshape_bufs_sub .., StableHlo.unary_bufs_sub .., StableHlo.unary_bufs_sub .., StableHlo.nullary_bufs_sub .., StableHlo.binary_bufs_sub .., StableHlo.nullary_bufs_sub .., StableHlo.binary_bufs_sub .., StableHlo.nullary_bufs_sub .., StableHlo.unary_bufs_sub .., StableHlo.nullary_bufs_sub .., StableHlo.unary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.binary_bufs_sub .., StableHlo.ternary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.unary_bufs_sub .., StableHlo.binary_bufs_sub .., StableHlo.binary_bufs_sub ..⟩

/-- The first mean and the first layer (%44 … %71). -/
abbrev opsS2 : List (HloOp τ sig (Elt F)) :=
  [ StableHlo.nullary main_c (constantI S_ 32 0#32),
    StableHlo.unary main_c main_v44 (broadcastInDim S600000 ![] bcast_S_S600000 : (⟨S_, .i32⟩ : BufTy).Contents (Elt F) → (⟨S600000, .i32⟩ : BufTy).Contents (Elt F)),
    StableHlo.binary main_v1 main_v44 main_v45 (cmpi .slt : (⟨S600000, .i32⟩ : BufTy).Contents (Elt F) → (⟨S600000, .i32⟩ : BufTy).Contents (Elt F) → (⟨S600000, .i1⟩ : BufTy).Contents (Elt F)),
    StableHlo.nullary main_c_9 (constantI S_ 32 100000#32),
    StableHlo.unary main_c_9 main_v46 (broadcastInDim S600000 ![] bcast_S_S600000 : (⟨S_, .i32⟩ : BufTy).Contents (Elt F) → (⟨S600000, .i32⟩ : BufTy).Contents (Elt F)),
    StableHlo.binary main_v1 main_v46 main_v47 (addi : (⟨S600000, .i32⟩ : BufTy).Contents (Elt F) → (⟨S600000, .i32⟩ : BufTy).Contents (Elt F) → (⟨S600000, .i32⟩ : BufTy).Contents (Elt F)),
    StableHlo.ternary main_v45 main_v47 main_v1 main_v48 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v48 main_v49 (broadcastInDim S600000x1 ![0] bcast_S600000_S600000x1_0 : (⟨S600000, .i32⟩ : BufTy).Contents (Elt F) → (⟨S600000x1, .i32⟩ : BufTy).Contents (Elt F)),
    StableHlo.binary main_v43 main_v49 main_v50 ((fun x i => Host.gather gather_S100000x3_S600000x1_S600000x3_1_0_n_n_0_1_13 x i) : (⟨S100000x3, .f32⟩ : BufTy).Contents (Elt F) → (⟨S600000x1, .i32⟩ : BufTy).Contents (Elt F) → (⟨S600000x3, .f32⟩ : BufTy).Contents (Elt F)),
    StableHlo.nullary main_cst_10 (constant S_ .f32 0x00000000#32),
    StableHlo.unary main_cst_10 main_v51 (broadcastInDim S100000x3 ![] bcast_S_S100000x3 : (⟨S_, .f32⟩ : BufTy).Contents (Elt F) → (⟨S100000x3, .f32⟩ : BufTy).Contents (Elt F)),
    StableHlo.unary main_v3 main_v52 (broadcastInDim S600000x1 ![0] bcast_S600000_S600000x1_0 : (⟨S600000, .i32⟩ : BufTy).Contents (Elt F) → (⟨S600000x1, .i32⟩ : BufTy).Contents (Elt F)),
    StableHlo.ternary main_v51 main_v52 main_v50 main_v53 ((fun x i u => Host.scatterAdd scatter_S100000x3_S600000x1_S600000x3_1_0_0_1 x i u) : (⟨S100000x3, .f32⟩ : BufTy).Contents (Elt F) → (⟨S600000x1, .i32⟩ : BufTy).Contents (Elt F) → (⟨S600000x3, .f32⟩ : BufTy).Contents (Elt F) → (⟨S100000x3, .f32⟩ : BufTy).Contents (Elt F)),
    StableHlo.nullary main_cst_11 (constant S_ .f32 0x3F800000#32),
    StableHlo.unary main_cst_11 main_v54 (broadcastInDim S600000 ![] bcast_S_S600000 : (⟨S_, .f32⟩ : BufTy).Contents (Elt F) → (⟨S600000, .f32⟩ : BufTy).Contents (Elt F)),
    StableHlo.nullary main_cst_12 (constant S_ .f32 0x00000000#32),
    StableHlo.unary main_cst_12 main_v55 (broadcastInDim S100000 ![] bcast_S_S100000 : (⟨S_, .f32⟩ : BufTy).Contents (Elt F) → (⟨S100000, .f32⟩ : BufTy).Contents (Elt F)),
    StableHlo.unary main_v3 main_v56 (broadcastInDim S600000x1 ![0] bcast_S600000_S600000x1_0 : (⟨S600000, .i32⟩ : BufTy).Contents (Elt F) → (⟨S600000x1, .i32⟩ : BufTy).Contents (Elt F)),
    StableHlo.ternary main_v55 main_v56 main_v54 main_v57 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    StableHlo.nullary main_cst_13 (constant S_ .f32 0x3F800000#32),
    StableHlo.unary main_cst_13 main_v58 (broadcastInDim S100000 ![] bcast_S_S100000 : (⟨S_, .f32⟩ : BufTy).Contents (Elt F) → (⟨S100000, .f32⟩ : BufTy).Contents (Elt F)),
    StableHlo.binary main_v57 main_v58 main_v59 (maximumf : (⟨S100000, .f32⟩ : BufTy).Contents (Elt F) → (⟨S100000, .f32⟩ : BufTy).Contents (Elt F) → (⟨S100000, .f32⟩ : BufTy).Contents (Elt F)),
    StableHlo.unary main_v59 main_v60 (broadcastInDim S100000x1 ![0] bcast_S100000_S100000x1_0 : (⟨S100000, .f32⟩ : BufTy).Contents (Elt F) → (⟨S100000x1, .f32⟩ : BufTy).Contents (Elt F)),
    StableHlo.unary main_v60 main_v61 (broadcastInDim S100000x3 ![0, 1] bcast_S100000x1_S100000x3_0_1 : (⟨S100000x1, .f32⟩ : BufTy).Contents (Elt F) → (⟨S100000x3, .f32⟩ : BufTy).Contents (Elt F)),
    StableHlo.binary main_v53 main_v61 main_v62 (Host.divf : (⟨S100000x3, .f32⟩ : BufTy).Contents (Elt F) → (⟨S100000x3, .f32⟩ : BufTy).Contents (Elt F) → (⟨S100000x3, .f32⟩ : BufTy).Contents (Elt F)),
    StableHlo.unary main_arg2 main_v63 ((transpose S3x128 [1, 0] · transposes_S128x3_S3x128_1_0) : (⟨S128x3, .f32⟩ : BufTy).Contents (Elt F) → (⟨S3x128, .f32⟩ : BufTy).Contents (Elt F)),
    StableHlo.binary main_v62 main_v63 main_v64 ((fun l r => Host.dotGeneral dot_S100000x3_S3x128_S100000x128_1_0_0_1_n_n none l r) : (⟨S100000x3, .f32⟩ : BufTy).Contents (Elt F) → (⟨S3x128, .f32⟩ : BufTy).Contents (Elt F) → (⟨S100000x128, .f32⟩ : BufTy).Contents (Elt F)),
    StableHlo.unary main_arg3 main_v65 (broadcastInDim S1x128 ![1] bcast_S128_S1x128_1 : (⟨S128, .f32⟩ : BufTy).Contents (Elt F) → (⟨S1x128, .f32⟩ : BufTy).Contents (Elt F)),
    StableHlo.unary main_v65 main_v66 (broadcastInDim S100000x128 ![0, 1] bcast_S1x128_S100000x128_0_1 : (⟨S1x128, .f32⟩ : BufTy).Contents (Elt F) → (⟨S100000x128, .f32⟩ : BufTy).Contents (Elt F)),
    StableHlo.binary main_v64 main_v66 main_v67 (addf : (⟨S100000x128, .f32⟩ : BufTy).Contents (Elt F) → (⟨S100000x128, .f32⟩ : BufTy).Contents (Elt F) → (⟨S100000x128, .f32⟩ : BufTy).Contents (Elt F)),
    StableHlo.unary main_arg4 main_v68 ((transpose S3x128 [1, 0] · transposes_S128x3_S3x128_1_0) : (⟨S128x3, .f32⟩ : BufTy).Contents (Elt F) → (⟨S3x128, .f32⟩ : BufTy).Contents (Elt F)),
    StableHlo.binary main_v43 main_v68 main_v69 ((fun l r => Host.dotGeneral dot_S100000x3_S3x128_S100000x128_1_0_0_1_n_n none l r) : (⟨S100000x3, .f32⟩ : BufTy).Contents (Elt F) → (⟨S3x128, .f32⟩ : BufTy).Contents (Elt F) → (⟨S100000x128, .f32⟩ : BufTy).Contents (Elt F)),
    StableHlo.binary main_v67 main_v69 main_v70 (addf : (⟨S100000x128, .f32⟩ : BufTy).Contents (Elt F) → (⟨S100000x128, .f32⟩ : BufTy).Contents (Elt F) → (⟨S100000x128, .f32⟩ : BufTy).Contents (Elt F)),
    StableHlo.unary main_v70 main_v71 (Host.tanh : (⟨S100000x128, .f32⟩ : BufTy).Contents (Elt F) → (⟨S100000x128, .f32⟩ : BufTy).Contents (Elt F)) ]
theorem opsS2_sub : (opsS2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.binary_bufs_sub .., StableHlo.unary_bufs_sub ..⟩

/-- The second mean and the second layer (%72 … %99). -/
abbrev opsS3 : List (HloOp τ sig (Elt F)) :=
  [ StableHlo.nullary main_c_14 (constantI S_ 32 0#32),
    StableHlo.unary main_c_14 main_v72 (broadcastInDim S600000 ![] bcast_S_S600000 : (⟨S_, .i32⟩ : BufTy).Contents (Elt F) → (⟨S600000, .i32⟩ : BufTy).Contents (Elt F)),
    StableHlo.binary main_v1 main_v72 main_v73 (cmpi .slt : (⟨S600000, .i32⟩ : BufTy).Contents (Elt F) → (⟨S600000, .i32⟩ : BufTy).Contents (Elt F) → (⟨S600000, .i1⟩ : BufTy).Contents (Elt F)),
    StableHlo.nullary main_c_15 (constantI S_ 32 100000#32),
    StableHlo.unary main_c_15 main_v74 (broadcastInDim S600000 ![] bcast_S_S600000 : (⟨S_, .i32⟩ : BufTy).Contents (Elt F) → (⟨S600000, .i32⟩ : BufTy).Contents (Elt F)),
    StableHlo.binary main_v1 main_v74 main_v75 (addi : (⟨S600000, .i32⟩ : BufTy).Contents (Elt F) → (⟨S600000, .i32⟩ : BufTy).Contents (Elt F) → (⟨S600000, .i32⟩ : BufTy).Contents (Elt F)),
    StableHlo.ternary main_v73 main_v75 main_v1 main_v76 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v76 main_v77 (broadcastInDim S600000x1 ![0] bcast_S600000_S600000x1_0 : (⟨S600000, .i32⟩ : BufTy).Contents (Elt F) → (⟨S600000x1, .i32⟩ : BufTy).Contents (Elt F)),
    StableHlo.binary main_v71 main_v77 main_v78 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.nullary main_cst_16 (constant S_ .f32 0x00000000#32),
    StableHlo.unary main_cst_16 main_v79 (broadcastInDim S100000x128 ![] bcast_S_S100000x128 : (⟨S_, .f32⟩ : BufTy).Contents (Elt F) → (⟨S100000x128, .f32⟩ : BufTy).Contents (Elt F)),
    StableHlo.unary main_v3 main_v80 (broadcastInDim S600000x1 ![0] bcast_S600000_S600000x1_0 : (⟨S600000, .i32⟩ : BufTy).Contents (Elt F) → (⟨S600000x1, .i32⟩ : BufTy).Contents (Elt F)),
    StableHlo.ternary main_v79 main_v80 main_v78 main_v81 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.nullary main_cst_17 (constant S_ .f32 0x3F800000#32),
    StableHlo.unary main_cst_17 main_v82 (broadcastInDim S600000 ![] bcast_S_S600000 : (⟨S_, .f32⟩ : BufTy).Contents (Elt F) → (⟨S600000, .f32⟩ : BufTy).Contents (Elt F)),
    StableHlo.nullary main_cst_18 (constant S_ .f32 0x00000000#32),
    StableHlo.unary main_cst_18 main_v83 (broadcastInDim S100000 ![] bcast_S_S100000 : (⟨S_, .f32⟩ : BufTy).Contents (Elt F) → (⟨S100000, .f32⟩ : BufTy).Contents (Elt F)),
    StableHlo.unary main_v3 main_v84 (broadcastInDim S600000x1 ![0] bcast_S600000_S600000x1_0 : (⟨S600000, .i32⟩ : BufTy).Contents (Elt F) → (⟨S600000x1, .i32⟩ : BufTy).Contents (Elt F)),
    StableHlo.ternary main_v83 main_v84 main_v82 main_v85 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    StableHlo.nullary main_cst_19 (constant S_ .f32 0x3F800000#32),
    StableHlo.unary main_cst_19 main_v86 (broadcastInDim S100000 ![] bcast_S_S100000 : (⟨S_, .f32⟩ : BufTy).Contents (Elt F) → (⟨S100000, .f32⟩ : BufTy).Contents (Elt F)),
    StableHlo.binary main_v85 main_v86 main_v87 (maximumf : (⟨S100000, .f32⟩ : BufTy).Contents (Elt F) → (⟨S100000, .f32⟩ : BufTy).Contents (Elt F) → (⟨S100000, .f32⟩ : BufTy).Contents (Elt F)),
    StableHlo.unary main_v87 main_v88 (broadcastInDim S100000x1 ![0] bcast_S100000_S100000x1_0 : (⟨S100000, .f32⟩ : BufTy).Contents (Elt F) → (⟨S100000x1, .f32⟩ : BufTy).Contents (Elt F)),
    StableHlo.unary main_v88 main_v89 (broadcastInDim S100000x128 ![0, 1] bcast_S100000x1_S100000x128_0_1 : (⟨S100000x1, .f32⟩ : BufTy).Contents (Elt F) → (⟨S100000x128, .f32⟩ : BufTy).Contents (Elt F)),
    StableHlo.binary main_v81 main_v89 main_v90 (Host.divf : (⟨S100000x128, .f32⟩ : BufTy).Contents (Elt F) → (⟨S100000x128, .f32⟩ : BufTy).Contents (Elt F) → (⟨S100000x128, .f32⟩ : BufTy).Contents (Elt F)),
    StableHlo.unary main_arg5 main_v91 ((transpose S128x128 [1, 0] · transposes_S128x128_S128x128_1_0) : (⟨S128x128, .f32⟩ : BufTy).Contents (Elt F) → (⟨S128x128, .f32⟩ : BufTy).Contents (Elt F)),
    StableHlo.binary main_v90 main_v91 main_v92 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg6 main_v93 (broadcastInDim S1x128 ![1] bcast_S128_S1x128_1 : (⟨S128, .f32⟩ : BufTy).Contents (Elt F) → (⟨S1x128, .f32⟩ : BufTy).Contents (Elt F)),
    StableHlo.unary main_v93 main_v94 (broadcastInDim S100000x128 ![0, 1] bcast_S1x128_S100000x128_0_1 : (⟨S1x128, .f32⟩ : BufTy).Contents (Elt F) → (⟨S100000x128, .f32⟩ : BufTy).Contents (Elt F)),
    StableHlo.binary main_v92 main_v94 main_v95 (addf : (⟨S100000x128, .f32⟩ : BufTy).Contents (Elt F) → (⟨S100000x128, .f32⟩ : BufTy).Contents (Elt F) → (⟨S100000x128, .f32⟩ : BufTy).Contents (Elt F)),
    StableHlo.unary main_arg7 main_v96 ((transpose S128x128 [1, 0] · transposes_S128x128_S128x128_1_0) : (⟨S128x128, .f32⟩ : BufTy).Contents (Elt F) → (⟨S128x128, .f32⟩ : BufTy).Contents (Elt F)),
    StableHlo.binary main_v71 main_v96 main_v97 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v95 main_v97 main_v98 (addf : (⟨S100000x128, .f32⟩ : BufTy).Contents (Elt F) → (⟨S100000x128, .f32⟩ : BufTy).Contents (Elt F) → (⟨S100000x128, .f32⟩ : BufTy).Contents (Elt F)),
    StableHlo.unary main_v98 main_v99 (Host.tanh : (⟨S100000x128, .f32⟩ : BufTy).Contents (Elt F) → (⟨S100000x128, .f32⟩ : BufTy).Contents (Elt F)) ]
theorem opsS3_sub : (opsS3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.binary_bufs_sub .., StableHlo.unary_bufs_sub ..⟩

/-- The head (%100 … %121). -/
abbrev opsS4 : List (HloOp τ sig (Elt F)) :=
  [ StableHlo.unary main_arg8 main_v100 ((transpose S128x256 [1, 0] · transposes_S256x128_S128x256_1_0) : (⟨S256x128, .f32⟩ : BufTy).Contents (Elt F) → (⟨S128x256, .f32⟩ : BufTy).Contents (Elt F)),
    StableHlo.binary main_v99 main_v100 main_v101 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    StableHlo.unary main_arg9 main_v102 (broadcastInDim S1x256 ![1] bcast_S256_S1x256_1 : (⟨S256, .f32⟩ : BufTy).Contents (Elt F) → (⟨S1x256, .f32⟩ : BufTy).Contents (Elt F)),
    StableHlo.unary main_v102 main_v103 (broadcastInDim S100000x256 ![0, 1] bcast_S1x256_S100000x256_0_1 : (⟨S1x256, .f32⟩ : BufTy).Contents (Elt F) → (⟨S100000x256, .f32⟩ : BufTy).Contents (Elt F)),
    StableHlo.binary main_v101 main_v103 main_v104 (addf : (⟨S100000x256, .f32⟩ : BufTy).Contents (Elt F) → (⟨S100000x256, .f32⟩ : BufTy).Contents (Elt F) → (⟨S100000x256, .f32⟩ : BufTy).Contents (Elt F)),
    StableHlo.unary main_v104 main_v105 (Host.tanh : (⟨S100000x256, .f32⟩ : BufTy).Contents (Elt F) → (⟨S100000x256, .f32⟩ : BufTy).Contents (Elt F)),
    StableHlo.unary main_arg10 main_v106 ((transpose S256x8 [1, 0] · transposes_S8x256_S256x8_1_0) : (⟨S8x256, .f32⟩ : BufTy).Contents (Elt F) → (⟨S256x8, .f32⟩ : BufTy).Contents (Elt F)),
    StableHlo.binary main_v105 main_v106 main_v107 ((fun l r => Host.dotGeneral dot_S100000x256_S256x8_S100000x8_1_0_0_1_n_n none l r) : (⟨S100000x256, .f32⟩ : BufTy).Contents (Elt F) → (⟨S256x8, .f32⟩ : BufTy).Contents (Elt F) → (⟨S100000x8, .f32⟩ : BufTy).Contents (Elt F)),
    StableHlo.unary main_arg11 main_v108 (broadcastInDim S1x8 ![1] bcast_S8_S1x8_1 : (⟨S8, .f32⟩ : BufTy).Contents (Elt F) → (⟨S1x8, .f32⟩ : BufTy).Contents (Elt F)),
    StableHlo.unary main_v108 main_v109 (broadcastInDim S100000x8 ![0, 1] bcast_S1x8_S100000x8_0_1 : (⟨S1x8, .f32⟩ : BufTy).Contents (Elt F) → (⟨S100000x8, .f32⟩ : BufTy).Contents (Elt F)),
    StableHlo.binary main_v107 main_v109 main_v110 (addf : (⟨S100000x8, .f32⟩ : BufTy).Contents (Elt F) → (⟨S100000x8, .f32⟩ : BufTy).Contents (Elt F) → (⟨S100000x8, .f32⟩ : BufTy).Contents (Elt F)),
    StableHlo.nullary main_cst_20 (constant S_ .f32 0xFF800000#32),
    StableHlo.binary main_v110 main_cst_20 main_v111 ((fun x v => Host.reduce FloatOps.maximumf x v reducesTo_S100000x8_S100000_d1 h_S_) : (⟨S100000x8, .f32⟩ : BufTy).Contents (Elt F) → (⟨S_, .f32⟩ : BufTy).Contents (Elt F) → (⟨S100000, .f32⟩ : BufTy).Contents (Elt F)),
    StableHlo.nullary main_cst_21 (constant S_ .f32 0xFF800000#32),
    StableHlo.unary main_cst_21 main_v112 (broadcastInDim S100000 ![] bcast_S_S100000 : (⟨S_, .f32⟩ : BufTy).Contents (Elt F) → (⟨S100000, .f32⟩ : BufTy).Contents (Elt F)),
    StableHlo.binary main_v112 main_v111 main_v113 (maximumf : (⟨S100000, .f32⟩ : BufTy).Contents (Elt F) → (⟨S100000, .f32⟩ : BufTy).Contents (Elt F) → (⟨S100000, .f32⟩ : BufTy).Contents (Elt F)),
    StableHlo.unary main_v113 main_v114 (broadcastInDim S100000x1 ![0] bcast_S100000_S100000x1_0 : (⟨S100000, .f32⟩ : BufTy).Contents (Elt F) → (⟨S100000x1, .f32⟩ : BufTy).Contents (Elt F)),
    StableHlo.unary main_v114 main_v115 (broadcastInDim S100000x8 ![0, 1] bcast_S100000x1_S100000x8_0_1 : (⟨S100000x1, .f32⟩ : BufTy).Contents (Elt F) → (⟨S100000x8, .f32⟩ : BufTy).Contents (Elt F)),
    StableHlo.binary main_v110 main_v115 main_v116 (subf : (⟨S100000x8, .f32⟩ : BufTy).Contents (Elt F) → (⟨S100000x8, .f32⟩ : BufTy).Contents (Elt F) → (⟨S100000x8, .f32⟩ : BufTy).Contents (Elt F)),
    StableHlo.unary main_v116 main_v117 (Host.exp : (⟨S100000x8, .f32⟩ : BufTy).Contents (Elt F) → (⟨S100000x8, .f32⟩ : BufTy).Contents (Elt F)),
    StableHlo.nullary main_cst_22 (constant S_ .f32 0x00000000#32),
    StableHlo.binary main_v117 main_cst_22 main_v118 ((fun x v => Host.reduceAdd x v reducesTo_S100000x8_S100000_d1 h_S_) : (⟨S100000x8, .f32⟩ : BufTy).Contents (Elt F) → (⟨S_, .f32⟩ : BufTy).Contents (Elt F) → (⟨S100000, .f32⟩ : BufTy).Contents (Elt F)),
    StableHlo.unary main_v118 main_v119 (broadcastInDim S100000x1 ![0] bcast_S100000_S100000x1_0 : (⟨S100000, .f32⟩ : BufTy).Contents (Elt F) → (⟨S100000x1, .f32⟩ : BufTy).Contents (Elt F)),
    StableHlo.unary main_v119 main_v120 (broadcastInDim S100000x8 ![0, 1] bcast_S100000x1_S100000x8_0_1 : (⟨S100000x1, .f32⟩ : BufTy).Contents (Elt F) → (⟨S100000x8, .f32⟩ : BufTy).Contents (Elt F)),
    StableHlo.binary main_v117 main_v120 main_v121 (Host.divf : (⟨S100000x8, .f32⟩ : BufTy).Contents (Elt F) → (⟨S100000x8, .f32⟩ : BufTy).Contents (Elt F) → (⟨S100000x8, .f32⟩ : BufTy).Contents (Elt F)) ]
theorem opsS4_sub : (opsS4 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub ..⟩

/-! ## The program is the line -/

theorem w0_eq (c : Dev nD) : main_part0 (F := F) c = seq opsW0 := rfl
theorem w1_eq (c : Dev nD) : main_part1 (F := F) c = seq opsW1 := rfl
theorem w2_eq (c : Dev nD) : main_part2 (F := F) c = seq opsW2 := rfl

theorem main_eqW (c : Dev nD) : main (F := F) c = seq (opsW0 ++ opsW1 ++ opsW2) := by
  rw [seq_append, seq_append, bind_assoc, ← w0_eq c, ← w1_eq c, ← w2_eq c]
  rfl

theorem cut_eq : (opsW0 ++ opsW1 ++ opsW2 : List (HloOp τ sig (Elt F))) = opsS1 ++ opsS2 ++ opsS3 ++ opsS4 := by
  rfl

/-- The whole line, cut at the stages. -/
abbrev ops : List (HloOp τ sig (Elt F)) := opsS1 ++ opsS2 ++ opsS3 ++ opsS4

theorem main_eq (c : Dev nD) : main (F := F) c = seq ops := (main_eqW c).trans (congrArg seq cut_eq)

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.mpr ⟨List.forall_append.mpr ⟨List.forall_append.mpr ⟨opsS1_sub, opsS2_sub⟩, opsS3_sub⟩, opsS4_sub⟩

theorem opsS1_fresh : (opsS1 : List (HloOp τ sig (Elt F))).Forall fun op => op.fresh = ∅ := by
  simp only [List.Forall]; repeat' constructor
theorem opsS2_fresh : (opsS2 : List (HloOp τ sig (Elt F))).Forall fun op => op.fresh = ∅ := by
  simp only [List.Forall]; repeat' constructor
theorem opsS3_fresh : (opsS3 : List (HloOp τ sig (Elt F))).Forall fun op => op.fresh = ∅ := by
  simp only [List.Forall]; repeat' constructor
theorem opsS4_fresh : (opsS4 : List (HloOp τ sig (Elt F))).Forall fun op => op.fresh = ∅ := by
  simp only [List.Forall]; repeat' constructor

theorem ops_fresh : ∀ op ∈ (ops : List (HloOp τ sig (Elt F))), op.fresh = ∅ :=
  List.forall_iff_forall_mem.mp
    (List.forall_append.mpr ⟨List.forall_append.mpr ⟨List.forall_append.mpr ⟨opsS1_fresh, opsS2_fresh⟩, opsS3_fresh⟩, opsS4_fresh⟩)

/-- The fold over two lines in a row is the fold over the second from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

theorem after_ops (V : Valuation τ sig (Elt F)) :
    after ops V = after opsS4 (after opsS3 (after opsS2 (after opsS1 V))) := by
  unfold ops; rw [after_append, after_append, after_append]

/-- Every weakly fair execution terminates with each buffer at the fold of the line over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-! ## Each piece of the line, from any contents, is its stage -/

section Stage
variable (W : Valuation τ sig (Elt F))

theorem s1_e0 : after opsS1 W (Proc.devRef .tc main_v1) = Cert.Stages.e0 (W (Proc.devRef .tc main_arg1)) := by
  after_results_simp
  rfl

theorem s1_e1 : after opsS1 W (Proc.devRef .tc main_v3) = Cert.Stages.e1 (W (Proc.devRef .tc main_arg1)) := by
  after_results_simp
  rfl

theorem s4 : after opsS4 W (Proc.devRef .tc main_v121)
    = Cert.Stages.headR (W (Proc.devRef .tc main_v99)) (W (Proc.devRef .tc main_arg8)) (W (Proc.devRef .tc main_arg9)) (W (Proc.devRef .tc main_arg10)) (W (Proc.devRef .tc main_arg11)) := by
  after_results_simp
  rfl

theorem s2 : after opsS2 W (Proc.devRef .tc main_v71)
    = Cert.Stages.convR3 (Cert.Stages.meanR3 (W (Proc.devRef .tc main_v43)) (W (Proc.devRef .tc main_v1)) (W (Proc.devRef .tc main_v3))) (W (Proc.devRef .tc main_v43)) (W (Proc.devRef .tc main_arg2)) (W (Proc.devRef .tc main_arg3)) (W (Proc.devRef .tc main_arg4)) := by
  after_results_simp
  rfl

theorem s3 : after opsS3 W (Proc.devRef .tc main_v99)
    = Cert.Stages.convR128 (Cert.Stages.meanR128 (W (Proc.devRef .tc main_v71)) (W (Proc.devRef .tc main_v1)) (W (Proc.devRef .tc main_v3))) (W (Proc.devRef .tc main_v71)) (W (Proc.devRef .tc main_arg5)) (W (Proc.devRef .tc main_arg6)) (W (Proc.devRef .tc main_arg7)) := by
  after_results_simp
  rfl

set_option maxRecDepth 8192 in
theorem s1_h : after opsS1 W (Proc.devRef .tc main_v43) = Cert.Stages.hNorm (W (Proc.devRef .tc main_arg0)) := by
  after_results_simp
  rfl

end Stage

/-! ## A buffer a piece does not write passes through it -/

/-- A singleton of a listed reference's buffer is inside the listed references' buffers. -/
theorem single_sub_of_mem {L : List (Ref sig .tc)} {y : Ref sig .tc} (h : y ∈ L) :
    ({Proc.devRef .tc y} : Finset (DevRef τ sig)) ⊆ (L.map (Proc.devRef (τ := τ) .tc)).toFinset :=
  Finset.singleton_subset_iff.mpr (List.mem_toFinset.mpr (List.mem_map.mpr ⟨y, h, rfl⟩))

/-- The references piece 1 writes: one per operation, in order. -/
abbrev wS1 : List (Ref sig .tc) :=
  [main_cst, main_cst_0, main_v0, main_v1, main_v2, main_v3, main_v4, main_v5, main_cst_1, main_v6, main_cst_2, main_v7, main_cst_3, main_v8, main_cst_4, main_v9, main_v10, main_v11, main_v12, main_v13, main_v14, main_v15, main_v16, main_v17, main_v18, main_v19, main_v20, main_v21, main_v22, main_v23, main_v24, main_v25, main_v26, main_v27, main_v28, main_cst_5, main_v29, main_cst_6, main_v30, main_v31, main_v32, main_v33, main_v34, main_cst_7, main_v35, main_v36, main_v37, main_v38, main_cst_8, main_v39, main_v40, main_v41, main_v42, main_v43]

theorem opsS1_writes : (opsS1 : List (HloOp τ sig (Elt F))).Forall fun op => op.writes ⊆ ((wS1).map (Proc.devRef (τ := τ) .tc)).toFinset := by
  simp only [List.Forall]
  repeat' apply And.intro
  all_goals exact single_sub_of_mem (by decide)

theorem keep1 (V : Valuation τ sig (Elt F)) {r : Ref sig .tc} (hr : r ∉ wS1) :
    after opsS1 V (Proc.devRef .tc r) = V (Proc.devRef .tc r) :=
  after_of_writes_sub opsS1 V opsS1_writes hr

/-- The references piece 2 writes: one per operation, in order. -/
abbrev wS2 : List (Ref sig .tc) :=
  [main_c, main_v44, main_v45, main_c_9, main_v46, main_v47, main_v48, main_v49, main_v50, main_cst_10, main_v51, main_v52, main_v53, main_cst_11, main_v54, main_cst_12, main_v55, main_v56, main_v57, main_cst_13, main_v58, main_v59, main_v60, main_v61, main_v62, main_v63, main_v64, main_v65, main_v66, main_v67, main_v68, main_v69, main_v70, main_v71]

theorem opsS2_writes : (opsS2 : List (HloOp τ sig (Elt F))).Forall fun op => op.writes ⊆ ((wS2).map (Proc.devRef (τ := τ) .tc)).toFinset := by
  simp only [List.Forall]
  repeat' apply And.intro
  all_goals exact single_sub_of_mem (by decide)

theorem keep2 (V : Valuation τ sig (Elt F)) {r : Ref sig .tc} (hr : r ∉ wS2) :
    after opsS2 V (Proc.devRef .tc r) = V (Proc.devRef .tc r) :=
  after_of_writes_sub opsS2 V opsS2_writes hr

/-- The references piece 3 writes: one per operation, in order. -/
abbrev wS3 : List (Ref sig .tc) :=
  [main_c_14, main_v72, main_v73, main_c_15, main_v74, main_v75, main_v76, main_v77, main_v78, main_cst_16, main_v79, main_v80, main_v81, main_cst_17, main_v82, main_cst_18, main_v83, main_v84, main_v85, main_cst_19, main_v86, main_v87, main_v88, main_v89, main_v90, main_v91, main_v92, main_v93, main_v94, main_v95, main_v96, main_v97, main_v98, main_v99]

theorem opsS3_writes : (opsS3 : List (HloOp τ sig (Elt F))).Forall fun op => op.writes ⊆ ((wS3).map (Proc.devRef (τ := τ) .tc)).toFinset := by
  simp only [List.Forall]
  repeat' apply And.intro
  all_goals exact single_sub_of_mem (by decide)

theorem keep3 (V : Valuation τ sig (Elt F)) {r : Ref sig .tc} (hr : r ∉ wS3) :
    after opsS3 V (Proc.devRef .tc r) = V (Proc.devRef .tc r) :=
  after_of_writes_sub opsS3 V opsS3_writes hr

/-- The references piece 4 writes: one per operation, in order. -/
abbrev wS4 : List (Ref sig .tc) :=
  [main_v100, main_v101, main_v102, main_v103, main_v104, main_v105, main_v106, main_v107, main_v108, main_v109, main_v110, main_cst_20, main_v111, main_cst_21, main_v112, main_v113, main_v114, main_v115, main_v116, main_v117, main_cst_22, main_v118, main_v119, main_v120, main_v121]

theorem opsS4_writes : (opsS4 : List (HloOp τ sig (Elt F))).Forall fun op => op.writes ⊆ ((wS4).map (Proc.devRef (τ := τ) .tc)).toFinset := by
  simp only [List.Forall]
  repeat' apply And.intro
  all_goals exact single_sub_of_mem (by decide)

theorem keep4 (V : Valuation τ sig (Elt F)) {r : Ref sig .tc} (hr : r ∉ wS4) :
    after opsS4 V (Proc.devRef .tc r) = V (Proc.devRef .tc r) :=
  after_of_writes_sub opsS4 V opsS4_writes hr

/-! ## The whole line -/

section Whole
variable (V : Valuation τ sig (Elt F))

/-- An argument's buffer is written by no operation. -/
theorem keep_arg {r : Ref sig .tc} (h1 : r ∉ wS1) (h2 : r ∉ wS2) (h3 : r ∉ wS3) (h4 : r ∉ wS4) :
    after ops V (Proc.devRef .tc r) = V (Proc.devRef .tc r) := by
  rw [after_ops, keep4 _ h4, keep3 _ h3, keep2 _ h2, keep1 _ h1]

theorem out_eq : after ops V (Proc.devRef .tc main_v121)
    = Cert.Stages.refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rw [after_ops, s4, s3, s2,
    keep2 _ (r := main_v1) (by decide), keep2 _ (r := main_v3) (by decide),
    s1_h, s1_e0, s1_e1,
    keep1 _ (r := main_arg2) (by decide), keep1 _ (r := main_arg3) (by decide), keep1 _ (r := main_arg4) (by decide),
    keep2 _ (r := main_arg5) (by decide), keep1 _ (r := main_arg5) (by decide), keep2 _ (r := main_arg6) (by decide), keep1 _ (r := main_arg6) (by decide), keep2 _ (r := main_arg7) (by decide), keep1 _ (r := main_arg7) (by decide),
    keep3 _ (r := main_arg8) (by decide), keep2 _ (r := main_arg8) (by decide), keep1 _ (r := main_arg8) (by decide),
    keep3 _ (r := main_arg9) (by decide), keep2 _ (r := main_arg9) (by decide), keep1 _ (r := main_arg9) (by decide),
    keep3 _ (r := main_arg10) (by decide), keep2 _ (r := main_arg10) (by decide), keep1 _ (r := main_arg10) (by decide),
    keep3 _ (r := main_arg11) (by decide), keep2 _ (r := main_arg11) (by decide), keep1 _ (r := main_arg11) (by decide)]
  rfl

end Whole

/-- On every device, for any float values, from any memory with zero counters: every weakly fair execution of the
    reference terminates with the result buffer at refOut of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v121)
          = Cert.Stages.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v121).trans (out_eq (launchContents m c)),
      (h c main_arg0).trans (keep_arg (launchContents m c) (by decide) (by decide) (by decide) (by decide)),
      (h c main_arg1).trans (keep_arg (launchContents m c) (by decide) (by decide) (by decide) (by decide)),
      (h c main_arg2).trans (keep_arg (launchContents m c) (by decide) (by decide) (by decide) (by decide)),
      (h c main_arg3).trans (keep_arg (launchContents m c) (by decide) (by decide) (by decide) (by decide)),
      (h c main_arg4).trans (keep_arg (launchContents m c) (by decide) (by decide) (by decide) (by decide)),
      (h c main_arg5).trans (keep_arg (launchContents m c) (by decide) (by decide) (by decide) (by decide)),
      (h c main_arg6).trans (keep_arg (launchContents m c) (by decide) (by decide) (by decide) (by decide)),
      (h c main_arg7).trans (keep_arg (launchContents m c) (by decide) (by decide) (by decide) (by decide)),
      (h c main_arg8).trans (keep_arg (launchContents m c) (by decide) (by decide) (by decide) (by decide)),
      (h c main_arg9).trans (keep_arg (launchContents m c) (by decide) (by decide) (by decide) (by decide)),
      (h c main_arg10).trans (keep_arg (launchContents m c) (by decide) (by decide) (by decide) (by decide)),
      (h c main_arg11).trans (keep_arg (launchContents m c) (by decide) (by decide) (by decide) (by decide))⟩)
    (run_fold m ρ)

end Cert.ReferenceIdeal.RefValue

end
-- ==== Proof.KernelRun.lean ====
/-
  The kernel program's run with its result array named, and the contents of the arrays its two regions read,
  as terms of the whole-array host stages.

  The host operations before the first region compute, from the launch arrays, the normalised features, the two
  edge rows, the first mean (a sum over incoming edges times the reciprocal of the edge count) and that reciprocal;
  the operations between the regions compute the second mean from the first region's output and the same reciprocal.
  Each stage is read off the fold of the operations' results over an arbitrary valuation, one list at a time.
-/
import proofs.«147892_j13202729468516_1_alg».proof.Proof.Stages
import proofs.«147892_j13202729468516_1_alg».proof.Proof.Gen.KernelIdeal.Frame
import proofs.«147892_j13202729468516_1_alg».proof.Proof.Gen.ReferenceIdeal
import Idealize.ShloMosaic.Lib.StableHlo.Run

set_option maxRecDepth 16384

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The fold over a concatenation -/

/-- The contents after two lines run one after the other: the second line's fold over the first's. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

/-! ## The third stretch of host operations, cut after the normalised features -/

/-- Two columns and one column side by side: the concatenation that ends the normalisation. -/
def cat21 (a : (⟨S100000x2, .f32⟩ : BufTy).Contents (Elt F)) (b : (⟨S100000x1, .f32⟩ : BufTy).Contents (Elt F)) :
    (⟨S100000x3, .f32⟩ : BufTy).Contents (Elt F) :=
  concatenate S100000x3 1 [⟨S100000x2, a⟩, ⟨S100000x1, b⟩] concatenates_S100000x2_S100000x1_S100000x3_d1

/-- The operations of the third stretch up to the normalised features (19 of them). -/
abbrev opsA : List (HloOp τ sig (Elt F)) :=
  ( StableHlo.nullary main_cst_5 (constant S_ .f32 0x00000000#32)
  :: StableHlo.binary main_v28 main_cst_5 main_v29 ((fun x v => Host.reduceAdd x v reducesTo_S100000x2_S2_d0 h_S_) : (⟨S100000x2, .f32⟩ : BufTy).Contents (Elt F) → (⟨S_, .f32⟩ : BufTy).Contents (Elt F) → (⟨S2, .f32⟩ : BufTy).Contents (Elt F))
  :: StableHlo.nullary main_cst_6 (constant S_ .f32 0x47C35000#32)
  :: StableHlo.unary main_cst_6 main_v30 (broadcastInDim S2 ![] bcast_S_S2 : (⟨S_, .f32⟩ : BufTy).Contents (Elt F) → (⟨S2, .f32⟩ : BufTy).Contents (Elt F))
  :: StableHlo.binary main_v29 main_v30 main_v31 (Host.divf : (⟨S2, .f32⟩ : BufTy).Contents (Elt F) → (⟨S2, .f32⟩ : BufTy).Contents (Elt F) → (⟨S2, .f32⟩ : BufTy).Contents (Elt F))
  :: StableHlo.unary main_v31 main_v32 (broadcastInDim S1x2 ![1] bcast_S2_S1x2_1 : (⟨S2, .f32⟩ : BufTy).Contents (Elt F) → (⟨S1x2, .f32⟩ : BufTy).Contents (Elt F))
  :: StableHlo.unary main_v32 main_v33 (broadcastInDim S100000x2 ![0, 1] bcast_S1x2_S100000x2_0_1 : (⟨S1x2, .f32⟩ : BufTy).Contents (Elt F) → (⟨S100000x2, .f32⟩ : BufTy).Contents (Elt F))
  :: StableHlo.binary main_v28 main_v33 main_v34 (subf : (⟨S100000x2, .f32⟩ : BufTy).Contents (Elt F) → (⟨S100000x2, .f32⟩ : BufTy).Contents (Elt F) → (⟨S100000x2, .f32⟩ : BufTy).Contents (Elt F))
  :: StableHlo.nullary main_cst_7 (constant S_ .f32 0xFF800000#32)
  :: StableHlo.binary main_v28 main_cst_7 main_v35 ((fun x v => Host.reduce FloatOps.maximumf x v reducesTo_S100000x2_S2_d0 h_S_) : (⟨S100000x2, .f32⟩ : BufTy).Contents (Elt F) → (⟨S_, .f32⟩ : BufTy).Contents (Elt F) → (⟨S2, .f32⟩ : BufTy).Contents (Elt F))
  :: StableHlo.unary main_v35 main_v36 (broadcastInDim S1x2 ![1] bcast_S2_S1x2_1 : (⟨S2, .f32⟩ : BufTy).Contents (Elt F) → (⟨S1x2, .f32⟩ : BufTy).Contents (Elt F))
  :: StableHlo.unary main_v36 main_v37 (broadcastInDim S100000x2 ![0, 1] bcast_S1x2_S100000x2_0_1 : (⟨S1x2, .f32⟩ : BufTy).Contents (Elt F) → (⟨S100000x2, .f32⟩ : BufTy).Contents (Elt F))
  :: StableHlo.binary main_v34 main_v37 main_v38 (Host.divf : (⟨S100000x2, .f32⟩ : BufTy).Contents (Elt F) → (⟨S100000x2, .f32⟩ : BufTy).Contents (Elt F) → (⟨S100000x2, .f32⟩ : BufTy).Contents (Elt F))
  :: StableHlo.nullary main_cst_8 (constant S_ .f32 0xFF800000#32)
  :: StableHlo.binary main_v5 main_cst_8 main_v39 ((fun x v => Host.reduce FloatOps.maximumf x v reducesTo_S100000x1_S1_d0 h_S_) : (⟨S100000x1, .f32⟩ : BufTy).Contents (Elt F) → (⟨S_, .f32⟩ : BufTy).Contents (Elt F) → (⟨S1, .f32⟩ : BufTy).Contents (Elt F))
  :: StableHlo.unary main_v39 main_v40 (broadcastInDim S1x1 ![1] bcast_S1_S1x1_1 : (⟨S1, .f32⟩ : BufTy).Contents (Elt F) → (⟨S1x1, .f32⟩ : BufTy).Contents (Elt F))
  :: StableHlo.unary main_v40 main_v41 (broadcastInDim S100000x1 ![0, 1] bcast_S1x1_S100000x1_0_1 : (⟨S1x1, .f32⟩ : BufTy).Contents (Elt F) → (⟨S100000x1, .f32⟩ : BufTy).Contents (Elt F))
  :: StableHlo.binary main_v5 main_v41 main_v42 (Host.divf : (⟨S100000x1, .f32⟩ : BufTy).Contents (Elt F) → (⟨S100000x1, .f32⟩ : BufTy).Contents (Elt F) → (⟨S100000x1, .f32⟩ : BufTy).Contents (Elt F))
  :: StableHlo.binary main_v38 main_v42 main_v43 (cat21 : (⟨S100000x2, .f32⟩ : BufTy).Contents (Elt F) → (⟨S100000x1, .f32⟩ : BufTy).Contents (Elt F) → (⟨S100000x3, .f32⟩ : BufTy).Contents (Elt F))
  :: [] )

/-- The rest of the third stretch: the first mean and the reciprocal edge count (28 operations). -/
abbrev opsB : List (HloOp τ sig (Elt F)) :=
  ( StableHlo.nullary main_c (constantI S_ 32 0#32)
  :: StableHlo.unary main_c main_v44 (broadcastInDim S600000 ![] bcast_S_S600000 : (⟨S_, .i32⟩ : BufTy).Contents (Elt F) → (⟨S600000, .i32⟩ : BufTy).Contents (Elt F))
  :: StableHlo.binary main_v1 main_v44 main_v45 (cmpi .slt : (⟨S600000, .i32⟩ : BufTy).Contents (Elt F) → (⟨S600000, .i32⟩ : BufTy).Contents (Elt F) → (⟨S600000, .i1⟩ : BufTy).Contents (Elt F))
  :: StableHlo.nullary main_c_9 (constantI S_ 32 100000#32)
  :: StableHlo.unary main_c_9 main_v46 (broadcastInDim S600000 ![] bcast_S_S600000 : (⟨S_, .i32⟩ : BufTy).Contents (Elt F) → (⟨S600000, .i32⟩ : BufTy).Contents (Elt F))
  :: StableHlo.binary main_v1 main_v46 main_v47 (addi : (⟨S600000, .i32⟩ : BufTy).Contents (Elt F) → (⟨S600000, .i32⟩ : BufTy).Contents (Elt F) → (⟨S600000, .i32⟩ : BufTy).Contents (Elt F))
  :: StableHlo.ternary main_v45 main_v47 main_v1 main_v48 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))
  :: StableHlo.unary main_v48 main_v49 (broadcastInDim S600000x1 ![0] bcast_S600000_S600000x1_0 : (⟨S600000, .i32⟩ : BufTy).Contents (Elt F) → (⟨S600000x1, .i32⟩ : BufTy).Contents (Elt F))
  :: StableHlo.binary main_v43 main_v49 main_v50 ((fun x i => Host.gather gather_S100000x3_S600000x1_S600000x3_1_0_n_n_0_1_13 x i) : (⟨S100000x3, .f32⟩ : BufTy).Contents (Elt F) → (⟨S600000x1, .i32⟩ : BufTy).Contents (Elt F) → (⟨S600000x3, .f32⟩ : BufTy).Contents (Elt F))
  :: StableHlo.nullary main_cst_10 (constant S_ .f32 0x00000000#32)
  :: StableHlo.unary main_cst_10 main_v51 (broadcastInDim S100000x3 ![] bcast_S_S100000x3 : (⟨S_, .f32⟩ : BufTy).Contents (Elt F) → (⟨S100000x3, .f32⟩ : BufTy).Contents (Elt F))
  :: StableHlo.unary main_v3 main_v52 (broadcastInDim S600000x1 ![0] bcast_S600000_S600000x1_0 : (⟨S600000, .i32⟩ : BufTy).Contents (Elt F) → (⟨S600000x1, .i32⟩ : BufTy).Contents (Elt F))
  :: StableHlo.ternary main_v51 main_v52 main_v50 main_v53 ((fun x i u => Host.scatterAdd scatter_S100000x3_S600000x1_S600000x3_1_0_0_1 x i u) : (⟨S100000x3, .f32⟩ : BufTy).Contents (Elt F) → (⟨S600000x1, .i32⟩ : BufTy).Contents (Elt F) → (⟨S600000x3, .f32⟩ : BufTy).Contents (Elt F) → (⟨S100000x3, .f32⟩ : BufTy).Contents (Elt F))
  :: StableHlo.nullary main_cst_11 (constant S_ .f32 0x3F800000#32)
  :: StableHlo.unary main_cst_11 main_v54 (broadcastInDim S600000 ![] bcast_S_S600000 : (⟨S_, .f32⟩ : BufTy).Contents (Elt F) → (⟨S600000, .f32⟩ : BufTy).Contents (Elt F))
  :: StableHlo.nullary main_cst_12 (constant S_ .f32 0x00000000#32)
  :: StableHlo.unary main_cst_12 main_v55 (broadcastInDim S100000 ![] bcast_S_S100000 : (⟨S_, .f32⟩ : BufTy).Contents (Elt F) → (⟨S100000, .f32⟩ : BufTy).Contents (Elt F))
  :: StableHlo.unary main_v3 main_v56 (broadcastInDim S600000x1 ![0] bcast_S600000_S600000x1_0 : (⟨S600000, .i32⟩ : BufTy).Contents (Elt F) → (⟨S600000x1, .i32⟩ : BufTy).Contents (Elt F))
  :: StableHlo.ternary main_v55 main_v56 main_v54 main_v57 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F))
  :: StableHlo.nullary main_cst_13 (constant S_ .f32 0x3F800000#32)
  :: StableHlo.unary main_cst_13 main_v58 (broadcastInDim S100000 ![] bcast_S_S100000 : (⟨S_, .f32⟩ : BufTy).Contents (Elt F) → (⟨S100000, .f32⟩ : BufTy).Contents (Elt F))
  :: StableHlo.binary main_v57 main_v58 main_v59 (maximumf : (⟨S100000, .f32⟩ : BufTy).Contents (Elt F) → (⟨S100000, .f32⟩ : BufTy).Contents (Elt F) → (⟨S100000, .f32⟩ : BufTy).Contents (Elt F))
  :: StableHlo.nullary main_cst_14 (constant S_ .f32 0x3F800000#32)
  :: StableHlo.unary main_cst_14 main_v60 (broadcastInDim S100000 ![] bcast_S_S100000 : (⟨S_, .f32⟩ : BufTy).Contents (Elt F) → (⟨S100000, .f32⟩ : BufTy).Contents (Elt F))
  :: StableHlo.binary main_v60 main_v59 main_v61 (Host.divf : (⟨S100000, .f32⟩ : BufTy).Contents (Elt F) → (⟨S100000, .f32⟩ : BufTy).Contents (Elt F) → (⟨S100000, .f32⟩ : BufTy).Contents (Elt F))
  :: StableHlo.unary main_v61 main_v62 (broadcastInDim S100000x1 ![0] bcast_S100000_S100000x1_0 : (⟨S100000, .f32⟩ : BufTy).Contents (Elt F) → (⟨S100000x1, .f32⟩ : BufTy).Contents (Elt F))
  :: StableHlo.unary main_v62 main_v63 (broadcastInDim S100000x3 ![0, 1] bcast_S100000x1_S100000x3_0_1 : (⟨S100000x1, .f32⟩ : BufTy).Contents (Elt F) → (⟨S100000x3, .f32⟩ : BufTy).Contents (Elt F))
  :: StableHlo.binary main_v53 main_v63 main_v64 (mulf : (⟨S100000x3, .f32⟩ : BufTy).Contents (Elt F) → (⟨S100000x3, .f32⟩ : BufTy).Contents (Elt F) → (⟨S100000x3, .f32⟩ : BufTy).Contents (Elt F))
  :: [] )

/-- The third stretch is the two pieces in order. -/
theorem hostOps0_2_split : (hostOps0_2 : List (HloOp τ sig (Elt F))) = opsA ++ opsB := rfl

theorem after_hostOps0_2 (X : Valuation τ sig (Elt F)) :
    StableHlo.after hostOps0_2 X = StableHlo.after opsB (StableHlo.after opsA X) := by
  rw [hostOps0_2_split, after_append]

/-! ## The stages over an arbitrary valuation -/

/-- The normalised features after the three stretches' operations up to them. -/
theorem hnA (W : Valuation τ sig (Elt F)) :
    StableHlo.after opsA (StableHlo.after hostOps0_1 (StableHlo.after hostOps0 W)) (Proc.devRef .tc main_v43)
      = Cert.Stages.hNorm (W (Proc.devRef .tc main_arg0)) := by
  generalize hR : Cert.Stages.hNorm (W (Proc.devRef .tc main_arg0)) = R
  after_results_simp
  subst hR
  rfl

/-- The source row of the edge table after the same operations. -/
theorem he0A (W : Valuation τ sig (Elt F)) :
    StableHlo.after opsA (StableHlo.after hostOps0_1 (StableHlo.after hostOps0 W)) (Proc.devRef .tc main_v1)
      = Cert.Stages.e0 (W (Proc.devRef .tc main_arg1)) := by
  generalize hR : Cert.Stages.e0 (W (Proc.devRef .tc main_arg1)) = R
  after_results_simp
  subst hR
  rfl

/-- The target row of the edge table after the same operations. -/
theorem he1A (W : Valuation τ sig (Elt F)) :
    StableHlo.after opsA (StableHlo.after hostOps0_1 (StableHlo.after hostOps0 W)) (Proc.devRef .tc main_v3)
      = Cert.Stages.e1 (W (Proc.devRef .tc main_arg1)) := by
  generalize hR : Cert.Stages.e1 (W (Proc.devRef .tc main_arg1)) = R
  after_results_simp
  subst hR
  rfl

/-- The first mean, from any contents holding the normalised features and the two edge rows. -/
theorem hmeanB (X : Valuation τ sig (Elt F)) :
    StableHlo.after opsB X (Proc.devRef .tc main_v64)
      = Cert.Stages.meanK3 (X (Proc.devRef .tc main_v43)) (X (Proc.devRef .tc main_v1)) (X (Proc.devRef .tc main_v3)) := by
  generalize hR : Cert.Stages.meanK3 (X (Proc.devRef .tc main_v43)) (X (Proc.devRef .tc main_v1)) (X (Proc.devRef .tc main_v3)) = R
  after_results_simp
  subst hR
  rfl

/-- The reciprocal edge count, from any contents holding the target row. -/
theorem hinvB (X : Valuation τ sig (Elt F)) :
    StableHlo.after opsB X (Proc.devRef .tc main_v61) = Cert.Stages.invDeg (X (Proc.devRef .tc main_v3)) := by
  generalize hR : Cert.Stages.invDeg (X (Proc.devRef .tc main_v3)) = R
  after_results_simp
  subst hR
  rfl

/-- The operations after the normalised features write none of the features and the two edge rows. -/
theorem hB_v43 (X : Valuation τ sig (Elt F)) :
    StableHlo.after opsB X (Proc.devRef .tc main_v43) = X (Proc.devRef .tc main_v43) := by
  after_results_simp
theorem hB_v1 (X : Valuation τ sig (Elt F)) :
    StableHlo.after opsB X (Proc.devRef .tc main_v1) = X (Proc.devRef .tc main_v1) := by
  after_results_simp
theorem hB_v3 (X : Valuation τ sig (Elt F)) :
    StableHlo.after opsB X (Proc.devRef .tc main_v3) = X (Proc.devRef .tc main_v3) := by
  after_results_simp

/-- The second mean, from any contents holding the first region's output, the two edge rows and the reciprocal
    edge count. -/
theorem hmean1 (X : Valuation τ sig (Elt F)) :
    StableHlo.after hostOps1 X (Proc.devRef .tc main_v78)
      = mulf (Cert.Stages.aggSum128 (X (Proc.devRef .tc main_v65)) (X (Proc.devRef .tc main_v1)) (X (Proc.devRef .tc main_v3)))
          (Cert.Stages.col128 (X (Proc.devRef .tc main_v61))) := by
  generalize hR : mulf (Cert.Stages.aggSum128 (X (Proc.devRef .tc main_v65)) (X (Proc.devRef .tc main_v1)) (X (Proc.devRef .tc main_v3)))
          (Cert.Stages.col128 (X (Proc.devRef .tc main_v61))) = R
  after_results_simp
  subst hR
  rfl

/-- The operations between the regions do not write the first region's output. -/
theorem h1_v65 (X : Valuation τ sig (Elt F)) :
    StableHlo.after hostOps1 X (Proc.devRef .tc main_v65) = X (Proc.devRef .tc main_v65) := by
  after_results_simp

/-- No operation before the first region writes an argument array. -/
theorem hpre_arg2 (W : Valuation τ sig (Elt F)) :
    StableHlo.after opsB (StableHlo.after opsA (StableHlo.after hostOps0_1 (StableHlo.after hostOps0 W))) (Proc.devRef .tc main_arg2)
      = W (Proc.devRef .tc main_arg2) := by
  after_results_simp
theorem hpre_arg3 (W : Valuation τ sig (Elt F)) :
    StableHlo.after opsB (StableHlo.after opsA (StableHlo.after hostOps0_1 (StableHlo.after hostOps0 W))) (Proc.devRef .tc main_arg3)
      = W (Proc.devRef .tc main_arg3) := by
  after_results_simp
theorem hpre_arg4 (W : Valuation τ sig (Elt F)) :
    StableHlo.after opsB (StableHlo.after opsA (StableHlo.after hostOps0_1 (StableHlo.after hostOps0 W))) (Proc.devRef .tc main_arg4)
      = W (Proc.devRef .tc main_arg4) := by
  after_results_simp
theorem hpre_arg5 (W : Valuation τ sig (Elt F)) :
    StableHlo.after opsB (StableHlo.after opsA (StableHlo.after hostOps0_1 (StableHlo.after hostOps0 W))) (Proc.devRef .tc main_arg5)
      = W (Proc.devRef .tc main_arg5) := by
  after_results_simp
theorem hpre_arg6 (W : Valuation τ sig (Elt F)) :
    StableHlo.after opsB (StableHlo.after opsA (StableHlo.after hostOps0_1 (StableHlo.after hostOps0 W))) (Proc.devRef .tc main_arg6)
      = W (Proc.devRef .tc main_arg6) := by
  after_results_simp
theorem hpre_arg7 (W : Valuation τ sig (Elt F)) :
    StableHlo.after opsB (StableHlo.after opsA (StableHlo.after hostOps0_1 (StableHlo.after hostOps0 W))) (Proc.devRef .tc main_arg7)
      = W (Proc.devRef .tc main_arg7) := by
  after_results_simp
theorem hpre_arg8 (W : Valuation τ sig (Elt F)) :
    StableHlo.after opsB (StableHlo.after opsA (StableHlo.after hostOps0_1 (StableHlo.after hostOps0 W))) (Proc.devRef .tc main_arg8)
      = W (Proc.devRef .tc main_arg8) := by
  after_results_simp
theorem hpre_arg9 (W : Valuation τ sig (Elt F)) :
    StableHlo.after opsB (StableHlo.after opsA (StableHlo.after hostOps0_1 (StableHlo.after hostOps0 W))) (Proc.devRef .tc main_arg9)
      = W (Proc.devRef .tc main_arg9) := by
  after_results_simp
theorem hpre_arg10 (W : Valuation τ sig (Elt F)) :
    StableHlo.after opsB (StableHlo.after opsA (StableHlo.after hostOps0_1 (StableHlo.after hostOps0 W))) (Proc.devRef .tc main_arg10)
      = W (Proc.devRef .tc main_arg10) := by
  after_results_simp
theorem hpre_arg11 (W : Valuation τ sig (Elt F)) :
    StableHlo.after opsB (StableHlo.after opsA (StableHlo.after hostOps0_1 (StableHlo.after hostOps0 W))) (Proc.devRef .tc main_arg11)
      = W (Proc.devRef .tc main_arg11) := by
  after_results_simp

/-- Nor does an operation between the regions. -/
theorem h1_arg5 (X : Valuation τ sig (Elt F)) :
    StableHlo.after hostOps1 X (Proc.devRef .tc main_arg5) = X (Proc.devRef .tc main_arg5) := by
  after_results_simp
theorem h1_arg6 (X : Valuation τ sig (Elt F)) :
    StableHlo.after hostOps1 X (Proc.devRef .tc main_arg6) = X (Proc.devRef .tc main_arg6) := by
  after_results_simp
theorem h1_arg7 (X : Valuation τ sig (Elt F)) :
    StableHlo.after hostOps1 X (Proc.devRef .tc main_arg7) = X (Proc.devRef .tc main_arg7) := by
  after_results_simp
theorem h1_arg8 (X : Valuation τ sig (Elt F)) :
    StableHlo.after hostOps1 X (Proc.devRef .tc main_arg8) = X (Proc.devRef .tc main_arg8) := by
  after_results_simp
theorem h1_arg9 (X : Valuation τ sig (Elt F)) :
    StableHlo.after hostOps1 X (Proc.devRef .tc main_arg9) = X (Proc.devRef .tc main_arg9) := by
  after_results_simp
theorem h1_arg10 (X : Valuation τ sig (Elt F)) :
    StableHlo.after hostOps1 X (Proc.devRef .tc main_arg10) = X (Proc.devRef .tc main_arg10) := by
  after_results_simp
theorem h1_arg11 (X : Valuation τ sig (Elt F)) :
    StableHlo.after hostOps1 X (Proc.devRef .tc main_arg11) = X (Proc.devRef .tc main_arg11) := by
  after_results_simp

/-! ## The run -/

variable (m : (ℓ : Loc nD τ sig) → Buf (Elt F) ℓ) (ρ : Dev nD → PrngReg)

set_option backward.isDefEq.respectTransparency.types false in
/-- At the compiled mesh, from any memory with zero counters, every weakly fair execution of the program on the
    TensorCores terminates, nothing faulting, and every final state has the result array at what the second region's
    write-backs leave and the argument arrays as launched. -/
theorem run : θ_run defs (onTc (τ := τ) (main (F := F))) ⟨m, fun _ => 0, ρ⟩ (fun r => ∀ c : Dev nD,
      r.2.mem ((c.tc : Thread nD τ).loc main_v79) = (Gen.dat1 (Gen.V5 m ρ) c).arrAt 9 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨(h c _ (mem_uc main_v79 (by decide))).trans (W6_arr m ρ c 9),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

/-! ## The contents the regions read -/

/-- The launch contents of a TensorCore buffer. -/
theorem W0_at (c : Dev nD) (b : Ref sig .tc) : W0 m ρ c (Proc.devRef .tc b) = m ((c.tc : Thread nD τ).loc b) := rfl

/-- The contents at the first region's entry: the fold of the four pieces over the launch contents. -/
theorem V3_eq (c : Dev nD) (b : Ref sig .tc) :
    V3 m ρ c b = StableHlo.after opsB (StableHlo.after opsA (StableHlo.after hostOps0_1 (StableHlo.after hostOps0 (W0 m ρ c)))) (Proc.devRef .tc b) :=
  congrFun (after_hostOps0_2 _) _

/-- The first region reads the normalised features, -/
theorem V3_v43 (c : Dev nD) : V3 m ρ c main_v43 = Cert.Stages.hNorm (m ((c.tc : Thread nD τ).loc main_arg0)) :=
  (V3_eq m ρ c main_v43).trans ((hB_v43 _).trans (hnA _))

/-- the two edge rows are as the launch's edge table has them, -/
theorem W3_v1 (c : Dev nD) : W3 m ρ c (Proc.devRef .tc main_v1) = Cert.Stages.e0 (m ((c.tc : Thread nD τ).loc main_arg1)) :=
  (V3_eq m ρ c main_v1).trans ((hB_v1 _).trans (he0A _))
theorem W3_v3 (c : Dev nD) : W3 m ρ c (Proc.devRef .tc main_v3) = Cert.Stages.e1 (m ((c.tc : Thread nD τ).loc main_arg1)) :=
  (V3_eq m ρ c main_v3).trans ((hB_v3 _).trans (he1A _))

/-- the reciprocal edge count is that of the target row, -/
theorem W3_v61 (c : Dev nD) : W3 m ρ c (Proc.devRef .tc main_v61) = Cert.Stages.invDeg (Cert.Stages.e1 (m ((c.tc : Thread nD τ).loc main_arg1))) :=
  (V3_eq m ρ c main_v61).trans ((hinvB _).trans (by rw [he1A, W0_at]))

/-- and the first region reads the first mean of the normalised features, -/
theorem V3_v64 (c : Dev nD) : V3 m ρ c main_v64
    = Cert.Stages.meanK3 (Cert.Stages.hNorm (m ((c.tc : Thread nD τ).loc main_arg0))) (Cert.Stages.e0 (m ((c.tc : Thread nD τ).loc main_arg1))) (Cert.Stages.e1 (m ((c.tc : Thread nD τ).loc main_arg1))) :=
  (V3_eq m ρ c main_v64).trans ((hmeanB _).trans (by rw [hnA, he0A, he1A, W0_at, W0_at]))

/-- and its three weight arrays as launched. -/
theorem V3_arg2 (c : Dev nD) : V3 m ρ c main_arg2 = m ((c.tc : Thread nD τ).loc main_arg2) :=
  (V3_eq m ρ c main_arg2).trans (hpre_arg2 _)
theorem V3_arg3 (c : Dev nD) : V3 m ρ c main_arg3 = m ((c.tc : Thread nD τ).loc main_arg3) :=
  (V3_eq m ρ c main_arg3).trans (hpre_arg3 _)
theorem V3_arg4 (c : Dev nD) : V3 m ρ c main_arg4 = m ((c.tc : Thread nD τ).loc main_arg4) :=
  (V3_eq m ρ c main_arg4).trans (hpre_arg4 _)

/-- At the first region's exit the buffers it does not write are as at its entry. -/
theorem W4_v1 (c : Dev nD) : W4 m ρ c (Proc.devRef .tc main_v1) = Cert.Stages.e0 (m ((c.tc : Thread nD τ).loc main_arg1)) :=
  (W4_of_ne m ρ c main_v1 (by decide)).trans (W3_v1 m ρ c)
theorem W4_v3 (c : Dev nD) : W4 m ρ c (Proc.devRef .tc main_v3) = Cert.Stages.e1 (m ((c.tc : Thread nD τ).loc main_arg1)) :=
  (W4_of_ne m ρ c main_v3 (by decide)).trans (W3_v3 m ρ c)
theorem W4_v61 (c : Dev nD) : W4 m ρ c (Proc.devRef .tc main_v61) = Cert.Stages.invDeg (Cert.Stages.e1 (m ((c.tc : Thread nD τ).loc main_arg1))) :=
  (W4_of_ne m ρ c main_v61 (by decide)).trans (W3_v61 m ρ c)
theorem W4_v65 (c : Dev nD) : W4 m ρ c (Proc.devRef .tc main_v65) = (dat0 (V3 m ρ) c).arrAt 5 cfg0.N :=
  W4_arr m ρ c 5
theorem W4_arg5 (c : Dev nD) : W4 m ρ c (Proc.devRef .tc main_arg5) = m ((c.tc : Thread nD τ).loc main_arg5) :=
  (W4_of_ne m ρ c main_arg5 (by decide)).trans ((V3_eq m ρ c main_arg5).trans (hpre_arg5 _))
theorem W4_arg6 (c : Dev nD) : W4 m ρ c (Proc.devRef .tc main_arg6) = m ((c.tc : Thread nD τ).loc main_arg6) :=
  (W4_of_ne m ρ c main_arg6 (by decide)).trans ((V3_eq m ρ c main_arg6).trans (hpre_arg6 _))
theorem W4_arg7 (c : Dev nD) : W4 m ρ c (Proc.devRef .tc main_arg7) = m ((c.tc : Thread nD τ).loc main_arg7) :=
  (W4_of_ne m ρ c main_arg7 (by decide)).trans ((V3_eq m ρ c main_arg7).trans (hpre_arg7 _))
theorem W4_arg8 (c : Dev nD) : W4 m ρ c (Proc.devRef .tc main_arg8) = m ((c.tc : Thread nD τ).loc main_arg8) :=
  (W4_of_ne m ρ c main_arg8 (by decide)).trans ((V3_eq m ρ c main_arg8).trans (hpre_arg8 _))
theorem W4_arg9 (c : Dev nD) : W4 m ρ c (Proc.devRef .tc main_arg9) = m ((c.tc : Thread nD τ).loc main_arg9) :=
  (W4_of_ne m ρ c main_arg9 (by decide)).trans ((V3_eq m ρ c main_arg9).trans (hpre_arg9 _))
theorem W4_arg10 (c : Dev nD) : W4 m ρ c (Proc.devRef .tc main_arg10) = m ((c.tc : Thread nD τ).loc main_arg10) :=
  (W4_of_ne m ρ c main_arg10 (by decide)).trans ((V3_eq m ρ c main_arg10).trans (hpre_arg10 _))
theorem W4_arg11 (c : Dev nD) : W4 m ρ c (Proc.devRef .tc main_arg11) = m ((c.tc : Thread nD τ).loc main_arg11) :=
  (W4_of_ne m ρ c main_arg11 (by decide)).trans ((V3_eq m ρ c main_arg11).trans (hpre_arg11 _))

/-- The second region reads the first region's output, -/
theorem V5_v65 (c : Dev nD) : V5 m ρ c main_v65 = (dat0 (V3 m ρ) c).arrAt 5 cfg0.N :=
  (h1_v65 (W4 m ρ c)).trans (W4_v65 m ρ c)

/-- its mean over incoming edges with the reciprocal edge count computed before the first region, -/
theorem V5_v78 (c : Dev nD) : V5 m ρ c main_v78
    = Cert.Stages.meanK128 ((dat0 (V3 m ρ) c).arrAt 5 cfg0.N) (Cert.Stages.e0 (m ((c.tc : Thread nD τ).loc main_arg1))) (Cert.Stages.e1 (m ((c.tc : Thread nD τ).loc main_arg1))) :=
  (hmean1 (W4 m ρ c)).trans (by rw [W4_v65, W4_v1, W4_v3, W4_v61]; rfl)

/-- and its seven weight arrays as launched. -/
theorem V5_arg5 (c : Dev nD) : V5 m ρ c main_arg5 = m ((c.tc : Thread nD τ).loc main_arg5) :=
  (h1_arg5 (W4 m ρ c)).trans (W4_arg5 m ρ c)
theorem V5_arg6 (c : Dev nD) : V5 m ρ c main_arg6 = m ((c.tc : Thread nD τ).loc main_arg6) :=
  (h1_arg6 (W4 m ρ c)).trans (W4_arg6 m ρ c)
theorem V5_arg7 (c : Dev nD) : V5 m ρ c main_arg7 = m ((c.tc : Thread nD τ).loc main_arg7) :=
  (h1_arg7 (W4 m ρ c)).trans (W4_arg7 m ρ c)
theorem V5_arg8 (c : Dev nD) : V5 m ρ c main_arg8 = m ((c.tc : Thread nD τ).loc main_arg8) :=
  (h1_arg8 (W4 m ρ c)).trans (W4_arg8 m ρ c)
theorem V5_arg9 (c : Dev nD) : V5 m ρ c main_arg9 = m ((c.tc : Thread nD τ).loc main_arg9) :=
  (h1_arg9 (W4 m ρ c)).trans (W4_arg9 m ρ c)
theorem V5_arg10 (c : Dev nD) : V5 m ρ c main_arg10 = m ((c.tc : Thread nD τ).loc main_arg10) :=
  (h1_arg10 (W4 m ρ c)).trans (W4_arg10 m ρ c)
theorem V5_arg11 (c : Dev nD) : V5 m ρ c main_arg11 = m ((c.tc : Thread nD τ).loc main_arg11) :=
  (h1_arg11 (W4 m ρ c)).trans (W4_arg11 m ρ c)

end Cert.KernelIdeal.KValue

end
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.LibInDimRow.lean ====
/-
  Two broadcasts of a bias row, read at an index given by coordinates.

  A vector [b] placed on axis 1 of [1, b] reads entry j at (0, j); a row [1, b] spread over [a, b] with its axes kept in
  place reads its one row at (i, j), whatever the row i.  Both are the host's broadcast_in_dim: a broadcast never moves a
  coordinate, it reads the operand at the same coordinate on each axis the operand really has and at 0 on an operand
  axis of extent one.
-/
import Idealize.ShloMosaic.Lib.Pipeline.Value
import Idealize.ShloMosaic.Lib.ValueIdx

namespace Cert.LibInDimRow

open Idealize.ShloMosaic Idealize.ShloMosaic.ValueIdx

variable {α : Type}

/-- [b] placed on axis 1 of [1, b]: entry (u, j) is the operand at j. -/
theorem inDim_b_1b_apply {b : ℕ} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) := by
  refine broadcastInDim_apply _ h v (ix2 u j) (ix1 j) fun ax => ?_
  match ax with
  | ⟨0, _⟩ =>
    show j.val = if b = 1 then 0 else j.val
    split
    · have := j.isLt; omega
    · rfl

/-- A row [1, b] spread over [a, b], axes kept in place: entry (i, j) is the row at (0, j). -/
theorem inDim_1b_ab_apply {a b : ℕ} (v : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h v (ix2 i j) = v (ix2 (0 : Fin 1) j) := by
  refine broadcastInDim_apply _ h v (ix2 i j) (ix2 (0 : Fin 1) j) fun ax => ?_
  match ax with
  | ⟨0, _⟩ =>
    show (0 : ℕ) = if (1 : ℕ) = 1 then 0 else _
    rw [if_pos rfl]
  | ⟨1, _⟩ =>
    show j.val = if b = 1 then 0 else j.val
    split
    · have := j.isLt; omega
    · rfl

end Cert.LibInDimRow
-- ==== Proof.LibKeepdims.lean ====
/-
  Two layout operations of a kept-dimension row sum, read at an index: a vector [a] recast as a column [a, 1], and a
  column [a, 1] broadcast over b columns.  (The row forms [a] -> [1, a] and [1, b] -> [a, b] and the matrix transpose
  are library lemmas; these are their column counterparts, proved the same way: a cast keeps the row-major position,
  a broadcast reads coordinate 0 on a unit axis.)
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An [a] array cast to a column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibInDimLayout.lean ====
/-
  Broadcasts along unit and new axes, read at an index given by coordinates.

  A broadcast never moves a coordinate: the result at an index reads the operand at the same coordinates on the
  axes the operand really has, and at 0 on an operand axis of extent one.  So
    a one-element vector [1] spread over [a] reads its one element everywhere,
    a vector [a] given a trailing unit axis, [a, 1], reads entry i at (i, 0),
    a column [a, 1] spread over [a, b] reads row i at (i, j),
    a matrix [a, b] given a trailing unit axis, [a, b, 1], reads entry (i, j) at (i, j, 0),
    a stack of columns [a, b, 1] spread over [a, b, c] reads (i, j, 0) at (i, j, k),
  for the host's broadcast_in_dim with the identity placement of the operand's axes, and, for the vector
  broadcast, a one-by-one matrix [1, 1] spread down a column [a, 1] reads its one element everywhere.
-/
import Idealize.ShloMosaic.Lib.Pipeline.Value
import Idealize.ShloMosaic.Lib.ValueIdx

namespace Cert.LibInDimLayout

open Idealize.ShloMosaic Idealize.ShloMosaic.ValueIdx

variable {α : Type}

/-- [1] spread over [a] along axis 0: every entry is the operand's one element. -/
theorem inDim_1_a_apply {a : ℕ} (v : (⟨1, ![1]⟩ : Shape).Idx → α)
    (h : (⟨1, ![1]⟩ : Shape).BroadcastsInDim ⟨1, ![a]⟩ ![0]) (i : Fin a) :
    broadcastInDim ⟨1, ![a]⟩ ![0] h v (ix1 i) = v (ix1 (0 : Fin 1)) := by
  refine broadcastInDim_apply _ h v (ix1 i) (ix1 (0 : Fin 1)) fun ax => ?_
  match ax with
  | ⟨0, _⟩ =>
    show (0 : ℕ) = if (1 : ℕ) = 1 then 0 else _
    rw [if_pos rfl]

/-- [a] placed on axis 0 of [a, 1]: entry (i, u) is the operand at i. -/
theorem inDim_a_a1_apply {a : ℕ} (v : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h v (ix2 i u) = v (ix1 i) := by
  refine broadcastInDim_apply _ h v (ix2 i u) (ix1 i) fun ax => ?_
  match ax with
  | ⟨0, _⟩ =>
    show i.val = if a = 1 then 0 else i.val
    split
    · have := i.isLt; omega
    · rfl

/-- A column [a, 1] spread over [a, b], axes kept in place: entry (i, j) is the column at (i, 0). -/
theorem inDim_a1_ab_apply {a b : ℕ} (v : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h v (ix2 i j) = v (ix2 i (0 : Fin 1)) := by
  refine broadcastInDim_apply _ h v (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else _
    rw [if_pos rfl]

/-- A matrix [a, b] placed on the first two axes of [a, b, 1]: entry (i, j, u) is the operand at (i, j). -/
theorem inDim_ab_ab1_apply {a b : ℕ} (v : (⟨2, ![a, b]⟩ : Shape).Idx → α)
    (h : (⟨2, ![a, b]⟩ : Shape).BroadcastsInDim ⟨3, ![a, b, 1]⟩ ![0, 1]) (i : Fin a) (j : Fin b) (u : Fin 1) :
    broadcastInDim ⟨3, ![a, b, 1]⟩ ![0, 1] h v (ix3 i j u) = v (ix2 i j) := by
  refine broadcastInDim_apply _ h v (ix3 i j u) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- [a, b, 1] spread over [a, b, c], axes kept in place: entry (i, j, k) is the operand at (i, j, 0). -/
theorem inDim_ab1_abc_apply {a b c : ℕ} (v : (⟨3, ![a, b, 1]⟩ : Shape).Idx → α)
    (h : (⟨3, ![a, b, 1]⟩ : Shape).BroadcastsInDim ⟨3, ![a, b, c]⟩ ![0, 1, 2]) (i : Fin a) (j : Fin b) (k : Fin c) :
    broadcastInDim ⟨3, ![a, b, c]⟩ ![0, 1, 2] h v (ix3 i j k) = v (ix3 i j (0 : Fin 1)) := by
  refine broadcastInDim_apply _ h v (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else _
    rw [if_pos rfl]

/-- The vector broadcast of a one-by-one matrix down a column [a, 1]: every entry is the one element. -/
theorem broadcastTo_11_a1_apply {a : ℕ} (v : (⟨2, ![1, 1]⟩ : Shape).Idx → α)
    (h : (⟨2, ![1, 1]⟩ : Shape).Broadcasts ⟨2, ![a, 1]⟩) (i : Fin a) (u : Fin 1) :
    broadcastTo ⟨2, ![a, 1]⟩ v h (ix2 i u) = v (ix2 (0 : Fin 1) (0 : Fin 1)) := by
  refine broadcastTo_apply v h (ix2 i u) (ix2 (0 : Fin 1) (0 : Fin 1)) fun ax => ?_
  match ax with
  | ⟨0, _⟩ =>
    show (0 : ℕ) = if (1 : ℕ) = 1 then 0 else _
    rw [if_pos rfl]
  | ⟨1, _⟩ =>
    show (0 : ℕ) = if (1 : ℕ) = 1 then 0 else _
    rw [if_pos rfl]

end Cert.LibInDimLayout
-- ==== Proof.LibOrderFold.lean ====
import Mathlib.Order.CompleteLattice.Basic
import Mathlib.Order.ConditionallyCompleteLattice.Finset
import Mathlib.Data.Finset.Fold

/-!
# Minima and maxima over a finite index type, in a complete linear order

A minimum folded from the top element over a finite index type is the infimum of the family, and a maximum folded
from the bottom element is its supremum. A monotone map commutes with the infimum and with the supremum of a
NONEMPTY finite family (the extremum is attained, so no continuity is asked). An infimum over the first
`B * (k + 1)` positions of `Fin n` is the minimum of the infimum over the first `B * k` positions and the
infimum over the block of `B` positions that follows them; the same for suprema and maxima. Mathlib only.
-/

namespace OrderFold

variable {α : Type*} [CompleteLinearOrder α] {ι : Type*}

/-- A minimum folded from `⊤` over a finite index type is the infimum of the family. -/
theorem fold_min_top [Fintype ι] (f : ι → α) : (Finset.univ : Finset ι).fold min ⊤ f = ⨅ i, f i := by
  refine eq_of_forall_le_iff fun c => ?_
  rw [Finset.le_fold_min, le_iInf_iff]
  simp

/-- A maximum folded from `⊥` over a finite index type is the supremum of the family. -/
theorem fold_max_bot [Fintype ι] (f : ι → α) : (Finset.univ : Finset ι).fold max ⊥ f = ⨆ i, f i := by
  refine eq_of_forall_ge_iff fun c => ?_
  rw [Finset.fold_max_le, iSup_le_iff]
  simp

/-- A monotone map commutes with the infimum of a nonempty finite family: the infimum is one of its members. -/
theorem map_iInf_of_monotone [Finite ι] [Nonempty ι] {q : α → α} (hq : Monotone q) (f : ι → α) :
    q (⨅ i, f i) = ⨅ i, q (f i) := by
  obtain ⟨i0, hi0⟩ := exists_eq_ciInf_of_finite (f := f)
  refine le_antisymm (le_iInf fun i => hq (iInf_le f i)) ?_
  rw [← hi0]
  exact iInf_le (fun i => q (f i)) i0

/-- A monotone map commutes with the supremum of a nonempty finite family. -/
theorem map_iSup_of_monotone [Finite ι] [Nonempty ι] {q : α → α} (hq : Monotone q) (f : ι → α) :
    q (⨆ i, f i) = ⨆ i, q (f i) := by
  obtain ⟨i0, hi0⟩ := exists_eq_ciSup_of_finite (f := f)
  refine le_antisymm ?_ (iSup_le fun i => hq (le_iSup f i))
  rw [← hi0]
  exact le_iSup (fun i => q (f i)) i0

/-- The infimum of `f` over the positions of `Fin n` below `b`. -/
def infBelow {n : ℕ} (f : Fin n → α) (b : ℕ) : α := ⨅ (h : Fin n) (_ : h.val < b), f h

/-- The supremum of `f` over the positions of `Fin n` below `b`. -/
def supBelow {n : ℕ} (f : Fin n → α) (b : ℕ) : α := ⨆ (h : Fin n) (_ : h.val < b), f h

theorem le_infBelow_iff {n : ℕ} (f : Fin n → α) (b : ℕ) (c : α) :
    c ≤ infBelow f b ↔ ∀ h : Fin n, h.val < b → c ≤ f h := by
  unfold infBelow; simp only [le_iInf_iff]

theorem supBelow_le_iff {n : ℕ} (f : Fin n → α) (b : ℕ) (c : α) :
    supBelow f b ≤ c ↔ ∀ h : Fin n, h.val < b → f h ≤ c := by
  unfold supBelow; simp only [iSup_le_iff]

/-- Below position `0` there is nothing: the infimum is `⊤`. -/
theorem infBelow_zero {n : ℕ} (f : Fin n → α) : infBelow f 0 = ⊤ :=
  top_unique ((le_infBelow_iff f 0 ⊤).mpr fun _ h => absurd h (Nat.not_lt_zero _))

/-- Below position `0` there is nothing: the supremum is `⊥`. -/
theorem supBelow_zero {n : ℕ} (f : Fin n → α) : supBelow f 0 = ⊥ :=
  bot_unique ((supBelow_le_iff f 0 ⊥).mpr fun _ h => absurd h (Nat.not_lt_zero _))

/-- Below position `n` is every position. -/
theorem infBelow_all {n : ℕ} (f : Fin n → α) {b : ℕ} (hb : n ≤ b) : infBelow f b = ⨅ h, f h := by
  refine eq_of_forall_le_iff fun c => ?_
  rw [le_infBelow_iff, le_iInf_iff]
  exact ⟨fun H h => H h (lt_of_lt_of_le h.isLt hb), fun H h _ => H h⟩

theorem supBelow_all {n : ℕ} (f : Fin n → α) {b : ℕ} (hb : n ≤ b) : supBelow f b = ⨆ h, f h := by
  refine eq_of_forall_ge_iff fun c => ?_
  rw [supBelow_le_iff, iSup_le_iff]
  exact ⟨fun H h => H h (lt_of_lt_of_le h.isLt hb), fun H h _ => H h⟩

/-- One more block: the infimum below `B * (k + 1)` is the minimum of the infimum below `B * k` and the infimum over
    the block of `B` positions `B * k + r`. -/
theorem min_infBelow_block {n B : ℕ} (f : Fin n → α) (k : ℕ) (hk : B * (k + 1) ≤ n) (g : Fin B → α)
    (hg : ∀ (r : Fin B) (hr : B * k + r.val < n), g r = f ⟨B * k + r.val, hr⟩) :
    min (infBelow f (B * k)) (⨅ r, g r) = infBelow f (B * (k + 1)) := by
  refine eq_of_forall_le_iff fun c => ?_
  rw [le_min_iff, le_infBelow_iff, le_infBelow_iff, le_iInf_iff]
  have hmul : B * (k + 1) = B * k + B := Nat.mul_succ B k
  constructor
  · rintro ⟨H1, H2⟩ h hh
    by_cases hlt : h.val < B * k
    · exact H1 h hlt
    · have hr : h.val - B * k < B := by omega
      have e := hg ⟨h.val - B * k, hr⟩ (by show B * k + (h.val - B * k) < n; omega)
      have e' : (⟨B * k + (h.val - B * k), by omega⟩ : Fin n) = h := Fin.ext (by show B * k + (h.val - B * k) = h.val; omega)
      have := H2 ⟨h.val - B * k, hr⟩
      rw [e] at this
      exact e' ▸ this
  · intro H
    refine ⟨fun h hh => H h (by omega), fun r => ?_⟩
    have hr : B * k + r.val < n := by have := r.isLt; omega
    rw [hg r hr]
    exact H _ (by show B * k + r.val < B * (k + 1); have := r.isLt; omega)

/-- One more block: the supremum below `B * (k + 1)` is the maximum of the supremum below `B * k` and the supremum
    over the block of `B` positions `B * k + r`. -/
theorem max_supBelow_block {n B : ℕ} (f : Fin n → α) (k : ℕ) (hk : B * (k + 1) ≤ n) (g : Fin B → α)
    (hg : ∀ (r : Fin B) (hr : B * k + r.val < n), g r = f ⟨B * k + r.val, hr⟩) :
    max (supBelow f (B * k)) (⨆ r, g r) = supBelow f (B * (k + 1)) := by
  refine eq_of_forall_ge_iff fun c => ?_
  rw [max_le_iff, supBelow_le_iff, supBelow_le_iff, iSup_le_iff]
  have hmul : B * (k + 1) = B * k + B := Nat.mul_succ B k
  constructor
  · rintro ⟨H1, H2⟩ h hh
    by_cases hlt : h.val < B * k
    · exact H1 h hlt
    · have hr : h.val - B * k < B := by omega
      have e := hg ⟨h.val - B * k, hr⟩ (by show B * k + (h.val - B * k) < n; omega)
      have e' : (⟨B * k + (h.val - B * k), by omega⟩ : Fin n) = h := Fin.ext (by show B * k + (h.val - B * k) = h.val; omega)
      have := H2 ⟨h.val - B * k, hr⟩
      rw [e] at this
      exact e' ▸ this
  · intro H
    refine ⟨fun h hh => H h (by omega), fun r => ?_⟩
    have hr : B * k + r.val < n := by have := r.isLt; omega
    rw [hg r hr]
    exact H _ (by show B * k + r.val < B * (k + 1); have := r.isLt; omega)

end OrderFold
-- ==== Proof.LibExtremeReduce.lean ====
import Idealize.ShloMosaic.PureOps.Ideal
import Idealize.ShloMosaic.PureOps.Ideal.Laws
import Idealize.ShloMosaic.PureOps.Reduce
import proofs.«147892_j13202729468516_1_alg».proof.Proof.LibOrderFold

/-!
# Minimum and maximum reductions over one axis, read on the extended reals

On the extended reals the f32 words `0x7F800000` and `0xFF800000` denote `⊤` and `⊥`, the neutral elements of `min`
and `max`. So a kernel's lane reduction `vector.multi_reduction <minimumf>` from the `+∞` word over ONE axis, and a
host program's `stablehlo.reduce` with a `minimum` body from the `+∞` word over ONE axis, are both, at a result index
`j`, the infimum of the source over that axis's coordinates (`Shape.Reduces.lift j k`: `j` with coordinate `k` inserted
on the reduced axis); and the `maximumf` / `maximum` ones from the `-∞` word the supremum. The order in which either
program folds does not appear.
-/

noncomputable section

namespace Idealize.ShloMosaic.ExtremeReduce

open Idealize.ShloMosaic

/-- The f32 word of `+∞` denotes `⊤`. -/
theorem ofBits_posInf : Ideal.ofBits .f32 0x7F800000#32 = ⊤ := by simp [Ideal.ofBits, Ideal.ieee]

/-- The f32 word of `-∞` denotes `⊥`. -/
theorem ofBits_negInf : Ideal.ofBits .f32 0xFF800000#32 = ⊥ := by simp [Ideal.ofBits, Ideal.ieee]

variable {s t : Shape} {a : Fin s.rank}

/-- A lane minimum from the `+∞` word over one axis is the infimum over that axis's coordinates. -/
theorem multiReduction_min_single (src : FVec Ideal s .f32) (h : s.Reduces [a] t) (hφ : FKind.Formats .f32)
    (hacc : (0x7F800000#32 : BitVec 32) = FKind.minimumf.neutral .f32 hφ) (j : t.Idx) :
    multiReduction .minimumf [a] t src 0x7F800000#32 h hφ hacc j = ⨅ k : Fin (s.size a), src (h.lift j k) := by
  rw [multiReduction_minimumf_eq_fold, h.fold_filter_drop_single]
  show (Finset.univ : Finset (Fin (s.size a))).fold min (Ideal.ofBits .f32 0x7F800000#32) (src ∘ h.lift j) = _
  rw [ofBits_posInf, OrderFold.fold_min_top]
  rfl

/-- A lane maximum from the `-∞` word over one axis is the supremum over that axis's coordinates. -/
theorem multiReduction_max_single (src : FVec Ideal s .f32) (h : s.Reduces [a] t) (hφ : FKind.Formats .f32)
    (hacc : (0xFF800000#32 : BitVec 32) = FKind.maximumf.neutral .f32 hφ) (j : t.Idx) :
    multiReduction .maximumf [a] t src 0xFF800000#32 h hφ hacc j = ⨆ k : Fin (s.size a), src (h.lift j k) := by
  rw [multiReduction_maximumf_eq_fold, h.fold_filter_drop_single]
  show (Finset.univ : Finset (Fin (s.size a))).fold max (Ideal.ofBits .f32 0xFF800000#32) (src ∘ h.lift j) = _
  rw [ofBits_negInf, OrderFold.fold_max_bot]
  rfl

/-- A host reduce with a `minimum` body from the `+∞` word over one axis is the infimum over that axis's coordinates. -/
theorem hostReduce_min_single {u : Shape} (x : FVec Ideal s .f32) (h' : s.ReducesTo [a] t) (h : s.Reduces [a] t)
    (hu : 0 < u.numel) (j : t.Idx) :
    Host.reduce FloatOps.minimumf x (constant (F := Ideal) u .f32 0x7F800000#32) h' hu j
      = ⨅ k : Fin (s.size a), x (h.lift j k) := by
  rw [Host.reduce_eq_fold_single FloatOps.minimumf x _ h' h hu j]
  show (Finset.univ : Finset (Fin (s.size a))).fold min (Ideal.ofBits .f32 0x7F800000#32) (x ∘ h.lift j) = _
  rw [ofBits_posInf, OrderFold.fold_min_top]
  rfl

/-- A host reduce with a `maximum` body from the `-∞` word over one axis is the supremum over that axis's coordinates. -/
theorem hostReduce_max_single {u : Shape} (x : FVec Ideal s .f32) (h' : s.ReducesTo [a] t) (h : s.Reduces [a] t)
    (hu : 0 < u.numel) (j : t.Idx) :
    Host.reduce FloatOps.maximumf x (constant (F := Ideal) u .f32 0xFF800000#32) h' hu j
      = ⨆ k : Fin (s.size a), x (h.lift j k) := by
  rw [Host.reduce_eq_fold_single FloatOps.maximumf x _ h' h hu j]
  show (Finset.univ : Finset (Fin (s.size a))).fold max (Ideal.ofBits .f32 0xFF800000#32) (x ∘ h.lift j) = _
  rw [ofBits_negInf, OrderFold.fold_max_bot]
  rfl

end Idealize.ShloMosaic.ExtremeReduce

end
-- ==== Proof.LibDenseRows.lean ====
/-
  Dense layers and a row-wise softmax, read one row at a time on the extended reals.

  A dense layer sends a row x to x Wᵀ + b: entry f is the sum over d of x d · W f d, plus b f.  A graph layer adds a
  second product and a tanh: entry f is tanh ((∑ a d · Wl f d) + bl f + ∑ h d · Wr f d), the sum associated in that
  order.  A softmax sends a row l to exp (l q − m) / ∑ exp (l k − m) with m the maximum of the row (taken once more
  against −∞, which changes nothing).  On the extended reals a change of float format is the identity, a matrix product
  accumulated into zero is the plain sum of products, a reduction along the last axis is the sum or supremum over that
  axis, and the layout operations only move coordinates.  So each of these, written with a kernel's vector operations on
  an [M, ·] block or with the host's operations on an [M, ·] array, is at (p, f) the row function of row p: the lemmas
  below say so for any extents M, K, N.
-/
import Idealize.ShloMosaic.PureOps.Ideal.Laws
import Idealize.ShloMosaic.Lib.ValueIdx
import Idealize.ShloMosaic.Lib.ValueLayout
import Idealize.ShloMosaic.Lib.Pipeline.Value
import proofs.«147892_j13202729468516_1_alg».proof.Proof.LibInnerProducts
import proofs.«147892_j13202729468516_1_alg».proof.Proof.LibInDimRow
import proofs.«147892_j13202729468516_1_alg».proof.Proof.LibKeepdims
import proofs.«147892_j13202729468516_1_alg».proof.Proof.LibInDimLayout
import proofs.«147892_j13202729468516_1_alg».proof.Proof.LibExtremeReduce

noncomputable section

namespace Cert.DenseRows

open Idealize.ShloMosaic Idealize.ShloMosaic.ValueIdx
open scoped BigOperators

/-! ## The row functions -/

/-- A dense layer on one row: entry f of x Wᵀ + b. -/
def dense {K N : ℕ} (x : Fin K → EReal) (W : Fin N → Fin K → EReal) (b : Fin N → EReal) (f : Fin N) : EReal :=
  (∑ d : Fin K, x d * W f d) + b f

/-- A graph layer on one node: tanh of (a Wlᵀ + bl) + h Wrᵀ, at entry f. -/
def sage {K N : ℕ} (a h : Fin K → EReal) (Wl : Fin N → Fin K → EReal) (bl : Fin N → EReal) (Wr : Fin N → Fin K → EReal)
    (f : Fin N) : EReal :=
  Ideal.tanh (((∑ d : Fin K, a d * Wl f d) + bl f) + ∑ d : Fin K, h d * Wr f d)

/-- The softmax of one row, the row maximum taken once more against −∞. -/
def softmax {n : ℕ} (l : Fin n → EReal) (q : Fin n) : EReal :=
  Ideal.div (Ideal.exp (l q - max ⊥ (⨆ k : Fin n, l k))) (∑ k : Fin n, Ideal.exp (l k - max ⊥ (⨆ j : Fin n, l j)))

/-! ## A product against a transposed weight matrix -/

/-- An [M, K] block times the transpose of an [N, K] matrix, accumulated into zero: at (p, f) the sum over d of
    a (p, d) · w (f, d). -/
theorem matmulT_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![N, K]⟩ φ₂)
    (ht : (⟨2, ![N, K]⟩ : Shape).Transposes [1, 0] ⟨2, ![K, N]⟩) (p : Fin M) (f : Fin N) :
    matmul D prec a (transpose ⟨2, ![K, N]⟩ [1, 0] w ht) (constant (F := Ideal) ⟨2, ![M, N]⟩ .f32 0x00000000#32) (ix2 p f)
      = ∑ d : Fin K, a (ix2 p d) * w (ix2 f d) :=
  (InnerProducts.matmul_zero_apply D hD prec a (transpose ⟨2, ![K, N]⟩ [1, 0] w ht) p f).trans
    (Finset.sum_congr rfl fun d _ => congrArg (a (ix2 p d) * ·) (transpose_ix2_apply w ht d f))

/-- The host's product of an [M, K] array with the transpose of an [N, K] matrix: the same sum. -/
theorem dotGeneralT_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![N, K]⟩ φ₂)
    (ht : (⟨2, ![N, K]⟩ : Shape).Transposes [1, 0] ⟨2, ![K, N]⟩) (p : Fin M) (f : Fin N) :
    Host.dotGeneral D prec a (transpose ⟨2, ![K, N]⟩ [1, 0] w ht) (ix2 p f) = ∑ d : Fin K, a (ix2 p d) * w (ix2 f d) :=
  (InnerProducts.dotGeneral_apply D hD prec a (transpose ⟨2, ![K, N]⟩ [1, 0] w ht) p f).trans
    (Finset.sum_congr rfl fun d _ => congrArg (a (ix2 p d) * ·) (transpose_ix2_apply w ht d f))

/-! ## A bias row spread over the rows -/

/-- A vector [N] cast to a row [1, N] and broadcast over M rows reads entry f at (p, f). -/
theorem biasRow_apply {M N : ℕ} {α : Type} (b : (⟨1, ![N]⟩ : Shape).Idx → α) (hc : (⟨1, ![N]⟩ : Shape).ShapeCasts ⟨2, ![1, N]⟩)
    (hb : (⟨2, ![1, N]⟩ : Shape).Broadcasts ⟨2, ![M, N]⟩) (p : Fin M) (f : Fin N) :
    broadcastTo ⟨2, ![M, N]⟩ (shapeCast ⟨2, ![1, N]⟩ b hc) hb (ix2 p f) = b (ix1 f) :=
  (broadcastTo_1b_ab_apply _ hb p f).trans (shapeCast_a_1a_apply b hc 0 f)

/-- The host's two broadcasts of a bias vector [N] to [1, N] and on to [M, N] read entry f at (p, f). -/
theorem biasRowHost_apply {M N : ℕ} {α : Type} (b : (⟨1, ![N]⟩ : Shape).Idx → α)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) (f : Fin N) :
    broadcastInDim ⟨2, ![M, N]⟩ ![0, 1] h2 (broadcastInDim ⟨2, ![1, N]⟩ ![1] h1 b) (ix2 p f) = b (ix1 f) :=
  (Cert.LibInDimRow.inDim_1b_ab_apply _ h2 p f).trans (Cert.LibInDimRow.inDim_b_1b_apply b h1 0 f)

/-! ## A dense layer -/

/-- A kernel's dense layer on a block X (of any float format): X times the transposed, format-changed weights into
    zero, plus the bias row. -/
theorem dense_kernel_apply {M K N : ℕ} {φ : FTy} (D : DotDims ⟨2, ![M, K]⟩ ⟨2, ![K, N]⟩ ⟨2, ![M, N]⟩)
    (hD : D = DotDims.plain M K N) (X : FVec Ideal ⟨2, ![M, K]⟩ φ) (w : FVec Ideal ⟨2, ![N, K]⟩ .f32)
    (b : FVec Ideal ⟨1, ![N]⟩ .f32) (hbits : FTy.bf16.bits < FTy.f32.bits)
    (ht : (⟨2, ![N, K]⟩ : Shape).Transposes [1, 0] ⟨2, ![K, N]⟩) (hc : (⟨1, ![N]⟩ : Shape).ShapeCasts ⟨2, ![1, N]⟩)
    (hb : (⟨2, ![1, N]⟩ : Shape).Broadcasts ⟨2, ![M, N]⟩) (p : Fin M) (f : Fin N) :
    addf (matmul D none X (transpose ⟨2, ![K, N]⟩ [1, 0] (truncf .bf16 w hbits) ht)
        (constant (F := Ideal) ⟨2, ![M, N]⟩ .f32 0x00000000#32))
      (broadcastTo ⟨2, ![M, N]⟩ (shapeCast ⟨2, ![1, N]⟩ b hc) hb) (ix2 p f)
      = dense (fun d => (X (ix2 p d) : EReal)) (fun f d => w (ix2 f d)) (fun f => b (ix1 f)) f := by
  show _ + _ = _
  rw [matmulT_apply D hD none X (truncf .bf16 w hbits) ht p f, biasRow_apply b hc hb p f]
  rfl

/-- The host's dense layer on an array X. -/
theorem dense_host_apply {M K N : ℕ} (D : DotDims ⟨2, ![M, K]⟩ ⟨2, ![K, N]⟩ ⟨2, ![M, N]⟩)
    (hD : D = DotDims.plain M K N) (X : FVec Ideal ⟨2, ![M, K]⟩ .f32) (w : FVec Ideal ⟨2, ![N, K]⟩ .f32)
    (b : FVec Ideal ⟨1, ![N]⟩ .f32) (ht : (⟨2, ![N, K]⟩ : Shape).Transposes [1, 0] ⟨2, ![K, N]⟩)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) (f : Fin N) :
    addf (Host.dotGeneral D none X (transpose ⟨2, ![K, N]⟩ [1, 0] w ht))
      (broadcastInDim ⟨2, ![M, N]⟩ ![0, 1] h2 (broadcastInDim ⟨2, ![1, N]⟩ ![1] h1 b)) (ix2 p f)
      = dense (fun d => X (ix2 p d)) (fun f d => w (ix2 f d)) (fun f => b (ix1 f)) f := by
  show _ + _ = _
  rw [dotGeneralT_apply D hD none X w ht p f, biasRowHost_apply b h1 h2 p f]
  rfl

/-! ## A graph layer -/

/-- A kernel's graph layer on two [M, K] blocks. -/
theorem sage_kernel_apply {M K N : ℕ} (D : DotDims ⟨2, ![M, K]⟩ ⟨2, ![K, N]⟩ ⟨2, ![M, N]⟩)
    (hD : D = DotDims.plain M K N) (x y : FVec Ideal ⟨2, ![M, K]⟩ .f32) (wl wr : FVec Ideal ⟨2, ![N, K]⟩ .f32)
    (b : FVec Ideal ⟨1, ![N]⟩ .f32) (hs : (⟨2, ![M, K]⟩ : Shape).ShapeCasts ⟨2, ![M, K]⟩)
    (hbits : FTy.bf16.bits < FTy.f32.bits) (ht : (⟨2, ![N, K]⟩ : Shape).Transposes [1, 0] ⟨2, ![K, N]⟩)
    (hc : (⟨1, ![N]⟩ : Shape).ShapeCasts ⟨2, ![1, N]⟩) (hb : (⟨2, ![1, N]⟩ : Shape).Broadcasts ⟨2, ![M, N]⟩)
    (p : Fin M) (f : Fin N) :
    tanh (addf (addf (matmul D none (truncf .bf16 (shapeCast ⟨2, ![M, K]⟩ x hs) hbits)
            (transpose ⟨2, ![K, N]⟩ [1, 0] (truncf .bf16 wl hbits) ht) (constant (F := Ideal) ⟨2, ![M, N]⟩ .f32 0x00000000#32))
          (broadcastTo ⟨2, ![M, N]⟩ (shapeCast ⟨2, ![1, N]⟩ b hc) hb))
        (matmul D none (truncf .bf16 (shapeCast ⟨2, ![M, K]⟩ y hs) hbits)
          (transpose ⟨2, ![K, N]⟩ [1, 0] (truncf .bf16 wr hbits) ht) (constant (F := Ideal) ⟨2, ![M, N]⟩ .f32 0x00000000#32)))
      (ix2 p f)
      = sage (fun d => x (ix2 p d)) (fun d => y (ix2 p d)) (fun f d => wl (ix2 f d)) (fun f => b (ix1 f))
          (fun f d => wr (ix2 f d)) f := by
  show Ideal.tanh ((_ + _) + _) = _
  rw [matmulT_apply D hD none (truncf .bf16 (shapeCast ⟨2, ![M, K]⟩ x hs) hbits) (truncf .bf16 wl hbits) ht p f,
    matmulT_apply D hD none (truncf .bf16 (shapeCast ⟨2, ![M, K]⟩ y hs) hbits) (truncf .bf16 wr hbits) ht p f,
    biasRow_apply b hc hb p f, shapeCast_self x hs, shapeCast_self y hs]
  rfl

/-- The host's graph layer on two [M, K] arrays. -/
theorem sage_host_apply {M K N : ℕ} (D : DotDims ⟨2, ![M, K]⟩ ⟨2, ![K, N]⟩ ⟨2, ![M, N]⟩)
    (hD : D = DotDims.plain M K N) (x y : FVec Ideal ⟨2, ![M, K]⟩ .f32) (wl wr : FVec Ideal ⟨2, ![N, K]⟩ .f32)
    (b : FVec Ideal ⟨1, ![N]⟩ .f32) (ht : (⟨2, ![N, K]⟩ : Shape).Transposes [1, 0] ⟨2, ![K, N]⟩)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) (f : Fin N) :
    Host.tanh (addf (addf (Host.dotGeneral D none x (transpose ⟨2, ![K, N]⟩ [1, 0] wl ht))
          (broadcastInDim ⟨2, ![M, N]⟩ ![0, 1] h2 (broadcastInDim ⟨2, ![1, N]⟩ ![1] h1 b)))
        (Host.dotGeneral D none y (transpose ⟨2, ![K, N]⟩ [1, 0] wr ht))) (ix2 p f)
      = sage (fun d => x (ix2 p d)) (fun d => y (ix2 p d)) (fun f d => wl (ix2 f d)) (fun f => b (ix1 f))
          (fun f d => wr (ix2 f d)) f := by
  show Ideal.tanh ((_ + _) + _) = _
  rw [dotGeneralT_apply D hD none x wl ht p f, dotGeneralT_apply D hD none y wr ht p f, biasRowHost_apply b h1 h2 p f]
  rfl

end Cert.DenseRows

end
-- ==== Proof.LibRowSoftmax.lean ====
/-
  A row-wise softmax, read one row at a time on the extended reals.

  The maximum of row p is the supremum of its entries; taking it once more against −∞ changes nothing and is kept as
  written.  The shifted row is exponentiated, summed along the row, and each exponential divided by that sum.  A kernel
  writes this on an [M, n] block with lane reductions, a cast of the [M] results to a column [M, 1] and a broadcast back
  to [M, n]; the host writes it on an [M, n] array with reduce, two broadcasts and divide.  At (p, q) both are the
  softmax of row p at q.
-/
import Idealize.ShloMosaic.PureOps.Ideal.Laws
import Idealize.ShloMosaic.Lib.ValueIdx
import Idealize.ShloMosaic.Lib.Pipeline.Value
import proofs.«147892_j13202729468516_1_alg».proof.Proof.LibKeepdims
import proofs.«147892_j13202729468516_1_alg».proof.Proof.LibInDimLayout
import proofs.«147892_j13202729468516_1_alg».proof.Proof.LibExtremeReduce
import proofs.«147892_j13202729468516_1_alg».proof.Proof.LibDenseRows

noncomputable section

namespace Cert.DenseRows

open Idealize.ShloMosaic Idealize.ShloMosaic.ValueIdx
open scoped BigOperators

/-- Putting coordinate k back on the last axis of the row index p gives (p, k). -/
theorem lift_ix1 {M n : ℕ} (h : (⟨2, ![M, n]⟩ : Shape).Reduces [1] ⟨1, ![M]⟩) (p : Fin M) (k : Fin n) :
    h.lift (ix1 p) k = ix2 p k := by
  funext c
  apply Fin.ext
  match c with
  | ⟨0, _⟩ => rfl
  | ⟨1, _⟩ => rfl

/-- A scalar spread over a vector reads the scalar everywhere. -/
theorem inDim_scalar_apply {M : ℕ} {α : Type} (v : (⟨0, ![]⟩ : Shape).Idx → α)
    (h : (⟨0, ![]⟩ : Shape).BroadcastsInDim ⟨1, ![M]⟩ ![]) (j : (⟨1, ![M]⟩ : Shape).Idx) :
    broadcastInDim ⟨1, ![M]⟩ ![] h v j = v ix0 :=
  broadcastInDim_apply _ h v j ix0 fun a => a.elim0

/-- The kernel's softmax of an [M, n] block at (p, q). -/
theorem softmax_kernel_apply {M n : ℕ} (src : FVec Ideal ⟨2, ![M, n]⟩ .f32)
    (h : (⟨2, ![M, n]⟩ : Shape).Reduces [1] ⟨1, ![M]⟩) (hφ : FKind.Formats .f32)
    (hmax : (0xFF800000#32 : BitVec 32) = FKind.maximumf.neutral .f32 hφ)
    (hadd : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, n]⟩)
    (p : Fin M) (q : Fin n) :
    divf (exp (subf src (broadcastTo ⟨2, ![M, n]⟩ (shapeCast ⟨2, ![M, 1]⟩
            (maximumf (broadcast ⟨1, ![M]⟩ (Scalar.ofBits (F := Ideal) .f32 0xFF800000#32))
              (multiReduction .maximumf [1] ⟨1, ![M]⟩ src 0xFF800000#32 h hφ hmax)) hc) hb)))
        (broadcastTo ⟨2, ![M, n]⟩ (shapeCast ⟨2, ![M, 1]⟩
          (multiReduction .add [1] ⟨1, ![M]⟩
            (exp (subf src (broadcastTo ⟨2, ![M, n]⟩ (shapeCast ⟨2, ![M, 1]⟩
              (maximumf (broadcast ⟨1, ![M]⟩ (Scalar.ofBits (F := Ideal) .f32 0xFF800000#32))
                (multiReduction .maximumf [1] ⟨1, ![M]⟩ src 0xFF800000#32 h hφ hmax)) hc) hb)))
            0x00000000#32 h hφ hadd) hc) hb) (ix2 p q)
      = softmax (fun k => src (ix2 p k)) q := by
  -- the row maximum, spread back over the row, read at any entry of row p
  have hm : ∀ k : Fin n, broadcastTo ⟨2, ![M, n]⟩ (shapeCast ⟨2, ![M, 1]⟩
        (maximumf (broadcast ⟨1, ![M]⟩ (Scalar.ofBits (F := Ideal) .f32 0xFF800000#32))
          (multiReduction .maximumf [1] ⟨1, ![M]⟩ src 0xFF800000#32 h hφ hmax)) hc) hb (ix2 p k)
        = max ⊥ (⨆ j : Fin n, src (ix2 p j)) := by
    intro k
    rw [Cert.LibKeepdims.broadcastTo_a1_ab_apply _ hb p k, Cert.LibKeepdims.shapeCast_a_a1_apply _ hc p 0]
    show max (Ideal.ofBits .f32 0xFF800000#32) (multiReduction .maximumf [1] ⟨1, ![M]⟩ src 0xFF800000#32 h hφ hmax (ix1 p)) = _
    rw [ExtremeReduce.ofBits_negInf, ExtremeReduce.multiReduction_max_single src h hφ hmax (ix1 p)]
    show max ⊥ (⨆ j : Fin n, src (h.lift (ix1 p) j)) = _
    simp only [lift_ix1]
  -- the exponential of the shifted row, at any entry of row p
  have he : ∀ k : Fin n, exp (subf src (broadcastTo ⟨2, ![M, n]⟩ (shapeCast ⟨2, ![M, 1]⟩
        (maximumf (broadcast ⟨1, ![M]⟩ (Scalar.ofBits (F := Ideal) .f32 0xFF800000#32))
          (multiReduction .maximumf [1] ⟨1, ![M]⟩ src 0xFF800000#32 h hφ hmax)) hc) hb)) (ix2 p k)
        = Ideal.exp (src (ix2 p k) - max ⊥ (⨆ j : Fin n, src (ix2 p j))) := by
    intro k
    show Ideal.exp (src (ix2 p k) - _) = _
    rw [hm k]
  show Ideal.div _ _ = _
  rw [he q, Cert.LibKeepdims.broadcastTo_a1_ab_apply _ hb p q, Cert.LibKeepdims.shapeCast_a_a1_apply _ hc p 0,
    Ideal.multiReduction_add_single _ _ h hφ hadd (ix1 p)]
  unfold softmax
  refine congrArg (Ideal.div _) ?_
  show ∑ k : Fin n, _ = _
  refine Finset.sum_congr rfl fun k _ => ?_
  rw [lift_ix1 h p k, he k]

/-- The host's softmax of an [M, n] array at (p, q). -/
theorem softmax_host_apply {M n : ℕ} (src : FVec Ideal ⟨2, ![M, n]⟩ .f32)
    (h' : (⟨2, ![M, n]⟩ : Shape).ReducesTo [1] ⟨1, ![M]⟩) (h : (⟨2, ![M, n]⟩ : Shape).Reduces [1] ⟨1, ![M]⟩)
    (hu : 0 < (⟨0, ![]⟩ : Shape).numel) (hs : (⟨0, ![]⟩ : Shape).BroadcastsInDim ⟨1, ![M]⟩ ![])
    (h1 : (⟨1, ![M]⟩ : Shape).BroadcastsInDim ⟨2, ![M, 1]⟩ ![0]) (h2 : (⟨2, ![M, 1]⟩ : Shape).BroadcastsInDim ⟨2, ![M, n]⟩ ![0, 1])
    (p : Fin M) (q : Fin n) :
    Host.divf (Host.exp (subf src (broadcastInDim ⟨2, ![M, n]⟩ ![0, 1] h2 (broadcastInDim ⟨2, ![M, 1]⟩ ![0] h1
            (maximumf (broadcastInDim ⟨1, ![M]⟩ ![] hs (constant (F := Ideal) ⟨0, ![]⟩ .f32 0xFF800000#32))
              (Host.reduce FloatOps.maximumf src (constant (F := Ideal) ⟨0, ![]⟩ .f32 0xFF800000#32) h' hu))))))
        (broadcastInDim ⟨2, ![M, n]⟩ ![0, 1] h2 (broadcastInDim ⟨2, ![M, 1]⟩ ![0] h1
          (Host.reduceAdd
            (Host.exp (subf src (broadcastInDim ⟨2, ![M, n]⟩ ![0, 1] h2 (broadcastInDim ⟨2, ![M, 1]⟩ ![0] h1
              (maximumf (broadcastInDim ⟨1, ![M]⟩ ![] hs (constant (F := Ideal) ⟨0, ![]⟩ .f32 0xFF800000#32))
                (Host.reduce FloatOps.maximumf src (constant (F := Ideal) ⟨0, ![]⟩ .f32 0xFF800000#32) h' hu))))))
            (constant (F := Ideal) ⟨0, ![]⟩ .f32 0x00000000#32) h' hu))) (ix2 p q)
      = softmax (fun k => src (ix2 p k)) q := by
  have hm : ∀ k : Fin n, broadcastInDim ⟨2, ![M, n]⟩ ![0, 1] h2 (broadcastInDim ⟨2, ![M, 1]⟩ ![0] h1
        (maximumf (broadcastInDim ⟨1, ![M]⟩ ![] hs (constant (F := Ideal) ⟨0, ![]⟩ .f32 0xFF800000#32))
          (Host.reduce FloatOps.maximumf src (constant (F := Ideal) ⟨0, ![]⟩ .f32 0xFF800000#32) h' hu))) (ix2 p k)
        = max ⊥ (⨆ j : Fin n, src (ix2 p j)) := by
    intro k
    rw [Cert.LibInDimLayout.inDim_a1_ab_apply _ h2 p k, Cert.LibInDimLayout.inDim_a_a1_apply _ h1 p 0]
    show max (broadcastInDim ⟨1, ![M]⟩ ![] hs (constant (F := Ideal) ⟨0, ![]⟩ .f32 0xFF800000#32) (ix1 p))
      (Host.reduce FloatOps.maximumf src (constant (F := Ideal) ⟨0, ![]⟩ .f32 0xFF800000#32) h' hu (ix1 p)) = _
    rw [inDim_scalar_apply _ hs (ix1 p), ExtremeReduce.hostReduce_max_single src h' h hu (ix1 p)]
    show max (Ideal.ofBits .f32 0xFF800000#32) (⨆ j : Fin n, src (h.lift (ix1 p) j)) = _
    rw [ExtremeReduce.ofBits_negInf]
    simp only [lift_ix1]
  have he : ∀ k : Fin n, Host.exp (subf src (broadcastInDim ⟨2, ![M, n]⟩ ![0, 1] h2 (broadcastInDim ⟨2, ![M, 1]⟩ ![0] h1
        (maximumf (broadcastInDim ⟨1, ![M]⟩ ![] hs (constant (F := Ideal) ⟨0, ![]⟩ .f32 0xFF800000#32))
          (Host.reduce FloatOps.maximumf src (constant (F := Ideal) ⟨0, ![]⟩ .f32 0xFF800000#32) h' hu))))) (ix2 p k)
        = Ideal.exp (src (ix2 p k) - max ⊥ (⨆ j : Fin n, src (ix2 p j))) := by
    intro k
    show Ideal.exp (src (ix2 p k) - _) = _
    rw [hm k]
  show Ideal.div _ _ = _
  rw [he q, Cert.LibInDimLayout.inDim_a1_ab_apply _ h2 p q, Cert.LibInDimLayout.inDim_a_a1_apply _ h1 p 0]
  unfold softmax
  refine congrArg (Ideal.div _) ?_
  show Ideal.hostReduceAdd h' _ (Ideal.ofBits .f32 0x00000000#32) (ix1 p) = _
  rw [Ideal.hostReduceAdd_single h' h _ _ (ix1 p), Ideal.ofBits_zero_f32, zero_add]
  show ∑ k : Fin n, _ = _
  refine Finset.sum_congr rfl fun k _ => ?_
  rw [lift_ix1 h p k, he k]

end Cert.DenseRows

end
-- ==== Proof.Spec.lean ====
/-
  The network on whole arrays, row by row.

  G0 is the first graph layer: entry (r, f) of the [100000, 128] result is tanh ((a Wlᵀ + bl) + h Wrᵀ) at f for a, h rows r
  of the two [100000, 3] feature arrays.  G1 is everything after the second averaging: entry (r, q) of the [100000, 8]
  result is the softmax at q of the logits of row r, the logits a dense layer of tanh of a dense layer of the second graph
  layer of rows r of the two [100000, 128] arrays (headRow).
-/
import proofs.«147892_j13202729468516_1_alg».proof.Proof.LibDenseRows
import proofs.«147892_j13202729468516_1_alg».proof.Proof.LibRowSoftmax
import Idealize.ShloMosaic.Lib.ValueIdx

noncomputable section

namespace Cert.Spec

open Idealize.ShloMosaic Idealize.ShloMosaic.ValueIdx Cert.DenseRows

/-- The row of a matrix index, as a number below the row count. -/
def rowOf {n0 n1 : ℕ} (i : (⟨2, ![n0, n1]⟩ : Shape).Idx) : Fin n0 := ⟨(i 0).val, idx2_lt0 i⟩
/-- The column of a matrix index, as a number below the column count. -/
def colOf {n0 n1 : ℕ} (i : (⟨2, ![n0, n1]⟩ : Shape).Idx) : Fin n1 := ⟨(i 1).val, idx2_lt1 i⟩

theorem rowOf_ix2 {n0 n1 : ℕ} (r : Fin n0) (f : Fin n1) : rowOf (ix2 r f) = r := rfl
theorem colOf_ix2 {n0 n1 : ℕ} (r : Fin n0) (f : Fin n1) : colOf (ix2 r f) = f := rfl

/-- The second graph layer and the head on one node: the softmax of W2 (tanh (W1 (layer) + b1)) + b2. -/
def headRow (a c : Fin 128 → EReal) (Wl : Fin 128 → Fin 128 → EReal) (bl : Fin 128 → EReal) (Wr : Fin 128 → Fin 128 → EReal)
    (W1 : Fin 256 → Fin 128 → EReal) (b1 : Fin 256 → EReal) (W2 : Fin 8 → Fin 256 → EReal) (b2 : Fin 8 → EReal) (q : Fin 8) : EReal :=
  softmax (dense (fun j => Ideal.tanh (dense (sage a c Wl bl Wr) W1 b1 j)) W2 b2) q

/-- The first layer on whole arrays. -/
def G0 (A H : (⟨2, ![100000, 3]⟩ : Shape).Idx → EReal) (Wl : (⟨2, ![128, 3]⟩ : Shape).Idx → EReal)
    (bl : (⟨1, ![128]⟩ : Shape).Idx → EReal) (Wr : (⟨2, ![128, 3]⟩ : Shape).Idx → EReal) :
    (⟨2, ![100000, 128]⟩ : Shape).Idx → EReal :=
  fun i => sage (fun d => A (ix2 (rowOf i) d)) (fun d => H (ix2 (rowOf i) d)) (fun f d => Wl (ix2 f d)) (fun f => bl (ix1 f))
    (fun f d => Wr (ix2 f d)) (colOf i)

/-- The second layer and the head on whole arrays. -/
def G1 (A C : (⟨2, ![100000, 128]⟩ : Shape).Idx → EReal) (Wl : (⟨2, ![128, 128]⟩ : Shape).Idx → EReal)
    (bl : (⟨1, ![128]⟩ : Shape).Idx → EReal) (Wr : (⟨2, ![128, 128]⟩ : Shape).Idx → EReal)
    (W1 : (⟨2, ![256, 128]⟩ : Shape).Idx → EReal) (b1 : (⟨1, ![256]⟩ : Shape).Idx → EReal)
    (W2 : (⟨2, ![8, 256]⟩ : Shape).Idx → EReal) (b2 : (⟨1, ![8]⟩ : Shape).Idx → EReal) :
    (⟨2, ![100000, 8]⟩ : Shape).Idx → EReal :=
  fun i => headRow (fun d => A (ix2 (rowOf i) d)) (fun d => C (ix2 (rowOf i) d)) (fun f d => Wl (ix2 f d)) (fun f => bl (ix1 f))
    (fun f d => Wr (ix2 f d)) (fun j d => W1 (ix2 j d)) (fun j => b1 (ix1 j)) (fun q j => W2 (ix2 q j)) (fun q => b2 (ix1 q)) (colOf i)

end Cert.Spec

end
-- ==== Proof.Layers.lean ====
/-
  The host's layers are the row functions, and the two ways of averaging agree.

  Read at an index, the host's first graph layer on whole arrays is G0 and its second graph layer followed by the head
  is G1: its matrix products against transposed weights are the row-by-row sums, its bias broadcasts read the bias
  entry, its softmax is the row softmax.

  The mean over incoming edges is taken as sum / M by one program and as sum · (1 / M) by the other, with
  M = max (count, 1).  On the extended reals x / y is x · y⁻¹ whenever y ≠ 0, and M ≥ 1 > 0, so both are sum · M⁻¹:
  no finiteness of the sum or of the count is needed.
-/
import proofs.«147892_j13202729468516_1_alg».proof.Proof.Stages
import proofs.«147892_j13202729468516_1_alg».proof.Proof.Spec
import proofs.«147892_j13202729468516_1_alg».proof.Proof.LibDenseRows
import proofs.«147892_j13202729468516_1_alg».proof.Proof.LibRowSoftmax
import proofs.«147892_j13202729468516_1_alg».proof.Proof.LibInDimLayout
import proofs.«147892_j13202729468516_1_alg».proof.Proof.Gen.ReferenceIdeal
import Idealize.ShloMosaic.Lib.ValueIdx

noncomputable section

namespace Cert.Layers

open Idealize.ShloMosaic Idealize.ShloMosaic.ValueIdx Cert.DenseRows Cert.Spec
open Cert.ReferenceIdeal Cert.ReferenceIdeal.Facts₀ Cert.ReferenceIdeal.Facts

/-! ## The two ways of averaging -/

/-- The f32 word of 1.0 denotes 1. -/
theorem ofBits_one : Ideal.ofBits .f32 0x3F800000#32 = 1 := by
  simp [Ideal.ofBits, Ideal.ieee]
  rw [← EReal.coe_mul, ← EReal.coe_one]
  congr 1
  norm_num

/-- Multiplying by the reciprocal of a nonzero M is dividing by M. -/
theorem mul_recip_eq_div (a M : EReal) (hM : M ≠ 0) : a * Ideal.div 1 M = Ideal.div a M := by
  unfold Ideal.div
  rw [if_neg hM, if_neg hM, one_mul]

/-- A maximum with 1 is not 0. -/
theorem max_one_ne_zero (s : EReal) : max s 1 ≠ 0 :=
  ne_of_gt (lt_of_lt_of_le zero_lt_one (le_max_right s 1))

/-- The host's quotient of two arrays, at an index. -/
theorem hostDivf_apply {s : Shape} {φ : FTy} (a b : FVec Ideal s φ) (i : s.Idx) : Host.divf a b i = Ideal.div (a i) (b i) := rfl

/-- A value per node repeated along 3 columns reads the node's value. -/
theorem col3_apply (v : (⟨Cert.ReferenceIdeal.S100000, .f32⟩ : BufTy).Contents (Elt Ideal)) (r : Fin 100000) (f : Fin 3) : Cert.Stages.col3 v (ix2 r f) = v (ix1 r) := by
  unfold Cert.Stages.col3
  exact (Cert.LibInDimLayout.inDim_a1_ab_apply _ bcast_S100000x1_S100000x3_0_1 r f).trans
    (Cert.LibInDimLayout.inDim_a_a1_apply v bcast_S100000_S100000x1_0 r 0)

/-- A value per node repeated along 128 columns reads the node's value. -/
theorem col128_apply (v : (⟨Cert.ReferenceIdeal.S100000, .f32⟩ : BufTy).Contents (Elt Ideal)) (r : Fin 100000) (f : Fin 128) : Cert.Stages.col128 v (ix2 r f) = v (ix1 r) := by
  unfold Cert.Stages.col128
  exact (Cert.LibInDimLayout.inDim_a1_ab_apply _ bcast_S100000x1_S100000x128_0_1 r f).trans
    (Cert.LibInDimLayout.inDim_a_a1_apply v bcast_S100000_S100000x1_0 r 0)

/-- The count is a maximum with 1, so it is not 0, whatever the sum of ones it is taken of. -/
theorem degM_ne_zero (r3 : (⟨Cert.ReferenceIdeal.S600000, .i32⟩ : BufTy).Contents (Elt Ideal)) (r : Fin 100000) :
    Cert.Stages.degM (F := Ideal) r3 (ix1 r) ≠ 0 := by
  unfold Cert.Stages.degM
  dsimp only
  rw [ValueIdx.maximumf_apply, inDim_scalar_apply _ bcast_S_S100000 (ix1 r), ValueIdx.constant_apply, ofBits_one]
  exact max_one_ne_zero _

/-- The reciprocal count at a node is 1 / M. -/
theorem invDeg_apply (r3 : (⟨Cert.ReferenceIdeal.S600000, .i32⟩ : BufTy).Contents (Elt Ideal)) (r : Fin 100000) :
    Cert.Stages.invDeg (F := Ideal) r3 (ix1 r) = Ideal.div 1 (Cert.Stages.degM (F := Ideal) r3 (ix1 r)) := by
  unfold Cert.Stages.invDeg
  rw [hostDivf_apply, inDim_scalar_apply _ bcast_S_S100000 (ix1 r), ValueIdx.constant_apply, ofBits_one]

/-- The mean of 3 features taken as a product with the reciprocal count is the mean taken as a quotient. -/
theorem meanK3_eq (H : (⟨Cert.ReferenceIdeal.S100000x3, .f32⟩ : BufTy).Contents (Elt Ideal)) (r1 r3 : (⟨Cert.ReferenceIdeal.S600000, .i32⟩ : BufTy).Contents (Elt Ideal)) :
    Cert.Stages.meanK3 (F := Ideal) H r1 r3 = Cert.Stages.meanR3 H r1 r3 := by
  unfold Cert.Stages.meanK3 Cert.Stages.meanR3
  funext i
  obtain ⟨r, f, rfl⟩ : ∃ (r : Fin 100000) (f : Fin 3), i = ix2 r f := ⟨i 0, i 1, eq_ix2 i⟩
  rw [ValueIdx.mulf_apply, hostDivf_apply, col3_apply, col3_apply, invDeg_apply]
  exact mul_recip_eq_div _ _ (degM_ne_zero r3 r)

/-- The same for 128 features. -/
theorem meanK128_eq (C : (⟨Cert.ReferenceIdeal.S100000x128, .f32⟩ : BufTy).Contents (Elt Ideal)) (r1 r3 : (⟨Cert.ReferenceIdeal.S600000, .i32⟩ : BufTy).Contents (Elt Ideal)) :
    Cert.Stages.meanK128 (F := Ideal) C r1 r3 = Cert.Stages.meanR128 C r1 r3 := by
  unfold Cert.Stages.meanK128 Cert.Stages.meanR128
  funext i
  obtain ⟨r, f, rfl⟩ : ∃ (r : Fin 100000) (f : Fin 128), i = ix2 r f := ⟨i 0, i 1, eq_ix2 i⟩
  rw [ValueIdx.mulf_apply, hostDivf_apply, col128_apply, col128_apply, invDeg_apply]
  exact mul_recip_eq_div _ _ (degM_ne_zero r3 r)

/-! ## The host's layers, index by index -/

/-- The host's first graph layer on whole arrays is G0. -/
theorem convR3_eq (A H : (⟨Cert.ReferenceIdeal.S100000x3, .f32⟩ : BufTy).Contents (Elt Ideal)) (a2 : (⟨Cert.ReferenceIdeal.S128x3, .f32⟩ : BufTy).Contents (Elt Ideal)) (a3 : (⟨Cert.ReferenceIdeal.S128, .f32⟩ : BufTy).Contents (Elt Ideal)) (a4 : (⟨Cert.ReferenceIdeal.S128x3, .f32⟩ : BufTy).Contents (Elt Ideal)) :
    Cert.Stages.convR3 (F := Ideal) A H a2 a3 a4 = G0 A H a2 a3 a4 := by
  funext i
  obtain ⟨r, f, rfl⟩ : ∃ (r : Fin 100000) (f : Fin 128), i = ix2 r f := ⟨i 0, i 1, eq_ix2 i⟩
  exact sage_host_apply dot_S100000x3_S3x128_S100000x128_1_0_0_1_n_n rfl A H a2 a4 a3 transposes_S128x3_S3x128_1_0
    bcast_S128_S1x128_1 bcast_S1x128_S100000x128_0_1 r f

/-- The host's second graph layer followed by the head, on whole arrays, is G1. -/
theorem head_eq (A C : (⟨Cert.ReferenceIdeal.S100000x128, .f32⟩ : BufTy).Contents (Elt Ideal)) (a5 : (⟨Cert.ReferenceIdeal.S128x128, .f32⟩ : BufTy).Contents (Elt Ideal)) (a6 : (⟨Cert.ReferenceIdeal.S128, .f32⟩ : BufTy).Contents (Elt Ideal)) (a7 : (⟨Cert.ReferenceIdeal.S128x128, .f32⟩ : BufTy).Contents (Elt Ideal))
    (a8 : (⟨Cert.ReferenceIdeal.S256x128, .f32⟩ : BufTy).Contents (Elt Ideal)) (a9 : (⟨Cert.ReferenceIdeal.S256, .f32⟩ : BufTy).Contents (Elt Ideal)) (a10 : (⟨Cert.ReferenceIdeal.S8x256, .f32⟩ : BufTy).Contents (Elt Ideal)) (a11 : (⟨Cert.ReferenceIdeal.S8, .f32⟩ : BufTy).Contents (Elt Ideal)) :
    Cert.Stages.headR (F := Ideal) (Cert.Stages.convR128 A C a5 a6 a7) a8 a9 a10 a11 = G1 A C a5 a6 a7 a8 a9 a10 a11 := by
  funext i
  obtain ⟨r, q, rfl⟩ : ∃ (r : Fin 100000) (q : Fin 8), i = ix2 r q := ⟨i 0, i 1, eq_ix2 i⟩
  refine (softmax_host_apply _ reducesTo_S100000x8_S100000_d1 (by decide) h_S_ bcast_S_S100000 bcast_S100000_S100000x1_0
    bcast_S100000x1_S100000x8_0_1 r q).trans ?_
  show _ = headRow _ _ _ _ _ _ _ _ _ q
  unfold headRow
  refine congrArg (fun g => softmax g q) (funext fun k => ?_)
  refine (dense_host_apply dot_S100000x256_S256x8_S100000x8_1_0_0_1_n_n rfl _ a10 a11 transposes_S8x256_S256x8_1_0
    bcast_S8_S1x8_1 bcast_S1x8_S100000x8_0_1 r k).trans ?_
  refine congrArg (fun g => dense g (fun q j => a10 (ix2 q j)) (fun q => a11 (ix1 q)) k) (funext fun j => ?_)
  show Ideal.tanh _ = Ideal.tanh _
  refine congrArg Ideal.tanh ?_
  refine (dense_host_apply dot_S100000x128_S128x256_S100000x256_1_0_0_1_n_n rfl _ a8 a9 transposes_S256x128_S128x256_1_0
    bcast_S256_S1x256_1 bcast_S1x256_S100000x256_0_1 r j).trans ?_
  refine congrArg (fun g => dense g (fun j d => a8 (ix2 j d)) (fun j => a9 (ix1 j)) j) (funext fun f => ?_)
  exact sage_host_apply dot_S100000x128_S128x128_S100000x128_1_0_0_1_n_n rfl A C a5 a7 a6 transposes_S128x128_S128x128_1_0
    bcast_S128_S1x128_1 bcast_S1x128_S100000x128_0_1 r f

end Cert.Layers

end
-- ==== Proof.Region0.lean ====
/-
  The first pallas_call region as one function of the arrays it finds.

  The grid has 50 points; point t handles rows 2000 t … 2000 t + 1999.  Its block of the averaged neighbour features and
  its block of the node's own features are rows 2000 t … of those [100000, 3] arrays; the two [128, 3] weight matrices
  and the bias are read whole at every point.  Row p of the block it writes back is the graph layer of row 2000 t + p:
  tanh ((a Wlᵀ + bl) + h Wrᵀ).  The 50 blocks tile the [100000, 128] result, so the result array is that layer applied
  row by row (G0).
-/
import proofs.«147892_j13202729468516_1_alg».proof.Proof.Gen.KernelIdeal.Frame
import proofs.«147892_j13202729468516_1_alg».proof.Proof.LibDenseRows
import proofs.«147892_j13202729468516_1_alg».proof.Proof.Spec
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.DenseRows Cert.Spec

/-- The stored block at (p, f) is the graph layer of row p of the two loaded feature blocks. -/
theorem pay_apply (x0 x1 : Vec Ideal S2000x3 .f32) (x2 x4 : Vec Ideal S128x3 .f32) (x3 : Vec Ideal S128 .f32)
    (p : Fin 2000) (f : Fin 128) :
    k0_pay1 x0 x1 x2 x4 x3 (ix2 p f)
      = sage (fun d => x0 (ix2 p d)) (fun d => x1 (ix2 p d)) (fun f d => x2 (ix2 f d)) (fun f => x3 (ix1 f))
          (fun f d => x4 (ix2 f d)) f :=
  sage_kernel_apply dot_S2000x3_S3x128_S2000x128_1_0_0_1_n_n rfl x0 x1 x2 x4 x3 shapeCasts_S2000x3_S2000x3 bitsLt_bf16_f32
    transposes_S128x3_p1_0_S3x128 shapeCasts_S128_S1x128 broadcasts_S1x128_S2000x128 p f

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the two feature windows and the output move down one block per point, the
    weights and the bias stay at block 0. -/
theorem idx_facts : ∀ t : Fin cfg0.N, win0_5.index t (0 : Fin 2) = t.val ∧ win0_5.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0 :=
  (by decide +kernel : ∀ t : Fin grid0.N, _)

variable (V : (c : Dev nD) → (b : Ref sig .tc) → Buf (Elt Ideal) ((c : Thread nD τ).loc b))

/-- What point t writes back is block t of G0 of the arrays the region finds. -/
theorem flushed_eq (c : Dev nD) (t : Fin cfg0.N) :
    (dat0 V c).flushed 5 t = ((cfg0.win 5).blk t).view.read (Elt Ideal)
      (G0 (V c main_v64) (V c main_v43) (V c main_arg2) (V c main_arg3) (V c main_arg4)) := by
  show (cfg0.win 5).cut (grid0.coords t) ((dat0 V c).after 5 t) = _
  rw [after0_5]
  unfold out0_5
  rw [View.canon_unit_zero hz2]
  simp only [View.ld_unit_zero (S := S2000x3) hz2, View.ld_unit_zero (S := S128x3) hz2, View.ld_unit_zero (S := S128) hz1]
  obtain ⟨e50, e51, e00, e01, e10, e11, e20, e21, e30, e40, e41⟩ := idx_facts t
  funext y
  obtain ⟨p, f, rfl⟩ : ∃ (p : Fin 2000) (f : Fin 128), y = ix2 p f := ⟨y 0, y 1, eq_ix2 y⟩
  refine (pay_apply (iblk0 V c 0 t) (iblk0 V c 1 t) (iblk0 V c 2 t) (iblk0 V c 4 t) (iblk0 V c 3 t) p f).trans ?_
  show _ = G0 (V c main_v64) (V c main_v43) (V c main_arg2) (V c main_arg3) (V c main_arg4) (((cfg0.win 5).blk t).view.emb (ix2 p f))
  unfold G0
  have hcol : colOf (((cfg0.win 5).blk t).view.emb (ix2 p f)) = f := by
    apply Fin.ext
    show win0_5.index t (1 : Fin 2) * 128 + 1 * f.val = f.val
    omega
  have hA : (fun d : Fin 3 => iblk0 V c 0 t (ix2 p d))
      = fun d => V c main_v64 (ix2 (rowOf (((cfg0.win 5).blk t).view.emb (ix2 p f))) d) := by
    funext d
    show V c main_v64 (((cfg0.win 0).blk t).view.emb (ix2 p d)) = _
    refine congrArg (V c main_v64) (funext fun a => Fin.ext ?_)
    match a with
    | ⟨0, _⟩ => show win0_0.index t (0 : Fin 2) * 2000 + 1 * p.val = win0_5.index t (0 : Fin 2) * 2000 + 1 * p.val; omega
    | ⟨1, _⟩ => show win0_0.index t (1 : Fin 2) * 3 + 1 * d.val = d.val; omega
  have hH : (fun d : Fin 3 => iblk0 V c 1 t (ix2 p d))
      = fun d => V c main_v43 (ix2 (rowOf (((cfg0.win 5).blk t).view.emb (ix2 p f))) d) := by
    funext d
    show V c main_v43 (((cfg0.win 1).blk t).view.emb (ix2 p d)) = _
    refine congrArg (V c main_v43) (funext fun a => Fin.ext ?_)
    match a with
    | ⟨0, _⟩ => show win0_1.index t (0 : Fin 2) * 2000 + 1 * p.val = win0_5.index t (0 : Fin 2) * 2000 + 1 * p.val; omega
    | ⟨1, _⟩ => show win0_1.index t (1 : Fin 2) * 3 + 1 * d.val = d.val; omega
  have hWl : (fun (g : Fin 128) (d : Fin 3) => iblk0 V c 2 t (ix2 g d)) = fun g d => V c main_arg2 (ix2 g d) := by
    funext g d
    show V c main_arg2 (((cfg0.win 2).blk t).view.emb (ix2 g d)) = _
    refine congrArg (V c main_arg2) (funext fun a => Fin.ext ?_)
    match a with
    | ⟨0, _⟩ => show win0_2.index t (0 : Fin 2) * 128 + 1 * g.val = g.val; omega
    | ⟨1, _⟩ => show win0_2.index t (1 : Fin 2) * 3 + 1 * d.val = d.val; omega
  have hWr : (fun (g : Fin 128) (d : Fin 3) => iblk0 V c 4 t (ix2 g d)) = fun g d => V c main_arg4 (ix2 g d) := by
    funext g d
    show V c main_arg4 (((cfg0.win 4).blk t).view.emb (ix2 g d)) = _
    refine congrArg (V c main_arg4) (funext fun a => Fin.ext ?_)
    match a with
    | ⟨0, _⟩ => show win0_4.index t (0 : Fin 2) * 128 + 1 * g.val = g.val; omega
    | ⟨1, _⟩ => show win0_4.index t (1 : Fin 2) * 3 + 1 * d.val = d.val; omega
  have hb : (fun g : Fin 128 => iblk0 V c 3 t (ix1 g)) = fun g => V c main_arg3 (ix1 g) := by
    funext g
    show V c main_arg3 (((cfg0.win 3).blk t).view.emb (ix1 g)) = _
    refine congrArg (V c main_arg3) (funext fun a => Fin.ext ?_)
    match a with
    | ⟨0, _⟩ => show win0_3.index t (0 : Fin 1) * 128 + 1 * g.val = g.val; omega
  rw [hA, hH, hWl, hWr, hb, hcol]

/-- An index of the result is in point t's block iff each coordinate is in the block's range on its axis. -/
theorem mem_blk (t : Fin cfg0.N) (i : S100000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v65).slice (win0_5.rect t)).set ↔ _
  rw [View.set_slice_whole, Rect.mem_set_unit]
  exact Iff.rfl

/-- Row r lies in the block of point r / 2000. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 50 := N_0
  refine ⟨⟨(i 0).val / 2000, by rw [hN]; omega⟩, flush0_5 _, ?_⟩
  obtain ⟨e50, e51, -⟩ := idx_facts ⟨(i 0).val / 2000, by rw [hN]; omega⟩
  rw [mem_blk]
  intro a
  match a with
  | ⟨0, _⟩ =>
    show win0_5.index _ (0 : Fin 2) * 2000 ≤ (i 0).val ∧ (i 0).val < win0_5.index _ (0 : Fin 2) * 2000 + 2000
    rw [e50]; show (i 0).val / 2000 * 2000 ≤ (i 0).val ∧ (i 0).val < (i 0).val / 2000 * 2000 + 2000; omega
  | ⟨1, _⟩ =>
    show win0_5.index _ (1 : Fin 2) * 128 ≤ (i 1).val ∧ (i 1).val < win0_5.index _ (1 : Fin 2) * 128 + 128
    rw [e51]; omega

/-- The region's result array is G0 of the arrays it finds. -/
theorem final (c : Dev nD) :
    (dat0 V c).arrAt 5 cfg0.N = G0 (V c main_v64) (V c main_v43) (V c main_arg2) (V c main_arg3) (V c main_arg4) :=
  (dat0 V c).arrAt_eq_of_cover 5 _ (fun t _ => flushed_eq V c t) cover

end Cert.KernelIdeal.Region0

end
-- ==== Proof.Region1.lean ====
/-
  The second pallas_call region as one function of the arrays it finds.

  The grid has 50 points; point t handles rows 2000 t … 2000 t + 1999.  Its blocks of the averaged neighbour features
  and of the first layer's output are rows 2000 t … of those [100000, 128] arrays; the weights and biases of the second
  graph layer and of the two dense layers are read whole at every point.  Row p of the [2000, 8] block it writes back is
  the softmax of the logits of row 2000 t + p (headRow).  The 50 blocks tile the [100000, 8] result, so the result
  array is headRow applied row by row (G1).
-/
import proofs.«147892_j13202729468516_1_alg».proof.Proof.Gen.KernelIdeal.Frame
import proofs.«147892_j13202729468516_1_alg».proof.Proof.LibDenseRows
import proofs.«147892_j13202729468516_1_alg».proof.Proof.LibRowSoftmax
import proofs.«147892_j13202729468516_1_alg».proof.Proof.Spec
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.DenseRows Cert.Spec

/-- The logits block at (p, q): a dense layer of tanh of a dense layer of the graph layer of row p. -/
theorem logits_apply (x0 x1 : Vec Ideal S2000x128 .f32) (x2 x4 : Vec Ideal S128x128 .f32) (x3 : Vec Ideal S128 .f32)
    (x5 : Vec Ideal S256x128 .f32) (x6 : Vec Ideal S256 .f32) (x7 : Vec Ideal S8x256 .f32) (x8 : Vec Ideal S8 .f32)
    (p : Fin 2000) (q : Fin 8) :
    k1_pay2 x0 x1 x2 x4 x3 x5 x6 x7 x8 (ix2 p q)
      = dense (fun j => Ideal.tanh (dense (sage (fun d => x0 (ix2 p d)) (fun d => x1 (ix2 p d)) (fun f d => x2 (ix2 f d))
            (fun f => x3 (ix1 f)) (fun f d => x4 (ix2 f d))) (fun j d => x5 (ix2 j d)) (fun j => x6 (ix1 j)) j))
          (fun q j => x7 (ix2 q j)) (fun q => x8 (ix1 q)) q := by
  refine (dense_kernel_apply dot_S2000x256_S256x8_S2000x8_1_0_0_1_n_n rfl _ x7 x8 bitsLt_bf16_f32
    transposes_S8x256_p1_0_S256x8 shapeCasts_S8_S1x8 broadcasts_S1x8_S2000x8 p q).trans ?_
  refine congrArg (fun g => dense g (fun q j => x7 (ix2 q j)) (fun q => x8 (ix1 q)) q) (funext fun j => ?_)
  show Ideal.tanh _ = Ideal.tanh _
  refine congrArg Ideal.tanh ?_
  refine (dense_kernel_apply dot_S2000x128_S128x256_S2000x256_1_0_0_1_n_n rfl _ x5 x6 bitsLt_bf16_f32
    transposes_S256x128_p1_0_S128x256 shapeCasts_S256_S1x256 broadcasts_S1x256_S2000x256 p j).trans ?_
  refine congrArg (fun g => dense g (fun j d => x5 (ix2 j d)) (fun j => x6 (ix1 j)) j) (funext fun f => ?_)
  exact sage_kernel_apply dot_S2000x128_S128x128_S2000x128_1_0_0_1_n_n rfl x0 x1 x2 x4 x3 shapeCasts_S2000x128_S2000x128
    bitsLt_bf16_f32 transposes_S128x128_p1_0_S128x128 shapeCasts_S128_S1x128 broadcasts_S1x128_S2000x128 p f

/-- The stored block at (p, q) is the softmax of row p of the logits block. -/
theorem softmax_apply (L : FVec Ideal S2000x8 .f32) (p : Fin 2000) (q : Fin 8) :
    k1_pay1 L (ix2 p q) = softmax (fun k => L (ix2 p k)) q :=
  softmax_kernel_apply L reduces_S2000x8_S2000 (.inl rfl) rfl rfl shapeCasts_S2000_S2000x1 broadcasts_S2000x1_S2000x8 p q

/-- The stored block at (p, q) from the loaded blocks. -/
theorem pay_apply (x0 x1 : Vec Ideal S2000x128 .f32) (x2 x4 : Vec Ideal S128x128 .f32) (x3 : Vec Ideal S128 .f32)
    (x5 : Vec Ideal S256x128 .f32) (x6 : Vec Ideal S256 .f32) (x7 : Vec Ideal S8x256 .f32) (x8 : Vec Ideal S8 .f32)
    (p : Fin 2000) (q : Fin 8) :
    k1_pay1 (k1_pay2 x0 x1 x2 x4 x3 x5 x6 x7 x8) (ix2 p q)
      = headRow (fun d => x0 (ix2 p d)) (fun d => x1 (ix2 p d)) (fun f d => x2 (ix2 f d)) (fun f => x3 (ix1 f))
          (fun f d => x4 (ix2 f d)) (fun j d => x5 (ix2 j d)) (fun j => x6 (ix1 j)) (fun q j => x7 (ix2 q j))
          (fun q => x8 (ix1 q)) q :=
  (softmax_apply (k1_pay2 x0 x1 x2 x4 x3 x5 x6 x7 x8) p q).trans
    (congrArg (fun g => softmax g q) (funext fun k => logits_apply x0 x1 x2 x4 x3 x5 x6 x7 x8 p k))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the two feature windows and the output move down one block per point, every
    weight and bias window stays at block 0. -/
theorem idx_facts : ∀ t : Fin cfg1.N, win1_9.index t (0 : Fin 2) = t.val ∧ win1_9.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 1) = 0
    ∧ win1_7.index t (0 : Fin 2) = 0 ∧ win1_7.index t (1 : Fin 2) = 0
    ∧ win1_8.index t (0 : Fin 1) = 0 :=
  (by decide +kernel : ∀ t : Fin grid1.N, _)

variable (V : (c : Dev nD) → (b : Ref sig .tc) → Buf (Elt Ideal) ((c : Thread nD τ).loc b))

set_option maxHeartbeats 4000000 in
/-- What point t writes back is block t of G1 of the arrays the region finds. -/
theorem flushed_eq (c : Dev nD) (t : Fin cfg1.N) :
    (dat1 V c).flushed 9 t = ((cfg1.win 9).blk t).view.read (Elt Ideal)
      (G1 (V c main_v78) (V c main_v65) (V c main_arg5) (V c main_arg6) (V c main_arg7) (V c main_arg8) (V c main_arg9)
        (V c main_arg10) (V c main_arg11)) := by
  show (cfg1.win 9).cut (grid1.coords t) ((dat1 V c).after 9 t) = _
  rw [after1_9]
  unfold out1_9
  rw [View.canon_unit_zero hz2]
  simp only [View.ld_unit_zero (S := S2000x128) hz2, View.ld_unit_zero (S := S128x128) hz2, View.ld_unit_zero (S := S128) hz1,
    View.ld_unit_zero (S := S256x128) hz2, View.ld_unit_zero (S := S256) hz1, View.ld_unit_zero (S := S8x256) hz2,
    View.ld_unit_zero (S := S8) hz1]
  obtain ⟨e90, e91, e00, e01, e10, e11, e20, e21, e30, e40, e41, e50, e51, e60, e70, e71, e80⟩ := idx_facts t
  funext y
  obtain ⟨p, q, rfl⟩ : ∃ (p : Fin 2000) (q : Fin 8), y = ix2 p q := ⟨y 0, y 1, eq_ix2 y⟩
  refine (pay_apply (iblk1 V c 0 t) (iblk1 V c 1 t) (iblk1 V c 2 t) (iblk1 V c 4 t) (iblk1 V c 3 t) (iblk1 V c 5 t)
    (iblk1 V c 6 t) (iblk1 V c 7 t) (iblk1 V c 8 t) p q).trans ?_
  show _ = G1 (V c main_v78) (V c main_v65) (V c main_arg5) (V c main_arg6) (V c main_arg7) (V c main_arg8) (V c main_arg9)
    (V c main_arg10) (V c main_arg11) (((cfg1.win 9).blk t).view.emb (ix2 p q))
  unfold G1
  have hcol : colOf (((cfg1.win 9).blk t).view.emb (ix2 p q)) = q := by
    apply Fin.ext
    show win1_9.index t (1 : Fin 2) * 8 + 1 * q.val = q.val
    omega
  have hA : (fun d : Fin 128 => iblk1 V c 0 t (ix2 p d))
      = fun d => V c main_v78 (ix2 (rowOf (((cfg1.win 9).blk t).view.emb (ix2 p q))) d) := by
    funext d
    show V c main_v78 (((cfg1.win 0).blk t).view.emb (ix2 p d)) = _
    refine congrArg (V c main_v78) (funext fun a => Fin.ext ?_)
    match a with
    | ⟨0, _⟩ => show win1_0.index t (0 : Fin 2) * 2000 + 1 * p.val = win1_9.index t (0 : Fin 2) * 2000 + 1 * p.val; omega
    | ⟨1, _⟩ => show win1_0.index t (1 : Fin 2) * 128 + 1 * d.val = d.val; omega
  have hC : (fun d : Fin 128 => iblk1 V c 1 t (ix2 p d))
      = fun d => V c main_v65 (ix2 (rowOf (((cfg1.win 9).blk t).view.emb (ix2 p q))) d) := by
    funext d
    show V c main_v65 (((cfg1.win 1).blk t).view.emb (ix2 p d)) = _
    refine congrArg (V c main_v65) (funext fun a => Fin.ext ?_)
    match a with
    | ⟨0, _⟩ => show win1_1.index t (0 : Fin 2) * 2000 + 1 * p.val = win1_9.index t (0 : Fin 2) * 2000 + 1 * p.val; omega
    | ⟨1, _⟩ => show win1_1.index t (1 : Fin 2) * 128 + 1 * d.val = d.val; omega
  have hWl : (fun (g : Fin 128) (d : Fin 128) => iblk1 V c 2 t (ix2 g d)) = fun g d => V c main_arg5 (ix2 g d) := by
    funext g d
    show V c main_arg5 (((cfg1.win 2).blk t).view.emb (ix2 g d)) = _
    refine congrArg (V c main_arg5) (funext fun a => Fin.ext ?_)
    match a with
    | ⟨0, _⟩ => show win1_2.index t (0 : Fin 2) * 128 + 1 * g.val = g.val; omega
    | ⟨1, _⟩ => show win1_2.index t (1 : Fin 2) * 128 + 1 * d.val = d.val; omega
  have hbl : (fun g : Fin 128 => iblk1 V c 3 t (ix1 g)) = fun g => V c main_arg6 (ix1 g) := by
    funext g
    show V c main_arg6 (((cfg1.win 3).blk t).view.emb (ix1 g)) = _
    refine congrArg (V c main_arg6) (funext fun a => Fin.ext ?_)
    match a with
    | ⟨0, _⟩ => show win1_3.index t (0 : Fin 1) * 128 + 1 * g.val = g.val; omega
  have hWr : (fun (g : Fin 128) (d : Fin 128) => iblk1 V c 4 t (ix2 g d)) = fun g d => V c main_arg7 (ix2 g d) := by
    funext g d
    show V c main_arg7 (((cfg1.win 4).blk t).view.emb (ix2 g d)) = _
    refine congrArg (V c main_arg7) (funext fun a => Fin.ext ?_)
    match a with
    | ⟨0, _⟩ => show win1_4.index t (0 : Fin 2) * 128 + 1 * g.val = g.val; omega
    | ⟨1, _⟩ => show win1_4.index t (1 : Fin 2) * 128 + 1 * d.val = d.val; omega
  have hW1 : (fun (j : Fin 256) (d : Fin 128) => iblk1 V c 5 t (ix2 j d)) = fun j d => V c main_arg8 (ix2 j d) := by
    funext j d
    show V c main_arg8 (((cfg1.win 5).blk t).view.emb (ix2 j d)) = _
    refine congrArg (V c main_arg8) (funext fun a => Fin.ext ?_)
    match a with
    | ⟨0, _⟩ => show win1_5.index t (0 : Fin 2) * 256 + 1 * j.val = j.val; omega
    | ⟨1, _⟩ => show win1_5.index t (1 : Fin 2) * 128 + 1 * d.val = d.val; omega
  have hb1 : (fun j : Fin 256 => iblk1 V c 6 t (ix1 j)) = fun j => V c main_arg9 (ix1 j) := by
    funext j
    show V c main_arg9 (((cfg1.win 6).blk t).view.emb (ix1 j)) = _
    refine congrArg (V c main_arg9) (funext fun a => Fin.ext ?_)
    match a with
    | ⟨0, _⟩ => show win1_6.index t (0 : Fin 1) * 256 + 1 * j.val = j.val; omega
  have hW2 : (fun (k : Fin 8) (j : Fin 256) => iblk1 V c 7 t (ix2 k j)) = fun k j => V c main_arg10 (ix2 k j) := by
    funext k j
    show V c main_arg10 (((cfg1.win 7).blk t).view.emb (ix2 k j)) = _
    refine congrArg (V c main_arg10) (funext fun a => Fin.ext ?_)
    match a with
    | ⟨0, _⟩ => show win1_7.index t (0 : Fin 2) * 8 + 1 * k.val = k.val; omega
    | ⟨1, _⟩ => show win1_7.index t (1 : Fin 2) * 256 + 1 * j.val = j.val; omega
  have hb2 : (fun k : Fin 8 => iblk1 V c 8 t (ix1 k)) = fun k => V c main_arg11 (ix1 k) := by
    funext k
    show V c main_arg11 (((cfg1.win 8).blk t).view.emb (ix1 k)) = _
    refine congrArg (V c main_arg11) (funext fun a => Fin.ext ?_)
    match a with
    | ⟨0, _⟩ => show win1_8.index t (0 : Fin 1) * 8 + 1 * k.val = k.val; omega
  rw [hA, hC, hWl, hbl, hWr, hW1, hb1, hW2, hb2, hcol]

/-- An index of the result is in point t's block iff each coordinate is in the block's range on its axis. -/
theorem mem_blk (t : Fin cfg1.N) (i : S100000x8.Idx) :
    i ∈ ((cfg1.win 9).blk t).view.set ↔ ∀ a : Fin 2, win1_9.index t a * S2000x8.size a ≤ (i a).val
      ∧ (i a).val < win1_9.index t a * S2000x8.size a + S2000x8.size a := by
  show i ∈ ((View.whole main_v79).slice (win1_9.rect t)).set ↔ _
  rw [View.set_slice_whole, Rect.mem_set_unit]
  exact Iff.rfl

/-- Row r lies in the block of point r / 2000. -/
theorem cover (i : S100000x8.Idx) : ∃ t : Fin cfg1.N, (cfg1.win 9).flush t = true ∧ i ∈ ((cfg1.win 9).blk t).view.set := by
  have hi0 : (i 0).val < 100000 := (i 0).isLt
  have hi1 : (i 1).val < 8 := (i 1).isLt
  have hN : cfg1.N = 50 := N_1
  refine ⟨⟨(i 0).val / 2000, by rw [hN]; omega⟩, flush1_9 _, ?_⟩
  obtain ⟨e90, e91, -⟩ := idx_facts ⟨(i 0).val / 2000, by rw [hN]; omega⟩
  rw [mem_blk]
  intro a
  match a with
  | ⟨0, _⟩ =>
    show win1_9.index _ (0 : Fin 2) * 2000 ≤ (i 0).val ∧ (i 0).val < win1_9.index _ (0 : Fin 2) * 2000 + 2000
    rw [e90]; show (i 0).val / 2000 * 2000 ≤ (i 0).val ∧ (i 0).val < (i 0).val / 2000 * 2000 + 2000; omega
  | ⟨1, _⟩ =>
    show win1_9.index _ (1 : Fin 2) * 8 ≤ (i 1).val ∧ (i 1).val < win1_9.index _ (1 : Fin 2) * 8 + 8
    rw [e91]; omega

/-- The region's result array is G1 of the arrays it finds. -/
theorem final (c : Dev nD) :
    (dat1 V c).arrAt 9 cfg1.N = G1 (V c main_v78) (V c main_v65) (V c main_arg5) (V c main_arg6) (V c main_arg7)
      (V c main_arg8) (V c main_arg9) (V c main_arg10) (V c main_arg11) :=
  (dat1 V c).arrAt_eq_of_cover 9 _ (fun t _ => flushed_eq V c t) cover

end Cert.KernelIdeal.Region1

end
-- ==== Proof.KBridge.lean ====
/-
  The kernel program's result as a function of its arguments.

  The second region's result array is G1 of the arrays it finds: the second mean (the sum over incoming edges of the
  first region's result, times the reciprocal count) and the first region's result, with the weights as launched.  The
  first region's result is G0 of the first mean and the normalised features.  The host's layers on whole arrays are G0
  and G1, and a sum times the reciprocal count is the sum divided by the count; so the result is the reference's
  composition of the same stages.
-/
import proofs.«147892_j13202729468516_1_alg».proof.Proof.Stages
import proofs.«147892_j13202729468516_1_alg».proof.Proof.Spec
import proofs.«147892_j13202729468516_1_alg».proof.Proof.Layers
import proofs.«147892_j13202729468516_1_alg».proof.Proof.Region0
import proofs.«147892_j13202729468516_1_alg».proof.Proof.Region1
import proofs.«147892_j13202729468516_1_alg».proof.Proof.KernelRun

noncomputable section

namespace Cert.KernelIdeal.KBridge

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The first region's result array, from the launch arguments. -/
theorem conv1_out (c : Dev nD) :
    (dat0 (V3 m ρ) c).arrAt 5 cfg0.N
      = Cert.Stages.convR3 (Cert.Stages.meanR3 (Cert.Stages.hNorm (m ((c.tc : Thread Cert.KernelIdeal.nD Cert.KernelIdeal.τ).loc Cert.KernelIdeal.main_arg0))) (Cert.Stages.e0 (m ((c.tc : Thread Cert.KernelIdeal.nD Cert.KernelIdeal.τ).loc Cert.KernelIdeal.main_arg1))) (Cert.Stages.e1 (m ((c.tc : Thread Cert.KernelIdeal.nD Cert.KernelIdeal.τ).loc Cert.KernelIdeal.main_arg1))))
          (Cert.Stages.hNorm (m ((c.tc : Thread Cert.KernelIdeal.nD Cert.KernelIdeal.τ).loc Cert.KernelIdeal.main_arg0))) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) := by
  rw [Cert.KernelIdeal.Region0.final (V3 m ρ) c, Cert.KernelIdeal.KValue.V3_v64 m ρ c, Cert.KernelIdeal.KValue.V3_v43 m ρ c,
    Cert.KernelIdeal.KValue.V3_arg2 m ρ c, Cert.KernelIdeal.KValue.V3_arg3 m ρ c, Cert.KernelIdeal.KValue.V3_arg4 m ρ c,
    Cert.Layers.meanK3_eq, ← Cert.Layers.convR3_eq]

set_option maxHeartbeats 4000000 in
/-- The program's result array, from the launch arguments: the reference's composition of the stages. -/
theorem kernel_out (c : Dev nD) :
    (dat1 (V5 m ρ) c).arrAt 9 cfg1.N
      = Cert.Stages.refOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) := by
  rw [Cert.KernelIdeal.Region1.final (V5 m ρ) c, Cert.KernelIdeal.KValue.V5_v78 m ρ c, Cert.KernelIdeal.KValue.V5_v65 m ρ c,
    Cert.KernelIdeal.KValue.V5_arg5 m ρ c, Cert.KernelIdeal.KValue.V5_arg6 m ρ c, Cert.KernelIdeal.KValue.V5_arg7 m ρ c,
    Cert.KernelIdeal.KValue.V5_arg8 m ρ c, Cert.KernelIdeal.KValue.V5_arg9 m ρ c, Cert.KernelIdeal.KValue.V5_arg10 m ρ c,
    Cert.KernelIdeal.KValue.V5_arg11 m ρ c, conv1_out m ρ c, Cert.Layers.meanK128_eq, ← Cert.Layers.head_eq]
  rfl

end Cert.KernelIdeal.KBridge

end
-- ==== Proof.lean ====
/-
  The certificate: the kernel program and the reference compute the same [100000, 8] array on the extended reals.

  Both programs normalise the node features, and twice average the features of each node's in-neighbours and apply a
  graph layer tanh ((a Wlᵀ + bl) + h Wrᵀ); a two-layer head and a row softmax follow.  The kernel program runs the two
  graph layers and the head in two pallas_call regions, 2000 rows at a point, with the weights' float format changed on
  the way into each matrix product (the identity on the extended reals), and multiplies the neighbour sums by
  1 / max (count, 1) where the reference divides them by max (count, 1).

  The frames of the two kernel programs are the generated ones.  The reference's run ends with its result at refOut of
  its arguments (module RefRun), and that run also gives its frame.  The kernel program's run ends with its result at
  the second region's array (module KernelRun), which is refOut of its arguments (module KBridge): each region's array
  is the layer applied row by row (Region0, Region1), the host's layers on whole arrays are those row functions, and
  x · (1 / M) = x / M for M = max (count, 1) ≠ 0 on the extended reals (Layers).  No rewrite was made when the kernel
  was idealised, so that claim is trivial.
-/
import proofs.«147892_j13202729468516_1_alg».proof.Defs
import proofs.«147892_j13202729468516_1_alg».proof.Proof.Gen.Kernel
import proofs.«147892_j13202729468516_1_alg».proof.Proof.Gen.Kernel.Skeleton
import proofs.«147892_j13202729468516_1_alg».proof.Proof.Gen.Kernel.Launch
import proofs.«147892_j13202729468516_1_alg».proof.Proof.Gen.Kernel.Points
import proofs.«147892_j13202729468516_1_alg».proof.Proof.Gen.Kernel.Frame
import proofs.«147892_j13202729468516_1_alg».proof.Proof.Gen.KernelIdeal
import proofs.«147892_j13202729468516_1_alg».proof.Proof.Gen.KernelIdeal.Skeleton
import proofs.«147892_j13202729468516_1_alg».proof.Proof.Gen.KernelIdeal.Launch
import proofs.«147892_j13202729468516_1_alg».proof.Proof.Gen.KernelIdeal.Points
import proofs.«147892_j13202729468516_1_alg».proof.Proof.Gen.KernelIdeal.Frame
import proofs.«147892_j13202729468516_1_alg».proof.Proof.Gen.ReferenceIdeal
import proofs.«147892_j13202729468516_1_alg».proof.Proof.Gen.Pre_finite_inputs
import proofs.«147892_j13202729468516_1_alg».proof.Proof.Stages
import proofs.«147892_j13202729468516_1_alg».proof.Proof.RefRun
import proofs.«147892_j13202729468516_1_alg».proof.Proof.KernelRun
import proofs.«147892_j13202729468516_1_alg».proof.Proof.KBridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run (F := Ideal) m ρ)

/-- Idealising the kernel rewrote nothing. -/
theorem preserves : Cert.preserves_Kernel_KernelIdeal := trivial

/-- Both runs end with their results at refOut of the arguments, and the arguments agree. -/
theorem algebraic : Cert.algebraic_KernelIdeal_ReferenceIdeal := by
  intro m ρ m' ρ' _ hagree
  refine ⟨fun c => Cert.Stages.refOut (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.KBridge.kernel_out m ρ c), (h c).2⟩)
      (Cert.KernelIdeal.KValue.run (F := Ideal) m ρ)
  · refine (θ_run Cert.ReferenceIdeal.defs _ _).mono (fun r h c => ⟨(h c).1.trans ?_, (h c).2⟩)
      (Cert.ReferenceIdeal.RefValue.run (F := Ideal) m' ρ')
    obtain ⟨h0, h1, h2, h3, h4, h5, h6, h7, h8, h9, h10, h11⟩ := hagree c
    rw [h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
